-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S100000x64 : Shape := ⟨2, ![100000, 64]⟩
abbrev S10000x2048 : Shape := ⟨2, ![10000, 2048]⟩
abbrev S10000x300 : Shape := ⟨2, ![10000, 300]⟩
abbrev S512x2048 : Shape := ⟨2, ![512, 2048]⟩
abbrev S512 : Shape := ⟨1, ![512]⟩
abbrev S64x512 : Shape := ⟨2, ![64, 512]⟩
abbrev S64 : Shape := ⟨1, ![64]⟩
abbrev S256x300 : Shape := ⟨2, ![256, 300]⟩
abbrev S256 : Shape := ⟨1, ![256]⟩
abbrev S64x256 : Shape := ⟨2, ![64, 256]⟩
abbrev S64x64 : Shape := ⟨2, ![64, 64]⟩
abbrev S64x128 : Shape := ⟨2, ![64, 128]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S10000x2048 : S_.BroadcastsInDim S10000x2048 (![] : Fin 0 → Fin S10000x2048.rank)
  reducesTo_S10000x2048_S_d0_1 : S10000x2048.ReducesTo [0, 1] S_
  bcast_S_S10000x300 : S_.BroadcastsInDim S10000x300 (![] : Fin 0 → Fin S10000x300.rank)
  reducesTo_S10000x300_S_d0_1 : S10000x300.ReducesTo [0, 1] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S256x300 : S_.BroadcastsInDim S256x300 (![] : Fin 0 → Fin S256x300.rank)
  reducesTo_S256x300_S_d0_1 : S256x300.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_

variable [Facts]

def fn_part5 {F : FTy → Type} [FloatOps F] (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  main_v88

def fn_part4 {F : FTy → Type} [FloatOps F] (main_arg16 : FVec F S64x128 .f32) (main_arg17 : FVec F S64 .f32) (main_arg18 : FVec F S64x128 .f32) (main_arg19 : FVec F S64 .f32) (main_v63 : IVec S_ 1) (main_v67 : IVec S_ 1) : IVec S_ 1 :=
  let main_v68 : IVec S_ 1 := andi main_v63 main_v67
  let main_v69 : FVec F S64x128 .f32 := Host.absf main_arg16
  let main_cst_26 : FVec F S_ .f32 := constant S_ .f32 0x7F800000#32
  let main_v70 : FVec F S64x128 .f32 := broadcastInDim S64x128 ![] bcast_S_S64x128 main_cst_26
  let main_v71 : IVec S64x128 1 := cmpf .olt main_v69 main_v70
  let main_c_27 : IVec S_ 1 := constantI S_ 1 1#1
  let main_v72 : IVec S_ 1 := (fun x v => Host.reduce IntOp.andi x v reducesTo_S64x128_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x128 .f32 := Host.absf main_arg18
  let main_cst_30 : FVec F S_ .f32 := constant S_ .f32 0x7F800000#32
  let main_v80 : FVec F S64x128 .f32 := broadcastInDim S64x128 ![] bcast_S_S64x128 main_cst_30
  let main_v81 : IVec S64x128 1 := cmpf .olt main_v79 main_v80
  let main_c_31 : IVec S_ 1 := constantI S_ 1 1#1
  let main_v82 : IVec S_ 1 := (fun x v => Host.reduce IntOp.andi x v reducesTo_S64x128_S_d0_1 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_v83 main_v84 main_cst_32

def fn_part3 {F : FTy → Type} [FloatOps F] (main_arg13 : FVec F S64 .f32) (main_arg14 : FVec F S64x64 .f32) (main_arg15 : FVec F S64 .f32) (main_arg16 : FVec F S64x128 .f32) (main_arg17 : FVec F S64 .f32) (main_arg18 : FVec F S64x128 .f32) (main_arg19 : FVec F S64 .f32) (main_v48 : IVec S_ 1) (main_v49 : FVec F S64x256 .f32) (main_v50 : FVec F S64x256 .f32) : IVec S_ 1 :=
  let main_v51 : IVec S64x256 1 := cmpf .olt main_v49 main_v50
  let main_c_19 : IVec S_ 1 := constantI S_ 1 1#1
  let main_v52 : IVec S_ 1 := (fun x v => Host.reduce IntOp.andi x v reducesTo_S64x256_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_v63 main_v67

def fn_part2 {F : FTy → Type} [FloatOps F] (main_arg9 : FVec F S64 .f32) (main_arg10 : FVec F S256x300 .f32) (main_arg11 : FVec F S256 .f32) (main_arg12 : FVec F S64x256 .f32) (main_arg13 : FVec F S64 .f32) (main_arg14 : FVec F S64x64 .f32) (main_arg15 : FVec F S64 .f32) (main_arg16 : FVec F S64x128 .f32) (main_arg17 : FVec F S64 .f32) (main_arg18 : FVec F S64x128 .f32) (main_arg19 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S256x300 .f32 := Host.absf main_arg10
  let main_cst_14 : FVec F S_ .f32 := constant S_ .f32 0x7F800000#32
  let main_v40 : FVec F S256x300 .f32 := broadcastInDim S256x300 ![] bcast_S_S256x300 main_cst_14
  let main_v41 : IVec S256x300 1 := cmpf .olt main_v39 main_v40
  let main_c_15 : IVec S_ 1 := constantI S_ 1 1#1
  let main_v42 : IVec S_ 1 := (fun x v => Host.reduce IntOp.andi x v reducesTo_S256x300_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S64x256 .f32 := Host.absf main_arg12
  let main_cst_18 : FVec F S_ .f32 := constant S_ .f32 0x7F800000#32
  let main_v50 : FVec F S64x256 .f32 := broadcastInDim S64x256 ![] bcast_S_S64x256 main_cst_18
  fn_part3 (F := F) main_arg13 main_arg14 main_arg15 main_arg16 main_arg17 main_arg18 main_arg19 main_v48 main_v49 main_v50

def fn_part1 {F : FTy → Type} [FloatOps F] (main_arg6 : FVec F S512x2048 .f32) (main_arg7 : FVec F S512 .f32) (main_arg8 : FVec F S64x512 .f32) (main_arg9 : FVec F S64 .f32) (main_arg10 : FVec F S256x300 .f32) (main_arg11 : FVec F S256 .f32) (main_arg12 : FVec F S64x256 .f32) (main_arg13 : FVec F S64 .f32) (main_arg14 : FVec F S64x64 .f32) (main_arg15 : FVec F S64 .f32) (main_arg16 : FVec F S64x128 .f32) (main_arg17 : FVec F S64 .f32) (main_arg18 : FVec F S64x128 .f32) (main_arg19 : FVec F S64 .f32) (main_v13 : IVec S_ 1) (main_v16 : IVec S10000x300 1) : IVec S_ 1 :=
  let main_c_5 : IVec S_ 1 := constantI S_ 1 1#1
  let main_v17 : IVec S_ 1 := (fun x v => Host.reduce IntOp.andi x v reducesTo_S10000x300_S_d0_1 h_S_) main_v16 main_c_5
  let main_v18 : IVec S_ 1 := andi main_v13 main_v17
  let main_v19 : FVec F S512x2048 .f32 := Host.absf main_arg6
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S64x512 .f32 := Host.absf main_arg8
  let main_cst_10 : FVec F S_ .f32 := constant S_ .f32 0x7F800000#32
  let main_v30 : FVec F S64x512 .f32 := broadcastInDim S64x512 ![] bcast_S_S64x512 main_cst_10
  let main_v31 : IVec S64x512 1 := cmpf .olt main_v29 main_v30
  let main_c_11 : IVec S_ 1 := constantI S_ 1 1#1
  let main_v32 : IVec S_ 1 := (fun x v => Host.reduce IntOp.andi x v reducesTo_S64x512_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : IVec S1600000 32) (main_arg1 : IVec S1600000 32) (main_arg2 : FVec F S1600000 .f32) (main_arg3 : FVec F S100000x64 .f32) (main_arg4 : FVec F S10000x2048 .f32) (main_arg5 : FVec F S10000x300 .f32) (main_arg6 : FVec F S512x2048 .f32) (main_arg7 : FVec F S512 .f32) (main_arg8 : FVec F S64x512 .f32) (main_arg9 : FVec F S64 .f32) (main_arg10 : FVec F S256x300 .f32) (main_arg11 : FVec F S256 .f32) (main_arg12 : FVec F S64x256 .f32) (main_arg13 : FVec F S64 .f32) (main_arg14 : FVec F S64x64 .f32) (main_arg15 : FVec F S64 .f32) (main_arg16 : FVec F S64x128 .f32) (main_arg17 : FVec F S64 .f32) (main_arg18 : FVec F S64x128 .f32) (main_arg19 : FVec F S64 .f32) : IVec S_ 1 :=
  let main_v0 : FVec F S1600000 .f32 := Host.absf main_arg2
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S10000x2048 .f32 := Host.absf main_arg4
  let main_cst_2 : FVec F S_ .f32 := constant S_ .f32 0x7F800000#32
  let main_v10 : FVec F S10000x2048 .f32 := broadcastInDim S10000x2048 ![] bcast_S_S10000x2048 main_cst_2
  let main_v11 : IVec S10000x2048 1 := cmpf .olt main_v9 main_v10
  let main_c_3 : IVec S_ 1 := constantI S_ 1 1#1
  let main_v12 : IVec S_ 1 := (fun x v => Host.reduce IntOp.andi x v reducesTo_S10000x2048_S_d0_1 h_S_) main_v11 main_c_3
  let main_v13 : IVec S_ 1 := andi main_v8 main_v12
  let main_v14 : FVec F S10000x300 .f32 := Host.absf main_arg5
  let main_cst_4 : FVec F S_ .f32 := constant S_ .f32 0x7F800000#32
  let main_v15 : FVec F S10000x300 .f32 := broadcastInDim S10000x300 ![] bcast_S_S10000x300 main_cst_4
  let main_v16 : IVec S10000x300 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S1600000 : Shape := ⟨1, ![1600000]⟩
abbrev S100000x64 : Shape := ⟨2, ![100000, 64]⟩
abbrev S10000x2048 : Shape := ⟨2, ![10000, 2048]⟩
abbrev S10000x300 : Shape := ⟨2, ![10000, 300]⟩
abbrev S512x2048 : Shape := ⟨2, ![512, 2048]⟩
abbrev S512 : Shape := ⟨1, ![512]⟩
abbrev S64x512 : Shape := ⟨2, ![64, 512]⟩
abbrev S64 : Shape := ⟨1, ![64]⟩
abbrev S256x300 : Shape := ⟨2, ![256, 300]⟩
abbrev S256 : Shape := ⟨1, ![256]⟩
abbrev S64x256 : Shape := ⟨2, ![64, 256]⟩
abbrev S64x64 : Shape := ⟨2, ![64, 64]⟩
abbrev S64x128 : Shape := ⟨2, ![64, 128]⟩
abbrev S2048x512 : Shape := ⟨2, ![2048, 512]⟩
abbrev S512x64 : Shape := ⟨2, ![512, 64]⟩
abbrev S300x256 : Shape := ⟨2, ![300, 256]⟩
abbrev S256x64 : Shape := ⟨2, ![256, 64]⟩
abbrev S1x512 : Shape := ⟨2, ![1, 512]⟩
abbrev S1x64 : Shape := ⟨2, ![1, 64]⟩
abbrev S1x256 : Shape := ⟨2, ![1, 256]⟩
abbrev S10000x64 : Shape := ⟨2, ![10000, 64]⟩
abbrev S1000x2048 : Shape := ⟨2, ![1000, 2048]⟩
abbrev S1000x300 : Shape := ⟨2, ![1000, 300]⟩
abbrev S1000x64 : Shape := ⟨2, ![1000, 64]⟩
abbrev S1000x512 : Shape := ⟨2, ![1000, 512]⟩
abbrev S1000x256 : Shape := ⟨2, ![1000, 256]⟩
abbrev S_ : Shape := ⟨0, ![]⟩
abbrev S1 : Shape := ⟨1, ![1]⟩
abbrev S1600000x1 : Shape := ⟨2, ![1600000, 1]⟩
abbrev S1600000x64 : Shape := ⟨2, ![1600000, 64]⟩
abbrev S100000x192 : Shape := ⟨2, ![100000, 192]⟩

abbrev nBuf : Space → Nat
  | .hbm => 79
  | .vmem => 34
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000, .f32⟩
  | .hbm, ⟨3, _⟩ => ⟨S100000x64, .f32⟩
  | .hbm, ⟨4, _⟩ => ⟨S10000x2048, .f32⟩
  | .hbm, ⟨5, _⟩ => ⟨S10000x300, .f32⟩
  | .hbm, ⟨6, _⟩ => ⟨S512x2048, .f32⟩
  | .hbm, ⟨7, _⟩ => ⟨S512, .f32⟩
  | .hbm, ⟨8, _⟩ => ⟨S64x512, .f32⟩
  | .hbm, ⟨9, _⟩ => ⟨S64, .f32⟩
  | .hbm, ⟨10, _⟩ => ⟨S256x300, .f32⟩
  | .hbm, ⟨11, _⟩ => ⟨S256, .f32⟩
  | .hbm, ⟨12, _⟩ => ⟨S64x256, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x128, .f32⟩
  | .hbm, ⟨17, _⟩ => ⟨S64, .f32⟩
  | .hbm, ⟨18, _⟩ => ⟨S64x128, .f32⟩
  | .hbm, ⟨19, _⟩ => ⟨S64, .f32⟩
  | .hbm, ⟨20, _⟩ => ⟨S2048x512, .f32⟩
  | .hbm, ⟨21, _⟩ => ⟨S512x64, .f32⟩
  | .hbm, ⟨22, _⟩ => ⟨S300x256, .f32⟩
  | .hbm, ⟨23, _⟩ => ⟨S256x64, .f32⟩
  | .hbm, ⟨24, _⟩ => ⟨S64x64, .f32⟩
  | .hbm, ⟨25, _⟩ => ⟨S1x512, .f32⟩
  | .hbm, ⟨26, _⟩ => ⟨S1x64, .f32⟩
  | .hbm, ⟨27, _⟩ => ⟨S1x256, .f32⟩
  | .hbm, ⟨28, _⟩ => ⟨S1x64, .f32⟩
  | .hbm, ⟨29, _⟩ => ⟨S1x64, .f32⟩
  | .hbm, ⟨30, _⟩ => ⟨S10000x64, .f32⟩
  | .hbm, ⟨31, _⟩ => ⟨S_, .i32⟩
  | .hbm, ⟨32, _⟩ => ⟨S1, .i32⟩
  | .hbm, ⟨33, _⟩ => ⟨S100000x64, .f32⟩
  | .hbm, ⟨34, _⟩ => ⟨S1600000x1, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S1600000x64, .f32⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S64x64, .f32⟩
  | .hbm, ⟨51, _⟩ => ⟨S64x64, .f32⟩
  | .hbm, ⟨52, _⟩ => ⟨S64x64, .f32⟩
  | .hbm, ⟨53, _⟩ => ⟨S64x64, .f32⟩
  | .hbm, ⟨54, _⟩ => ⟨S1x64, .f32⟩
  | .hbm, ⟨55, _⟩ => ⟨S100000x64, .f32⟩
  | .hbm, ⟨56, _⟩ => ⟨S1600000x1, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x64, .f32⟩
  | .hbm, ⟨66, _⟩ => ⟨S1600000x64, .f32⟩
  | .hbm, ⟨67, _⟩ => ⟨S1600000x64, .f32⟩
  | .hbm, ⟨68, _⟩ => ⟨S_, .f32⟩
  | .hbm, ⟨69, _⟩ => ⟨S100000x64, .f32⟩
  | .hbm, ⟨70, _⟩ => ⟨S1600000x1, .i32⟩
  | .hbm, ⟨71, _⟩ => ⟨S100000x64, .f32⟩
  | .hbm, ⟨72, _⟩ => ⟨S64x64, .f32⟩
  | .hbm, ⟨73, _⟩ => ⟨S64x64, .f32⟩
  | .hbm, ⟨74, _⟩ => ⟨S64x64, .f32⟩
  | .hbm, ⟨75, _⟩ => ⟨S64x64, .f32⟩
  | .hbm, ⟨76, _⟩ => ⟨S1x64, .f32⟩
  | .hbm, ⟨77, _⟩ => ⟨S100000x64, .f32⟩
  | .hbm, ⟨78, _⟩ => ⟨S100000x192, .f32⟩
  | .local _ .vmem, ⟨0, _⟩ => ⟨S1000x2048, .f32⟩
  | .local _ .vmem, ⟨1, _⟩ => ⟨S1000x2048, .f32⟩
  | .local _ .vmem, ⟨2, _⟩ => ⟨S1000x300, .f32⟩
  | .local _ .vmem, ⟨3, _⟩ => ⟨S1000x300, .f32⟩
  | .local _ .vmem, ⟨4, _⟩ => ⟨S2048x512, .f32⟩
  | .local _ .vmem, ⟨5, _⟩ => ⟨S1x512, .f32⟩
  | .local _ .vmem, ⟨6, _⟩ => ⟨S512x64, .f32⟩
  | .local _ .vmem, ⟨7, _⟩ => ⟨S1x64, .f32⟩
  | .local _ .vmem, ⟨8, _⟩ => ⟨S300x256, .f32⟩
  | .local _ .vmem, ⟨9, _⟩ => ⟨S1x256, .f32⟩
  | .local _ .vmem, ⟨10, _⟩ => ⟨S256x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S1000x64, .f32⟩
  | .local _ .vmem, ⟨15, _⟩ => ⟨S1000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S64x64, .f32⟩
  | .local _ .vmem, ⟨21, _⟩ => ⟨S64x64, .f32⟩
  | .local _ .vmem, ⟨22, _⟩ => ⟨S1x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S64x64, .f32⟩
  | .local _ .vmem, ⟨30, _⟩ => ⟨S64x64, .f32⟩
  | .local _ .vmem, ⟨31, _⟩ => ⟨S1x64, .f32⟩
  | .local _ .vmem, ⟨32, _⟩ => ⟨S10000x64, .f32⟩
  | .local _ .vmem, ⟨33, _⟩ => ⟨S10000x64, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_0 : Ref sig .tc := ⟨.hbm, 35, rfl⟩
abbrev main_v14 : Ref sig .tc := ⟨.hbm, 36, rfl⟩
abbrev main_v15 : Ref sig .tc := ⟨.hbm, 37, rfl⟩
abbrev main_c_1 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_2 : Ref sig .tc := ⟨.hbm, 57, rfl⟩
abbrev main_v33 : Ref sig .tc := ⟨.hbm, 58, rfl⟩
abbrev main_v34 : Ref sig .tc := ⟨.hbm, 59, rfl⟩
abbrev main_c_3 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_4 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg5_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem5_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem5_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S300x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1000x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  transposes_S512x2048_S2048x512_1_0 : S512x2048.Transposes [1, 0] S2048x512
  transposes_S64x512_S512x64_1_0 : S64x512.Transposes [1, 0] S512x64
  transposes_S256x300_S300x256_1_0 : S256x300.Transposes [1, 0] S300x256
  transposes_S64x256_S256x64_1_0 : S64x256.Transposes [1, 0] S256x64
  transposes_S64x64_S64x64_1_0 : S64x64.Transposes [1, 0] S64x64
  shapeCasts_S512_S1x512 : S512.ShapeCasts S1x512
  shapeCasts_S64_S1x64 : S64.ShapeCasts S1x64
  shapeCasts_S256_S1x256 : S256.ShapeCasts S1x256
  inb_S1000x2048_S1000x2048_0_0 : ∀ a, (![0, 0] : Fin 2 → Nat) a + S1000x2048.size a ≤ S1000x2048.size a
  h_S1000x2048 : 0 < S1000x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1000x300_S1000x300_0_0 : ∀ a, (![0, 0] : Fin 2 → Nat) a + S1000x300.size a ≤ S1000x300.size a
  h_S1000x300 : 0 < S1000x300.numel
  inb_S300x256_S300x256_0_0 : ∀ a, (![0, 0] : Fin 2 → Nat) a + S300x256.size a ≤ S300x256.size a
  h_S300x256 : 0 < S300x256.numel
  shapeCasts_S300x256_S300x256 : S300x256.ShapeCasts S300x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1000x64_S1000x64_0_0 : ∀ a, (![0, 0] : Fin 2 → Nat) a + S1000x64.size a ≤ S1000x64.size a
  h_S1000x64 : 0 < S1000x64.numel
  bcast_S_S1 : S_.BroadcastsInDim S1 (![] : Fin 0 → Fin S1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S64x128_S64x64_0_0 : S64x128.Slices ![0, 0] S64x64
  slices_S64x128_S64x64_0_64 : S64x128.Slices ![0, 64] S64x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  concatenates_S100000x64_S100000x64_S100000x64_S100000x192_d1 : Shape.Concatenates [S100000x64, S100000x64, S100000x64] S100000x192 1
  dot_S1000x2048_S2048x512_S1000x512_1_0_0_1_n_n_wf : DotDims.WF S1000x2048 S2048x512 S1000x512 [1] [0] [0] [1] [] []
  dot_S1000x512_S512x64_S1000x64_1_0_0_1_n_n_wf : DotDims.WF S1000x512 S512x64 S1000x64 [1] [0] [0] [1] [] []
  dot_S1000x64_S64x64_S1000x64_1_0_0_1_n_n_wf : DotDims.WF S1000x64 S64x64 S1000x64 [1] [0] [0] [1] [] []
  dot_S1000x300_S300x256_S1000x256_1_0_0_1_n_n_wf : DotDims.WF S1000x300 S300x256 S1000x256 [1] [0] [0] [1] [] []
  dot_S1000x256_S256x64_S1000x64_1_0_0_1_n_n_wf : DotDims.WF S1000x256 S256x64 S1000x64 [1] [0] [0] [1] [] []
  scatter_S100000x64_S1_S10000x64_01_n_0_0_wf : ScatterDims.WF S100000x64 S1 S10000x64 [0, 1] [] [0] 0
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2048.size a ≤ S10000x2048.size a
  hwx0_0 : ∀ i : grid0.Coords, EltTy.bits .f32 = 32 ∨ (Rect.block (s := S10000x2048) S1000x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x300.size a ≤ S10000x300.size a
  hwx0_1 : ∀ i : grid0.Coords, EltTy.bits .f32 = 32 ∨ (Rect.block (s := S10000x300) S1000x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x512.size a
  hwx0_2 : ∀ i : grid0.Coords, EltTy.bits .f32 = 32 ∨ (Rect.block (s := S2048x512) S2048x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S512x64.size a
  hwx0_4 : ∀ i : grid0.Coords, EltTy.bits .f32 = 32 ∨ (Rect.block (s := S512x64) S512x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S300x256.size a ≤ S300x256.size a
  hwx0_6 : ∀ i : grid0.Coords, EltTy.bits .f32 = 32 ∨ (Rect.block (s := S300x256) S300x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x64.size a ≤ S256x64.size a
  hwx0_8 : ∀ i : grid0.Coords, EltTy.bits .f32 = 32 ∨ (Rect.block (s := S256x64) S256x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .f32 = 32 ∨ (Rect.block (s := S64x64) S64x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1000x64.size a ≤ S10000x64.size a
  hwx0_12 : ∀ i : grid0.Coords, EltTy.bits .f32 = 32 ∨ (Rect.block (s := S10000x64) S1000x64.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)

variable [Facts₀]

def dot_S1000x2048_S2048x512_S1000x512_1_0_0_1_n_n : DotDims S1000x2048 S2048x512 S1000x512 where
  lhsContracting := [1]
  rhsContracting := [0]
  lhsNonContracting := [0]
  rhsNonContracting := [1]
  lhsBatch := []
  rhsBatch := []
  wf := dot_S1000x2048_S2048x512_S1000x512_1_0_0_1_n_n_wf
def dot_S1000x512_S512x64_S1000x64_1_0_0_1_n_n : DotDims S1000x512 S512x64 S1000x64 where
  lhsContracting := [1]
  rhsContracting := [0]
  lhsNonContracting := [0]
  rhsNonContracting := [1]
  lhsBatch := []
  rhsBatch := []
  wf := dot_S1000x512_S512x64_S1000x64_1_0_0_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S1000x300_S300x256_S1000x256_1_0_0_1_n_n : DotDims S1000x300 S300x256 S1000x256 where
  lhsContracting := [1]
  rhsContracting := [0]
  lhsNonContracting := [0]
  rhsNonContracting := [1]
  lhsBatch := []
  rhsBatch := []
  wf := dot_S1000x300_S300x256_S1000x256_1_0_0_1_n_n_wf
def dot_S1000x256_S256x64_S1000x64_1_0_0_1_n_n : DotDims S1000x256 S256x64 S1000x64 where
  lhsContracting := [1]
  rhsContracting := [0]
  lhsNonContracting := [0]
  rhsNonContracting := [1]
  lhsBatch := []
  rhsBatch := []
  wf := dot_S1000x256_S256x64_S1000x64_1_0_0_1_n_n_wf
def scatter_S100000x64_S1_S10000x64_01_n_0_0 : ScatterDims S100000x64 S1 S10000x64 where
  updateWindowDims := [0, 1]
  insertedWindowDims := []
  scatterDimsToOperandDims := [0]
  indexVectorDim := 0
  wf := scatter_S100000x64_S1_S10000x64_01_n_0_0_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg4) S1000x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1000x300.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S300x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S256x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v10) S1000x64.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v12) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v31) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S1600000 : Shape := ⟨1, ![1600000]⟩
abbrev S100000x64 : Shape := ⟨2, ![100000, 64]⟩
abbrev S10000x2048 : Shape := ⟨2, ![10000, 2048]⟩
abbrev S10000x300 : Shape := ⟨2, ![10000, 300]⟩
abbrev S512x2048 : Shape := ⟨2, ![512, 2048]⟩
abbrev S512 : Shape := ⟨1, ![512]⟩
abbrev S64x512 : Shape := ⟨2, ![64, 512]⟩
abbrev S64 : Shape := ⟨1, ![64]⟩
abbrev S256x300 : Shape := ⟨2, ![256, 300]⟩
abbrev S256 : Shape := ⟨1, ![256]⟩
abbrev S64x256 : Shape := ⟨2, ![64, 256]⟩
abbrev S64x64 : Shape := ⟨2, ![64, 64]⟩
abbrev S64x128 : Shape := ⟨2, ![64, 128]⟩
abbrev S2048x512 : Shape := ⟨2, ![2048, 512]⟩
abbrev S10000x512 : Shape := ⟨2, ![10000, 512]⟩
abbrev S1x512 : Shape := ⟨2, ![1, 512]⟩
abbrev S_ : Shape := ⟨0, ![]⟩
abbrev S512x64 : Shape := ⟨2, ![512, 64]⟩
abbrev S10000x64 : Shape := ⟨2, ![10000, 64]⟩
abbrev S1x64 : Shape := ⟨2, ![1, 64]⟩
abbrev S300x256 : Shape := ⟨2, ![300, 256]⟩
abbrev S10000x256 : Shape := ⟨2, ![10000, 256]⟩
abbrev S1x256 : Shape := ⟨2, ![1, 256]⟩
abbrev S256x64 : Shape := ⟨2, ![256, 64]⟩
abbrev S1 : Shape := ⟨1, ![1]⟩
abbrev S1600000x1 : Shape := ⟨2, ![1600000, 1]⟩
abbrev S1600000x64 : Shape := ⟨2, ![1600000, 64]⟩
abbrev S100000x128 : Shape := ⟨2, ![100000, 128]⟩
abbrev S128x64 : Shape := ⟨2, ![128, 64]⟩
abbrev S100000x192 : Shape := ⟨2, ![100000, 192]⟩

abbrev nBuf : Space → Nat
  | .hbm => 124
  | .vmem => 0
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000, .f32⟩
  | .hbm, ⟨3, _⟩ => ⟨S100000x64, .f32⟩
  | .hbm, ⟨4, _⟩ => ⟨S10000x2048, .f32⟩
  | .hbm, ⟨5, _⟩ => ⟨S10000x300, .f32⟩
  | .hbm, ⟨6, _⟩ => ⟨S512x2048, .f32⟩
  | .hbm, ⟨7, _⟩ => ⟨S512, .f32⟩
  | .hbm, ⟨8, _⟩ => ⟨S64x512, .f32⟩
  | .hbm, ⟨9, _⟩ => ⟨S64, .f32⟩
  | .hbm, ⟨10, _⟩ => ⟨S256x300, .f32⟩
  | .hbm, ⟨11, _⟩ => ⟨S256, .f32⟩
  | .hbm, ⟨12, _⟩ => ⟨S64x256, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x128, .f32⟩
  | .hbm, ⟨17, _⟩ => ⟨S64, .f32⟩
  | .hbm, ⟨18, _⟩ => ⟨S64x128, .f32⟩
  | .hbm, ⟨19, _⟩ => ⟨S64, .f32⟩
  | .hbm, ⟨20, _⟩ => ⟨S2048x512, .f32⟩
  | .hbm, ⟨21, _⟩ => ⟨S10000x512, .f32⟩
  | .hbm, ⟨22, _⟩ => ⟨S1x512, .f32⟩
  | .hbm, ⟨23, _⟩ => ⟨S10000x512, .f32⟩
  | .hbm, ⟨24, _⟩ => ⟨S10000x512, .f32⟩
  | .hbm, ⟨25, _⟩ => ⟨S_, .f32⟩
  | .hbm, ⟨26, _⟩ => ⟨S10000x512, .f32⟩
  | .hbm, ⟨27, _⟩ => ⟨S10000x512, .f32⟩
  | .hbm, ⟨28, _⟩ => ⟨S512x64, .f32⟩
  | .hbm, ⟨29, _⟩ => ⟨S10000x64, .f32⟩
  | .hbm, ⟨30, _⟩ => ⟨S1x64, .f32⟩
  | .hbm, ⟨31, _⟩ => ⟨S10000x64, .f32⟩
  | .hbm, ⟨32, _⟩ => ⟨S10000x64, .f32⟩
  | .hbm, ⟨33, _⟩ => ⟨S64x64, .f32⟩
  | .hbm, ⟨34, _⟩ => ⟨S10000x64, .f32⟩
  | .hbm, ⟨35, _⟩ => ⟨S1x64, .f32⟩
  | .hbm, ⟨36, _⟩ => ⟨S10000x64, .f32⟩
  | .hbm, ⟨37, _⟩ => ⟨S10000x64, .f32⟩
  | .hbm, ⟨38, _⟩ => ⟨S300x256, .f32⟩
  | .hbm, ⟨39, _⟩ => ⟨S10000x256, .f32⟩
  | .hbm, ⟨40, _⟩ => ⟨S1x256, .f32⟩
  | .hbm, ⟨41, _⟩ => ⟨S10000x256, .f32⟩
  | .hbm, ⟨42, _⟩ => ⟨S10000x256, .f32⟩
  | .hbm, ⟨43, _⟩ => ⟨S_, .f32⟩
  | .hbm, ⟨44, _⟩ => ⟨S10000x256, .f32⟩
  | .hbm, ⟨45, _⟩ => ⟨S10000x256, .f32⟩
  | .hbm, ⟨46, _⟩ => ⟨S256x64, .f32⟩
  | .hbm, ⟨47, _⟩ => ⟨S10000x64, .f32⟩
  | .hbm, ⟨48, _⟩ => ⟨S1x64, .f32⟩
  | .hbm, ⟨49, _⟩ => ⟨S10000x64, .f32⟩
  | .hbm, ⟨50, _⟩ => ⟨S10000x64, .f32⟩
  | .hbm, ⟨51, _⟩ => ⟨S64x64, .f32⟩
  | .hbm, ⟨52, _⟩ => ⟨S10000x64, .f32⟩
  | .hbm, ⟨53, _⟩ => ⟨S1x64, .f32⟩
  | .hbm, ⟨54, _⟩ => ⟨S10000x64, .f32⟩
  | .hbm, ⟨55, _⟩ => ⟨S10000x64, .f32⟩
  | .hbm, ⟨56, _⟩ => ⟨S10000x64, .f32⟩
  | .hbm, ⟨57, _⟩ => ⟨S_, .f32⟩
  | .hbm, ⟨58, _⟩ => ⟨S10000x64, .f32⟩
  | .hbm, ⟨59, _⟩ => ⟨S10000x64, .f32⟩
  | .hbm, ⟨60, _⟩ => ⟨S_, .i32⟩
  | .hbm, ⟨61, _⟩ => ⟨S1, .i32⟩
  | .hbm, ⟨62, _⟩ => ⟨S100000x64, .f32⟩
  | .hbm, ⟨63, _⟩ => ⟨S1600000x1, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x64, .f32⟩
  | .hbm, ⟨73, _⟩ => ⟨S1600000x64, .f32⟩
  | .hbm, ⟨74, _⟩ => ⟨S1600000x64, .f32⟩
  | .hbm, ⟨75, _⟩ => ⟨S_, .f32⟩
  | .hbm, ⟨76, _⟩ => ⟨S100000x64, .f32⟩
  | .hbm, ⟨77, _⟩ => ⟨S1600000x1, .i32⟩
  | .hbm, ⟨78, _⟩ => ⟨S100000x64, .f32⟩
  | .hbm, ⟨79, _⟩ => ⟨S100000x128, .f32⟩
  | .hbm, ⟨80, _⟩ => ⟨S128x64, .f32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S_, .f32⟩
  | .hbm, ⟨87, _⟩ => ⟨S100000x64, .f32⟩
  | .hbm, ⟨88, _⟩ => ⟨S100000x64, .i1⟩
  | .hbm, ⟨89, _⟩ => ⟨S_, .f32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S1600000x1, .f32⟩
  | .hbm, ⟨94, _⟩ => ⟨S_, .i32⟩
  | .hbm, ⟨95, _⟩ => ⟨S1600000, .i32⟩
  | .hbm, ⟨96, _⟩ => ⟨S1600000, .i1⟩
  | .hbm, ⟨97, _⟩ => ⟨S_, .i32⟩
  | .hbm, ⟨98, _⟩ => ⟨S1600000, .i32⟩
  | .hbm, ⟨99, _⟩ => ⟨S1600000, .i32⟩
  | .hbm, ⟨100, _⟩ => ⟨S1600000, .i32⟩
  | .hbm, ⟨101, _⟩ => ⟨S1600000x1, .i32⟩
  | .hbm, ⟨102, _⟩ => ⟨S1600000x64, .f32⟩
  | .hbm, ⟨103, _⟩ => ⟨S1600000x64, .f32⟩
  | .hbm, ⟨104, _⟩ => ⟨S1600000x64, .f32⟩
  | .hbm, ⟨105, _⟩ => ⟨S_, .f32⟩
  | .hbm, ⟨106, _⟩ => ⟨S100000x64, .f32⟩
  | .hbm, ⟨107, _⟩ => ⟨S1600000x1, .i32⟩
  | .hbm, ⟨108, _⟩ => ⟨S100000x64, .f32⟩
  | .hbm, ⟨109, _⟩ => ⟨S100000x128, .f32⟩
  | .hbm, ⟨110, _⟩ => ⟨S128x64, .f32⟩
  | .hbm, ⟨111, _⟩ => ⟨S100000x64, .f32⟩
  | .hbm, ⟨112, _⟩ => ⟨S1x64, .f32⟩
  | .hbm, ⟨113, _⟩ => ⟨S100000x64, .f32⟩
  | .hbm, ⟨114, _⟩ => ⟨S100000x64, .f32⟩
  | .hbm, ⟨115, _⟩ => ⟨S_, .f32⟩
  | .hbm, ⟨116, _⟩ => ⟨S_, .f32⟩
  | .hbm, ⟨117, _⟩ => ⟨S100000x64, .f32⟩
  | .hbm, ⟨118, _⟩ => ⟨S100000x64, .i1⟩
  | .hbm, ⟨119, _⟩ => ⟨S_, .f32⟩
  | .hbm, ⟨120, _⟩ => ⟨S100000x64, .f32⟩
  | .hbm, ⟨121, _⟩ => ⟨S100000x64, .f32⟩
  | .hbm, ⟨122, _⟩ => ⟨S100000x64, .f32⟩
  | .hbm, ⟨123, _⟩ => ⟨S100000x192, .f32⟩
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_call0_cst : Ref sig .tc := ⟨.hbm, 25, rfl⟩
abbrev main_call0_v0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_call1_cst : Ref sig .tc := ⟨.hbm, 43, rfl⟩
abbrev main_call1_v0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst : Ref sig .tc := ⟨.hbm, 57, rfl⟩
abbrev main_v33 : Ref sig .tc := ⟨.hbm, 58, rfl⟩
abbrev main_v34 : Ref sig .tc := ⟨.hbm, 59, rfl⟩
abbrev main_c : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_0 : Ref sig .tc := ⟨.hbm, 64, rfl⟩
abbrev main_v38 : Ref sig .tc := ⟨.hbm, 65, rfl⟩
abbrev main_v39 : Ref sig .tc := ⟨.hbm, 66, rfl⟩
abbrev main_c_1 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_2 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_3 : Ref sig .tc := ⟨.hbm, 85, rfl⟩
abbrev main_call2_cst : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_v56 : Ref sig .tc := ⟨.hbm, 92, rfl⟩
abbrev main_v57 : Ref sig .tc := ⟨.hbm, 93, rfl⟩
abbrev main_c_4 : Ref sig .tc := ⟨.hbm, 94, rfl⟩
abbrev main_v58 : Ref sig .tc := ⟨.hbm, 95, rfl⟩
abbrev main_v59 : Ref sig .tc := ⟨.hbm, 96, rfl⟩
abbrev main_c_5 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_6 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_7 : Ref sig .tc := ⟨.hbm, 115, rfl⟩
abbrev main_call3_cst : Ref sig .tc := ⟨.hbm, 116, rfl⟩
abbrev main_call3_v0 : Ref sig .tc := ⟨.hbm, 117, rfl⟩
abbrev main_call3_v1 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_v76 : Ref sig .tc := ⟨.hbm, 122, rfl⟩
abbrev main_v77 : Ref sig .tc := ⟨.hbm, 123, rfl⟩

abbrev nD : Nat := 1
abbrev τ : Topo := Topo.v7x

variable {F : FTy → Type} [FloatOps F]

class Facts₀ : Prop where
  transposes_S512x2048_S2048x512_1_0 : S512x2048.Transposes [1, 0] S2048x512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  transposes_S64x512_S512x64_1_0 : S64x512.Transposes [1, 0] S512x64
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  transposes_S64x64_S64x64_1_0 : S64x64.Transposes [1, 0] S64x64
  transposes_S256x300_S300x256_1_0 : S256x300.Transposes [1, 0] S300x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  transposes_S64x256_S256x64_1_0 : S64x256.Transposes [1, 0] S256x64
  bcast_S_S10000x64 : S_.BroadcastsInDim S10000x64 (![] : Fin 0 → Fin S10000x64.rank)
  bcast_S_S1 : S_.BroadcastsInDim S1 (![] : Fin 0 → Fin S1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  concatenates_S100000x64_S100000x64_S100000x128_d1 : Shape.Concatenates [S100000x64, S100000x64] S100000x128 1
  transposes_S64x128_S128x64_1_0 : S64x128.Transposes [1, 0] S128x64
  bcast_S1x64_S100000x64_0_1 : S1x64.BroadcastsInDim S100000x64 (![0, 1] : Fin 2 → Fin S100000x64.rank)
  concatenates_S100000x64_S100000x64_S100000x64_S100000x192_d1 : Shape.Concatenates [S100000x64, S100000x64, S100000x64] S100000x192 1
  dot_S10000x2048_S2048x512_S10000x512_1_0_0_1_n_n_wf : DotDims.WF S10000x2048 S2048x512 S10000x512 [1] [0] [0] [1] [] []
  dot_S10000x512_S512x64_S10000x64_1_0_0_1_n_n_wf : DotDims.WF S10000x512 S512x64 S10000x64 [1] [0] [0] [1] [] []
  dot_S10000x64_S64x64_S10000x64_1_0_0_1_n_n_wf : DotDims.WF S10000x64 S64x64 S10000x64 [1] [0] [0] [1] [] []
  dot_S10000x300_S300x256_S10000x256_1_0_0_1_n_n_wf : DotDims.WF S10000x300 S300x256 S10000x256 [1] [0] [0] [1] [] []
  dot_S10000x256_S256x64_S10000x64_1_0_0_1_n_n_wf : DotDims.WF S10000x256 S256x64 S10000x64 [1] [0] [0] [1] [] []
  scatter_S100000x64_S1_S10000x64_01_n_0_0_wf : ScatterDims.WF S100000x64 S1 S10000x64 [0, 1] [] [0] 0
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x128_S128x64_S100000x64_1_0_0_1_n_n_wf : DotDims.WF S100000x128 S128x64 S100000x64 [1] [0] [0] [1] [] []

variable [Facts₀]

def dot_S10000x2048_S2048x512_S10000x512_1_0_0_1_n_n : DotDims S10000x2048 S2048x512 S10000x512 where
  lhsContracting := [1]
  rhsContracting := [0]
  lhsNonContracting := [0]
  rhsNonContracting := [1]
  lhsBatch := []
  rhsBatch := []
  wf := dot_S10000x2048_S2048x512_S10000x512_1_0_0_1_n_n_wf
def dot_S10000x512_S512x64_S10000x64_1_0_0_1_n_n : DotDims S10000x512 S512x64 S10000x64 where
  lhsContracting := [1]
  rhsContracting := [0]
  lhsNonContracting := [0]
  rhsNonContracting := [1]
  lhsBatch := []
  rhsBatch := []
  wf := dot_S10000x512_S512x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x300_S300x256_S10000x256_1_0_0_1_n_n : DotDims S10000x300 S300x256 S10000x256 where
  lhsContracting := [1]
  rhsContracting := [0]
  lhsNonContracting := [0]
  rhsNonContracting := [1]
  lhsBatch := []
  rhsBatch := []
  wf := dot_S10000x300_S300x256_S10000x256_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def scatter_S100000x64_S1_S10000x64_01_n_0_0 : ScatterDims S100000x64 S1 S10000x64 where
  updateWindowDims := [0, 1]
  insertedWindowDims := []
  scatterDimsToOperandDims := [0]
  indexVectorDim := 0
  wf := scatter_S100000x64_S1_S10000x64_01_n_0_0_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Kernel.Reg0.lean ====
/-
  The item encoder of the kernel program, one block of 1000 items at a time.

  At a grid point the body is handed a block v of 1000 rows of visual features and the matching block s of text
  features, together with the whole of every weight (already transposed) and bias row, and stores into the output
  block the value

      (1/2) * ( ((relu (v*Wv1 + bv1))*Wv2 + bv2)*Wd + bd  +  ((relu (s*Wt1 + bt1))*Wt2 + bt2)*Wd + bd ).

  This module fixes that value as a function of the twelve input blocks, for ANY contents V of the buffers when the
  region is entered; proves that the body, started with its staging buffers at those blocks, ends with the output
  buffer at that value and every input buffer as it was; and puts the statement in the form the pipeline's launch
  rule asks for at each grid point.
-/
import proofs.«128426_j13245679141184_1_alg».proof.Proof.Gen.Kernel.Launch
import proofs.«128426_j13245679141184_1_alg».proof.Proof.Gen.Kernel.Skeleton
import proofs.«128426_j13245679141184_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The blocks -/

/-- Window w's block at grid point t: the rows 1000 t ... 1000 t + 999 of a feature array, the whole of a
    weight or bias. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point: where the block index moved it was
    fetched, and where it did not the buffer still holds the same block. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-! ## What the body reads and writes: whole buffers -/

abbrev rVis : Rect S1000x2048 := Rect.unit (s := S1000x2048) ![0, 0] S1000x2048.size inb_S1000x2048_S1000x2048_0_0
abbrev rTxt : Rect S1000x300 := Rect.unit (s := S1000x300) ![0, 0] S1000x300.size inb_S1000x300_S1000x300_0_0
abbrev rWv1 : Rect S2048x512 := Rect.unit (s := S2048x512) ![0, 0] S2048x512.size inb_S2048x512_S2048x512_0_0
abbrev rB512 : Rect S1x512 := Rect.unit (s := S1x512) ![0, 0] S1x512.size inb_S1x512_S1x512_0_0
abbrev rWv2 : Rect S512x64 := Rect.unit (s := S512x64) ![0, 0] S512x64.size inb_S512x64_S512x64_0_0
abbrev rB64 : Rect S1x64 := Rect.unit (s := S1x64) ![0, 0] S1x64.size inb_S1x64_S1x64_0_0
abbrev rWt1 : Rect S300x256 := Rect.unit (s := S300x256) ![0, 0] S300x256.size inb_S300x256_S300x256_0_0
abbrev rB256 : Rect S1x256 := Rect.unit (s := S1x256) ![0, 0] S1x256.size inb_S1x256_S1x256_0_0
abbrev rWt2 : Rect S256x64 := Rect.unit (s := S256x64) ![0, 0] S256x64.size inb_S256x64_S256x64_0_0
abbrev rWd : Rect S64x64 := Rect.unit (s := S64x64) ![0, 0] S64x64.size inb_S64x64_S64x64_0_0
abbrev rOut : Rect S1000x64 := Rect.unit (s := S1000x64) ![0, 0] S1000x64.size inb_S1000x64_S1000x64_0_0

/-- The output block after the body: the one store, of the encoder's value of the twelve input blocks, over the
    whole buffer. The visual tower is k0_pay3, the text tower's first layer k0_pay4, and k0_pay1 finishes the
    text tower, adds the two and halves. -/
def out0_12 (v : Vec F S1000x2048 .f32) (s : Vec F S1000x300 .f32) (Wv1 : Vec F S2048x512 .f32) (bv1 : Vec F S1x512 .f32)
    (Wv2 : Vec F S512x64 .f32) (bv2 : Vec F S1x64 .f32) (Wt1 : Vec F S300x256 .f32) (bt1 : Vec F S1x256 .f32)
    (Wt2 : Vec F S256x64 .f32) (bt2 : Vec F S1x64 .f32) (Wd : Vec F S64x64 .f32) (bd : Vec F S1x64 .f32) : Vec F S1000x64 .f32 :=
  View.canon [⟨rOut, k0_pay1 (k0_pay2 (View.ld Wd rWd))
    (k0_pay3 (View.ld v rVis) (View.ld Wv1 rWv1) (View.ld bv1 rB512) (View.ld Wv2 rWv2) (View.ld bv2 rB64) (View.ld Wd rWd) (View.ld bd rB64))
    (k0_pay4 (View.ld s rTxt) (View.ld Wt1 rWt1) (View.ld bt1 rB256)) (k0_pay5 (F := F))
    (View.ld Wt2 rWt2) (View.ld bt2 rB64) (View.ld bd rB64)⟩]

/-- The store covers every entry of the output buffer. -/
theorem cover0_12 (p0 : Vec F S1000x64 .f32) (y : S1000x64.Idx) :
    ∃ pc ∈ ([⟨rOut, p0⟩] : List (View.Piece (Elt F) S1000x64 .f32)), y ∈ pc.1.set :=
  View.cover_of_tiled [⟨rOut, p0⟩] S1000x64.size (by rfl) y

/-! ## The body's triple -/

set_option maxHeartbeats 1000000 in
/-- Started with the twelve input buffers at the given blocks and the output buffer at anything, the body ends with
    the inputs unchanged and the output at out0_12 of them. -/
theorem sound_kernel0 (c : Dev nD) (E : Set ℕ) (i : grid0.Coords)
    (arg1 : Memref sig .tc .vmem S1000x2048 .f32) (harg1 : arg1.IsWhole) (arg2 : Memref sig .tc .vmem S1000x300 .f32) (harg2 : arg2.IsWhole)
    (arg3 : Memref sig .tc .vmem S2048x512 .f32) (harg3 : arg3.IsWhole) (arg4 : Memref sig .tc .vmem S1x512 .f32) (harg4 : arg4.IsWhole)
    (arg5 : Memref sig .tc .vmem S512x64 .f32) (harg5 : arg5.IsWhole) (arg6 : Memref sig .tc .vmem S1x64 .f32) (harg6 : arg6.IsWhole)
    (arg7 : Memref sig .tc .vmem S300x256 .f32) (harg7 : arg7.IsWhole) (arg8 : Memref sig .tc .vmem S1x256 .f32) (harg8 : arg8.IsWhole)
    (arg9 : Memref sig .tc .vmem S256x64 .f32) (harg9 : arg9.IsWhole) (arg10 : Memref sig .tc .vmem S1x64 .f32) (harg10 : arg10.IsWhole)
    (arg11 : Memref sig .tc .vmem S64x64 .f32) (harg11 : arg11.IsWhole) (arg12 : Memref sig .tc .vmem S1x64 .f32) (harg12 : arg12.IsWhole)
    (arg13 : Memref sig .tc .vmem S1000x64 .f32) (harg13 : arg13.IsWhole)
    (v : Vec F S1000x2048 .f32) (s : Vec F S1000x300 .f32) (Wv1 : Vec F S2048x512 .f32) (bv1 : Vec F S1x512 .f32)
    (Wv2 : Vec F S512x64 .f32) (bv2 : Vec F S1x64 .f32) (Wt1 : Vec F S300x256 .f32) (bt1 : Vec F S1x256 .f32)
    (Wt2 : Vec F S256x64 .f32) (bt2 : Vec F S1x64 .f32) (Wd : Vec F S64x64 .f32) (bd : Vec F S1x64 .f32) (K : PUnit → sProp 𝕄) :
    iprop(owns (c : Thread nD τ) arg1 fullShare v ∗ owns (c : Thread nD τ) arg2 fullShare s ∗ owns (c : Thread nD τ) arg3 fullShare Wv1
        ∗ owns (c : Thread nD τ) arg4 fullShare bv1 ∗ owns (c : Thread nD τ) arg5 fullShare Wv2 ∗ owns (c : Thread nD τ) arg6 fullShare bv2
        ∗ owns (c : Thread nD τ) arg7 fullShare Wt1 ∗ owns (c : Thread nD τ) arg8 fullShare bt1 ∗ owns (c : Thread nD τ) arg9 fullShare Wt2
        ∗ owns (c : Thread nD τ) arg10 fullShare bt2 ∗ owns (c : Thread nD τ) arg11 fullShare Wd ∗ owns (c : Thread nD τ) arg12 fullShare bd
        ∗ (∃ d, owns (c : Thread nD τ) arg13 fullShare d)
        ∗ (iprop(owns (c : Thread nD τ) arg1 fullShare v ∗ owns (c : Thread nD τ) arg2 fullShare s ∗ owns (c : Thread nD τ) arg3 fullShare Wv1
            ∗ owns (c : Thread nD τ) arg4 fullShare bv1 ∗ owns (c : Thread nD τ) arg5 fullShare Wv2 ∗ owns (c : Thread nD τ) arg6 fullShare bv2
            ∗ owns (c : Thread nD τ) arg7 fullShare Wt1 ∗ owns (c : Thread nD τ) arg8 fullShare bt1 ∗ owns (c : Thread nD τ) arg9 fullShare Wt2
            ∗ owns (c : Thread nD τ) arg10 fullShare bt2 ∗ owns (c : Thread nD τ) arg11 fullShare Wd ∗ owns (c : Thread nD τ) arg12 fullShare bd
            ∗ owns (c : Thread nD τ) arg13 fullShare (out0_12 v s Wv1 bv1 Wv2 bv2 Wt1 bt1 Wt2 bt2 Wd bd)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8 arg9 harg9 arg10 harg10 arg11 harg11 arg12 harg12 arg13 harg13) K := by
  simp only [cc0__mlp_kernel_eq_skeleton]; unfold cc0__mlp_kernel_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf1; subst hf2; subst hf3; subst hf4; subst hf5; subst hf6; subst hf7; subst hf8; subst hf9; subst hf10; subst hf11; subst hf12
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover0_12 _)

/-! ## The pipeline's proof data -/

/-- After the body at point t each input buffer holds its block and the output buffer the encoder's value of the
    input blocks; the region keeps nothing else and owes nothing. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => out0_12 (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t) (iblk0 V c 11 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t
    = out0_12 (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t) (iblk0 V c 11 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d

/-! ## The obligation at a grid point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ _ _ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) (iblk0 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Reg1.lean ====
/-
  Graph layer 1 of the kernel program, one block of 10000 rows at a time.

  At a grid point the body is handed five input blocks — a block `x` of the current node features, the matching
  block `n` of the aggregated neighbour features, the two 64×64 halves `A`, `B` of the layer's weight (already
  transposed) and the bias row `b` — and stores into the output block the value
  `leaky (x·A + n·B + b)`, where `leaky y = y` when `y > 0` and `0.01·y` otherwise.
  This module fixes that value as a function of the input blocks, for ANY contents `V` of the buffers when the
  region is entered; proves that the body, started with its staging buffers at those blocks, ends with the output
  buffer at that value and every input buffer as it was; and puts the statement in the form the pipeline's launch
  rule asks for at each grid point.
-/
import proofs.«128426_j13245679141184_1_alg».proof.Proof.Gen.Kernel.Launch
import proofs.«128426_j13245679141184_1_alg».proof.Proof.Gen.Kernel.Skeleton
import proofs.«128426_j13245679141184_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The blocks -/

/-- Window `w`'s block at grid point `t`: the rows `10000·t … 10000·t + 9999` of a row-blocked array, the whole of
    a weight or bias. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point: where the block index moved it was
    fetched, and where it did not the buffer still holds the same block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What the body reads and writes: whole buffers -/

abbrev rows1 : Rect S10000x64 := Rect.unit (s := S10000x64) ![0, 0] S10000x64.size inb_S10000x64_S10000x64_0_0
abbrev wgt1 : Rect S64x64 := Rect.unit (s := S64x64) ![0, 0] S64x64.size inb_S64x64_S64x64_0_0
abbrev bias1 : Rect S1x64 := Rect.unit (s := S1x64) ![0, 0] S1x64.size inb_S1x64_S1x64_0_0

/-- The output block after the body: the one store, of `leaky (x·A + n·B + b)`, over the whole buffer. -/
def out1_5 (x n : Vec F S10000x64 .f32) (A B : Vec F S64x64 .f32) (b : Vec F S1x64 .f32) : Vec F S10000x64 .f32 :=
  View.canon [⟨rows1, k1_pay1 (View.ld x rows1) (View.ld A wgt1) (View.ld n rows1) (View.ld B wgt1) (View.ld b bias1)⟩]

/-- The store covers every entry of the output buffer. -/
theorem cover1_5 (p0 : Vec F S10000x64 .f32) (y : S10000x64.Idx) :
    ∃ pc ∈ ([⟨rows1, p0⟩] : List (View.Piece (Elt F) S10000x64 .f32)), y ∈ pc.1.set :=
  View.cover_of_tiled [⟨rows1, p0⟩] S10000x64.size (by rfl) y

/-! ## The body's triple -/

set_option maxHeartbeats 1000000 in
/-- Started with the five input buffers at `x, n, A, B, b` and the output buffer at anything, the body ends with the
    inputs unchanged and the output at `out1_5 x n A B b`. -/
theorem sound_kernel1 (c : Dev nD) (E : Set ℕ) (i : grid1.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S10000x64 .f32) (harg6 : arg6.IsWhole)
    (x n : Vec F S10000x64 .f32) (A B : Vec F S64x64 .f32) (b : Vec F S1x64 .f32) (K : PUnit → sProp 𝕄) :
    iprop(owns (c : Thread nD τ) arg1 fullShare x ∗ owns (c : Thread nD τ) arg2 fullShare n ∗ owns (c : Thread nD τ) arg3 fullShare A
        ∗ owns (c : Thread nD τ) arg4 fullShare B ∗ owns (c : Thread nD τ) arg5 fullShare b ∗ (∃ d, owns (c : Thread nD τ) arg6 fullShare d)
        ∗ (iprop(owns (c : Thread nD τ) arg1 fullShare x ∗ owns (c : Thread nD τ) arg2 fullShare n ∗ owns (c : Thread nD τ) arg3 fullShare A
            ∗ owns (c : Thread nD τ) arg4 fullShare B ∗ owns (c : Thread nD τ) arg5 fullShare b
            ∗ owns (c : Thread nD τ) arg6 fullShare (out1_5 x n A B b)) -∗ K ⟨⟩))
      ⊢ wp frame (wpE (defs₀ (F := F)) Variants.none c none) E (cc1__gnn_layer_kernel i arg1 harg1 arg2 harg2 arg3 harg3 arg4 harg4 arg5 harg5 arg6 harg6) K := by
  simp only [cc1__gnn_layer_kernel_eq_skeleton]; unfold cc1__gnn_layer_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_5 _)

/-! ## The pipeline's proof data -/

/-- After the body at point `t` each input buffer holds its block and the output buffer the layer's value of the
    input blocks; the region keeps nothing else and owes nothing. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The obligation at a grid point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Reg2.lean ====
/-
  Graph layer 2 of the kernel program, one block of 10000 rows at a time.

  At a grid point the body is handed five input blocks — a block `x` of the current node features, the matching
  block `n` of the aggregated neighbour features, the two 64×64 halves `A`, `B` of the layer's weight (already
  transposed) and the bias row `b` — and stores into the output block the value
  `leaky (x·A + n·B + b)`, where `leaky y = y` when `y > 0` and `0.01·y` otherwise.
  This module fixes that value as a function of the input blocks, for ANY contents `V` of the buffers when the
  region is entered; proves that the body, started with its staging buffers at those blocks, ends with the output
  buffer at that value and every input buffer as it was; and puts the statement in the form the pipeline's launch
  rule asks for at each grid point.
-/
import proofs.«128426_j13245679141184_1_alg».proof.Proof.Gen.Kernel.Launch
import proofs.«128426_j13245679141184_1_alg».proof.Proof.Gen.Kernel.Skeleton
import proofs.«128426_j13245679141184_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The blocks -/

/-- Window `w`'s block at grid point `t`: the rows `10000·t … 10000·t + 9999` of a row-blocked array, the whole of
    a weight or bias. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point: where the block index moved it was
    fetched, and where it did not the buffer still holds the same block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## What the body reads and writes: whole buffers -/

abbrev rows2 : Rect S10000x64 := Rect.unit (s := S10000x64) ![0, 0] S10000x64.size inb_S10000x64_S10000x64_0_0
abbrev wgt2 : Rect S64x64 := Rect.unit (s := S64x64) ![0, 0] S64x64.size inb_S64x64_S64x64_0_0
abbrev bias2 : Rect S1x64 := Rect.unit (s := S1x64) ![0, 0] S1x64.size inb_S1x64_S1x64_0_0

/-- The output block after the body: the one store, of `leaky (x·A + n·B + b)`, over the whole buffer. -/
def out2_5 (x n : Vec F S10000x64 .f32) (A B : Vec F S64x64 .f32) (b : Vec F S1x64 .f32) : Vec F S10000x64 .f32 :=
  View.canon [⟨rows2, k2_pay1 (View.ld x rows2) (View.ld A wgt2) (View.ld n rows2) (View.ld B wgt2) (View.ld b bias2)⟩]

/-- The store covers every entry of the output buffer. -/
theorem cover2_5 (p0 : Vec F S10000x64 .f32) (y : S10000x64.Idx) :
    ∃ pc ∈ ([⟨rows2, p0⟩] : List (View.Piece (Elt F) S10000x64 .f32)), y ∈ pc.1.set :=
  View.cover_of_tiled [⟨rows2, p0⟩] S10000x64.size (by rfl) y

/-! ## The body's triple -/

set_option maxHeartbeats 1000000 in
/-- Started with the five input buffers at `x, n, A, B, b` and the output buffer at anything, the body ends with the
    inputs unchanged and the output at `out2_5 x n A B b`. -/
theorem sound_kernel2 (c : Dev nD) (E : Set ℕ) (i : grid2.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S10000x64 .f32) (harg6 : arg6.IsWhole)
    (x n : Vec F S10000x64 .f32) (A B : Vec F S64x64 .f32) (b : Vec F S1x64 .f32) (K : PUnit → sProp 𝕄) :
    iprop(owns (c : Thread nD τ) arg1 fullShare x ∗ owns (c : Thread nD τ) arg2 fullShare n ∗ owns (c : Thread nD τ) arg3 fullShare A
        ∗ owns (c : Thread nD τ) arg4 fullShare B ∗ owns (c : Thread nD τ) arg5 fullShare b ∗ (∃ d, owns (c : Thread nD τ) arg6 fullShare d)
        ∗ (iprop(owns (c : Thread nD τ) arg1 fullShare x ∗ owns (c : Thread nD τ) arg2 fullShare n ∗ owns (c : Thread nD τ) arg3 fullShare A
            ∗ owns (c : Thread nD τ) arg4 fullShare B ∗ owns (c : Thread nD τ) arg5 fullShare b
            ∗ owns (c : Thread nD τ) arg6 fullShare (out2_5 x n A B b)) -∗ K ⟨⟩))
      ⊢ wp frame (wpE (defs₀ (F := F)) Variants.none c none) E (cc2__gnn_layer_kernel i arg1 harg1 arg2 harg2 arg3 harg3 arg4 harg4 arg5 harg5 arg6 harg6) K := by
  simp only [cc2__gnn_layer_kernel_eq_skeleton]; unfold cc2__gnn_layer_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_5 _)

/-! ## The pipeline's proof data -/

/-- After the body at point `t` each input buffer holds its block and the output buffer the layer's value of the
    input blocks; the region keeps nothing else and owes nothing. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The obligation at a grid point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Kernel.Run.lean ====
/-
  The run of the whole program, from the launch to the return.

  The program is seven stretches in order: a stretch of host operations, the first kernel region (it writes
  main_v10), a second host stretch, the second kernel region (it writes main_v31), a third host stretch, the third
  kernel region (it writes main_v50), and a last host stretch, one concatenation of the three results into main_v51.

  The contents of a core's buffers are followed from boundary to boundary. A host stretch takes contents W to
  StableHlo.after ops W: each operation rewrites the buffer it writes and leaves the rest. A kernel region entered
  at contents W leaves every buffer that is not one of its arrays as it was, each input array as it was, and each
  output array at the fold of the blocks its grid points wrote back. W0 is the launch memory and W7 the contents at
  the return. The theorem run_all says: every weakly fair execution terminates, and in every final
  state every buffer that outlives the program holds what W7 says. Since no stretch writes an argument array,
  W7 at an argument is the launch memory there: the frame claim.
-/
import proofs.«128426_j13245679141184_1_alg».proof.Proof.Gen.Kernel.Launch
import proofs.«128426_j13245679141184_1_alg».proof.Proof.Gen.Kernel.Skeleton
import proofs.«128426_j13245679141184_1_alg».proof.Proof.Gen.Kernel.Points
import proofs.«128426_j13245679141184_1_alg».proof.Proof.Kernel.Reg0
import proofs.«128426_j13245679141184_1_alg».proof.Proof.Kernel.Reg1
import proofs.«128426_j13245679141184_1_alg».proof.Proof.Kernel.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at the launch. -/
abbrev W0 : Dev nD → Valuation τ sig (Elt F) := fun c b => (s₀ m ρ).mem ((c : Dev nD), b)
/-- After the first host stretch: what region 0 is entered at. -/
abbrev W1 : Dev nD → Valuation τ sig (Elt F) := fun c => StableHlo.after hostOps0 (W0 m ρ c)
/-- The same, read at the TensorCore's references. -/
abbrev E1 : (c : Dev nD) → (b : Ref sig .tc) → Buf (Elt F) ((c : Thread nD τ).loc b) := fun c b => W1 m ρ c b
/-- At region 0's exit: its arrays at what the grid's write-backs leave, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
/-- At region 0's exit each of its arrays holds what the grid leaves, and every other buffer what it held at entry. -/
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After the second host stretch: what region 1 is entered at. -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev E4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = E4 m ρ c (Pipeline.arrRef spec1 w) :=
  (W4_arr m ρ c w).symm
theorem hrest1 (c : Dev nD) : ∀ b, b ∉ Finset.univ.image (Pipeline.arrRef spec1) → E4 m ρ c b = E3 m ρ c b :=
  fun b hb => W4_of_ne m ρ c b fun w e => hb (Finset.mem_image.mpr ⟨w, Finset.mem_univ _, e⟩)

/-- After the third host stretch: what region 2 is entered at. -/
abbrev W5 : Dev nD → Valuation τ sig (Elt F) := fun c => StableHlo.after hostOps2 (W4 m ρ c)
abbrev E5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (E5 m ρ) c).arrAt w cfg2.N
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev E6 : (c : Dev nD) → (b : Ref sig .tc) → Buf (Elt F) ((c : Thread nD τ).loc b) := fun c b => W6 m ρ c b
theorem hF2 (c : Dev nD) (w : Fin cfg2.W) : (dat2 (E5 m ρ) c).arrAt w cfg2.N = E6 m ρ c (Pipeline.arrRef spec2 w) :=
  (W6_arr m ρ c w).symm
theorem hrest2 (c : Dev nD) : ∀ b, b ∉ Finset.univ.image (Pipeline.arrRef spec2) → E6 m ρ c b = E5 m ρ c b :=
  fun b hb => W6_of_ne m ρ c b fun w e => hb (Finset.mem_image.mpr ⟨w, Finset.mem_univ _, e⟩)

/-- After the last host stretch: the contents at the return. -/
abbrev W7 : Dev nD → Valuation τ sig (Elt F) := fun c => StableHlo.after hostOps3 (W6 m ρ c)

/-! ## What the host stretches write -/

/-- No operation of a host stretch allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-- The references each host stretch writes: the results of its operations, in order. -/
abbrev wr0 : List (Ref sig .tc) := [main_v0, main_v1, main_v2, main_v3, main_v4, main_v5, main_v6, main_v7, main_v8, main_v9]
abbrev wr1 : List (Ref sig .tc) := [main_c, main_v11, main_v12, main_v13, main_c_0, main_v14, main_v15, main_c_1, main_v16, main_v17,
  main_v18, main_v19, main_v20, main_v21, main_v22, main_cst, main_v23, main_v24, main_v25, main_v26, main_v27, main_v28, main_v29, main_v30]
abbrev wr2 : List (Ref sig .tc) := [main_v32, main_c_2, main_v33, main_v34, main_c_3, main_v35, main_v36, main_v37, main_v38, main_v39,
  main_v40, main_v41, main_cst_4, main_v42, main_v43, main_v44, main_v45, main_v46, main_v47, main_v48, main_v49]
abbrev wr3 : List (Ref sig .tc) := [main_v51]

theorem hostOps0_wr : (hostOps0 : List (HloOp τ sig (Elt F))).Forall fun op => op.writes ⊆ (wr0.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes,
      StableHlo.nary_writes, Finset.singleton_subset_iff, List.mem_toFinset]
    exact List.mem_map_of_mem (by decide)
theorem hostOps1_wr : (hostOps1 : List (HloOp τ sig (Elt F))).Forall fun op => op.writes ⊆ (wr1.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes,
      StableHlo.nary_writes, Finset.singleton_subset_iff, List.mem_toFinset]
    exact List.mem_map_of_mem (by decide)
theorem hostOps2_wr : (hostOps2 : List (HloOp τ sig (Elt F))).Forall fun op => op.writes ⊆ (wr2.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes,
      StableHlo.nary_writes, Finset.singleton_subset_iff, List.mem_toFinset]
    exact List.mem_map_of_mem (by decide)
theorem hostOps3_wr : (hostOps3 : List (HloOp τ sig (Elt F))).Forall fun op => op.writes ⊆ (wr3.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes,
      StableHlo.nary_writes, Finset.singleton_subset_iff, List.mem_toFinset]
    exact List.mem_map_of_mem (by decide)

/-- A reference a host stretch does not write holds after it what it held before. -/
theorem W1_of (c : Dev nD) (r : Ref sig .tc) (h : r ∉ wr0) : W1 m ρ c (Proc.devRef .tc r) = W0 m ρ c (Proc.devRef .tc r) :=
  StableHlo.after_of_writes_sub hostOps0 _ hostOps0_wr h
theorem W3_of (c : Dev nD) (r : Ref sig .tc) (h : r ∉ wr1) : W3 m ρ c (Proc.devRef .tc r) = W2 m ρ c (Proc.devRef .tc r) :=
  StableHlo.after_of_writes_sub hostOps1 _ hostOps1_wr h
theorem W5_of (c : Dev nD) (r : Ref sig .tc) (h : r ∉ wr2) : W5 m ρ c (Proc.devRef .tc r) = W4 m ρ c (Proc.devRef .tc r) :=
  StableHlo.after_of_writes_sub hostOps2 _ hostOps2_wr h
theorem W7_of (c : Dev nD) (r : Ref sig .tc) (h : r ∉ wr3) : W7 m ρ c (Proc.devRef .tc r) = W6 m ρ c (Proc.devRef .tc r) :=
  StableHlo.after_of_writes_sub hostOps3 _ hostOps3_wr h

/-! ## The proof data family and the thread state -/

/-- No kernel region has a prefetched table. -/
abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every stretch: the core's generator register at some state, and its
    debts, none. -/
abbrev R (c : Dev nD) : sProp 𝕄 := iprop((∃ r, prngReg c r) ∗ ∃ W, owes (c : Thread nD τ) (0 : CellTallies nD τ sig Unit) W)
/-- A host stretch over the buffers that outlive the program, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A TensorCore reference that outlives the program is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every such buffer at the return's contents, the generator register
    at some state. -/
abbrev Tₙ (c : Dev nD) : sProp 𝕄 := iprop(StableHlo.held (c : Thread nD τ) (Pipeline.ucRefs τ sig) (W7 m ρ c) ∗ ∃ r, prngReg c r)

/-! ## The regions as stretches over the thread state -/

set_option backward.isDefEq.respectTransparency.types false in
/-- REGION 0 over the thread state: entered from every buffer that outlives the program at W1, left at W2. Its
    arrays are split out of those buffers at entry and put back at the exit contents; the generator register goes into
    the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every buffer that outlives the program at W3, left at W4. Its
    arrays are split out of those buffers at entry and put back at the exit contents; the generator register goes into
    the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every buffer that outlives the program at W5, left at W6. Its
    arrays are split out of those buffers at entry and put back at the exit contents; the generator register goes into
    the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its seven stretches, and the launch -/

/-- The seven stretches in order: a host stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- The program is the run of these stretches. -/
theorem main_run (c : Dev nD) : main (F := F) c = Pipeline.Seg.run (segs m ρ) := (main_chain c).trans (by chain_rfl)

set_option backward.isDefEq.respectTransparency.types false in
/-- THE RUN: from any launch memory with every semaphore counter at zero, every weakly fair execution of the program on
    the TensorCores terminates, and in every final state every buffer that outlives the program holds the contents
    W7 names: the stretches chain from the launch contents W0, each entered from what the one before it left, and the last
    thread state is read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c =>
      show iprop(StableHlo.held (c : Thread nD τ) (Pipeline.ucRefs τ sig) (W7 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-! ## The arguments end as launched

No host stretch writes an argument array, and no region has one among its output arrays: a region reads an argument
through an input window, which leaves the array as it was, or does not touch it at all. So the contents at the return,
read at an argument, walk back boundary by boundary to the launch memory. -/

/-- A buffer that no host stretch writes and that is not an array of any region holds at the return what it held at
    the launch. -/
theorem W7_of_untouched (c : Dev nD) (r : Ref sig .tc) (h0 : r ∉ wr0) (h1 : r ∉ wr1) (h2 : r ∉ wr2) (h3 : r ∉ wr3)
    (a0 : ∀ w, Pipeline.arrRef spec0 w ≠ r) (a1 : ∀ w, Pipeline.arrRef spec1 w ≠ r) (a2 : ∀ w, Pipeline.arrRef spec2 w ≠ r) :
    W7 m ρ c (Proc.devRef .tc r) = m ((c : Thread nD τ).loc r) :=
  calc W7 m ρ c (Proc.devRef .tc r)
    _ = W6 m ρ c (Proc.devRef .tc r) := W7_of m ρ c r h3
    _ = W5 m ρ c (Proc.devRef .tc r) := W6_of_ne m ρ c r a2
    _ = W4 m ρ c (Proc.devRef .tc r) := W5_of m ρ c r h2
    _ = W3 m ρ c (Proc.devRef .tc r) := W4_of_ne m ρ c r a1
    _ = W2 m ρ c (Proc.devRef .tc r) := W3_of m ρ c r h1
    _ = W1 m ρ c (Proc.devRef .tc r) := W2_of_ne m ρ c r a0
    _ = W0 m ρ c (Proc.devRef .tc r) := W1_of m ρ c r h0
    _ = m ((c : Thread nD τ).loc r) := rfl

/-- The same for an input array of region 0 that nothing else touches: the region's grid leaves an input array as
    it found it. -/
theorem W7_of_input0 (c : Dev nD) (w : Fin cfg0.W) (hin : (cfg0.win w).isOut = false)
    (h0 : Pipeline.arrRef spec0 w ∉ wr0) (h1 : Pipeline.arrRef spec0 w ∉ wr1) (h2 : Pipeline.arrRef spec0 w ∉ wr2)
    (h3 : Pipeline.arrRef spec0 w ∉ wr3)
    (a1 : ∀ w', Pipeline.arrRef spec1 w' ≠ Pipeline.arrRef spec0 w) (a2 : ∀ w', Pipeline.arrRef spec2 w' ≠ Pipeline.arrRef spec0 w) :
    W7 m ρ c (Proc.devRef .tc (Pipeline.arrRef spec0 w)) = m ((c : Thread nD τ).loc (Pipeline.arrRef spec0 w)) :=
  calc W7 m ρ c (Proc.devRef .tc (Pipeline.arrRef spec0 w))
    _ = W6 m ρ c (Proc.devRef .tc (Pipeline.arrRef spec0 w)) := W7_of m ρ c _ h3
    _ = W5 m ρ c (Proc.devRef .tc (Pipeline.arrRef spec0 w)) := W6_of_ne m ρ c _ a2
    _ = W4 m ρ c (Proc.devRef .tc (Pipeline.arrRef spec0 w)) := W5_of m ρ c _ h2
    _ = W3 m ρ c (Proc.devRef .tc (Pipeline.arrRef spec0 w)) := W4_of_ne m ρ c _ a1
    _ = W2 m ρ c (Proc.devRef .tc (Pipeline.arrRef spec0 w)) := W3_of m ρ c _ h1
    _ = W1 m ρ c (Proc.devRef .tc (Pipeline.arrRef spec0 w)) :=
        (W2_arr m ρ c w).trans (((dat0 (E1 m ρ) c).arrAt_in w hin _).trans (A_eq0 (E1 m ρ) c w))
    _ = W0 m ρ c (Proc.devRef .tc (Pipeline.arrRef spec0 w)) := W1_of m ρ c _ h0
    _ = m ((c : Thread nD τ).loc (Pipeline.arrRef spec0 w)) := rfl

theorem W7_main_arg0 (c : Dev nD) : W7 m ρ c (Proc.devRef .tc main_arg0) = m ((c : Thread nD τ).loc main_arg0) :=
  W7_of_untouched m ρ c main_arg0 (by decide) (by decide) (by decide) (by decide) (by decide) (by decide) (by decide)
theorem W7_main_arg1 (c : Dev nD) : W7 m ρ c (Proc.devRef .tc main_arg1) = m ((c : Thread nD τ).loc main_arg1) :=
  W7_of_untouched m ρ c main_arg1 (by decide) (by decide) (by decide) (by decide) (by decide) (by decide) (by decide)
theorem W7_main_arg2 (c : Dev nD) : W7 m ρ c (Proc.devRef .tc main_arg2) = m ((c : Thread nD τ).loc main_arg2) :=
  W7_of_untouched m ρ c main_arg2 (by decide) (by decide) (by decide) (by decide) (by decide) (by decide) (by decide)
theorem W7_main_arg3 (c : Dev nD) : W7 m ρ c (Proc.devRef .tc main_arg3) = m ((c : Thread nD τ).loc main_arg3) :=
  W7_of_untouched m ρ c main_arg3 (by decide) (by decide) (by decide) (by decide) (by decide) (by decide) (by decide)
theorem W7_main_arg4 (c : Dev nD) : W7 m ρ c (Proc.devRef .tc main_arg4) = m ((c : Thread nD τ).loc main_arg4) :=
  W7_of_input0 m ρ c 0 rfl (by decide) (by decide) (by decide) (by decide) (by decide) (by decide)
theorem W7_main_arg5 (c : Dev nD) : W7 m ρ c (Proc.devRef .tc main_arg5) = m ((c : Thread nD τ).loc main_arg5) :=
  W7_of_input0 m ρ c 1 rfl (by decide) (by decide) (by decide) (by decide) (by decide) (by decide)
theorem W7_main_arg6 (c : Dev nD) : W7 m ρ c (Proc.devRef .tc main_arg6) = m ((c : Thread nD τ).loc main_arg6) :=
  W7_of_untouched m ρ c main_arg6 (by decide) (by decide) (by decide) (by decide) (by decide) (by decide) (by decide)
theorem W7_main_arg7 (c : Dev nD) : W7 m ρ c (Proc.devRef .tc main_arg7) = m ((c : Thread nD τ).loc main_arg7) :=
  W7_of_untouched m ρ c main_arg7 (by decide) (by decide) (by decide) (by decide) (by decide) (by decide) (by decide)
theorem W7_main_arg8 (c : Dev nD) : W7 m ρ c (Proc.devRef .tc main_arg8) = m ((c : Thread nD τ).loc main_arg8) :=
  W7_of_untouched m ρ c main_arg8 (by decide) (by decide) (by decide) (by decide) (by decide) (by decide) (by decide)
theorem W7_main_arg9 (c : Dev nD) : W7 m ρ c (Proc.devRef .tc main_arg9) = m ((c : Thread nD τ).loc main_arg9) :=
  W7_of_untouched m ρ c main_arg9 (by decide) (by decide) (by decide) (by decide) (by decide) (by decide) (by decide)
theorem W7_main_arg10 (c : Dev nD) : W7 m ρ c (Proc.devRef .tc main_arg10) = m ((c : Thread nD τ).loc main_arg10) :=
  W7_of_untouched m ρ c main_arg10 (by decide) (by decide) (by decide) (by decide) (by decide) (by decide) (by decide)
theorem W7_main_arg11 (c : Dev nD) : W7 m ρ c (Proc.devRef .tc main_arg11) = m ((c : Thread nD τ).loc main_arg11) :=
  W7_of_untouched m ρ c main_arg11 (by decide) (by decide) (by decide) (by decide) (by decide) (by decide) (by decide)
theorem W7_main_arg12 (c : Dev nD) : W7 m ρ c (Proc.devRef .tc main_arg12) = m ((c : Thread nD τ).loc main_arg12) :=
  W7_of_untouched m ρ c main_arg12 (by decide) (by decide) (by decide) (by decide) (by decide) (by decide) (by decide)
theorem W7_main_arg13 (c : Dev nD) : W7 m ρ c (Proc.devRef .tc main_arg13) = m ((c : Thread nD τ).loc main_arg13) :=
  W7_of_untouched m ρ c main_arg13 (by decide) (by decide) (by decide) (by decide) (by decide) (by decide) (by decide)
theorem W7_main_arg14 (c : Dev nD) : W7 m ρ c (Proc.devRef .tc main_arg14) = m ((c : Thread nD τ).loc main_arg14) :=
  W7_of_untouched m ρ c main_arg14 (by decide) (by decide) (by decide) (by decide) (by decide) (by decide) (by decide)
theorem W7_main_arg15 (c : Dev nD) : W7 m ρ c (Proc.devRef .tc main_arg15) = m ((c : Thread nD τ).loc main_arg15) :=
  W7_of_untouched m ρ c main_arg15 (by decide) (by decide) (by decide) (by decide) (by decide) (by decide) (by decide)
theorem W7_main_arg16 (c : Dev nD) : W7 m ρ c (Proc.devRef .tc main_arg16) = m ((c : Thread nD τ).loc main_arg16) :=
  W7_of_untouched m ρ c main_arg16 (by decide) (by decide) (by decide) (by decide) (by decide) (by decide) (by decide)
theorem W7_main_arg17 (c : Dev nD) : W7 m ρ c (Proc.devRef .tc main_arg17) = m ((c : Thread nD τ).loc main_arg17) :=
  W7_of_untouched m ρ c main_arg17 (by decide) (by decide) (by decide) (by decide) (by decide) (by decide) (by decide)
theorem W7_main_arg18 (c : Dev nD) : W7 m ρ c (Proc.devRef .tc main_arg18) = m ((c : Thread nD τ).loc main_arg18) :=
  W7_of_untouched m ρ c main_arg18 (by decide) (by decide) (by decide) (by decide) (by decide) (by decide) (by decide)
theorem W7_main_arg19 (c : Dev nD) : W7 m ρ c (Proc.devRef .tc main_arg19) = m ((c : Thread nD τ).loc main_arg19) :=
  W7_of_untouched m ρ c main_arg19 (by decide) (by decide) (by decide) (by decide) (by decide) (by decide) (by decide)

/-- THE FRAME: every weakly fair execution of the program terminates, and every final state has each of the twenty
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c),
     (h c _ (mem_uc main_arg13 (by decide))).trans (W7_main_arg13 m ρ c),
     (h c _ (mem_uc main_arg14 (by decide))).trans (W7_main_arg14 m ρ c),
     (h c _ (mem_uc main_arg15 (by decide))).trans (W7_main_arg15 m ρ c),
     (h c _ (mem_uc main_arg16 (by decide))).trans (W7_main_arg16 m ρ c),
     (h c _ (mem_uc main_arg17 (by decide))).trans (W7_main_arg17 m ρ c),
     (h c _ (mem_uc main_arg18 (by decide))).trans (W7_main_arg18 m ρ c),
     (h c _ (mem_uc main_arg19 (by decide))).trans (W7_main_arg19 m ρ c)⟩) (run_all m ρ)

end Cert.Kernel.Hand

end
-- ==== Proof.KernelIdeal.Reg0.lean ====
/-
  The item encoder of the kernel program, one block of 1000 items at a time.

  At a grid point the body is handed a block v of 1000 rows of visual features and the matching block s of text
  features, together with the whole of every weight (already transposed) and bias row, and stores into the output
  block the value

      (1/2) * ( ((relu (v*Wv1 + bv1))*Wv2 + bv2)*Wd + bd  +  ((relu (s*Wt1 + bt1))*Wt2 + bt2)*Wd + bd ).

  This module fixes that value as a function of the twelve input blocks, for ANY contents V of the buffers when the
  region is entered; proves that the body, started with its staging buffers at those blocks, ends with the output
  buffer at that value and every input buffer as it was; and puts the statement in the form the pipeline's launch
  rule asks for at each grid point.
-/
import proofs.«128426_j13245679141184_1_alg».proof.Proof.Gen.KernelIdeal.Launch
import proofs.«128426_j13245679141184_1_alg».proof.Proof.Gen.KernelIdeal.Skeleton
import proofs.«128426_j13245679141184_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The blocks -/

/-- Window w's block at grid point t: the rows 1000 t ... 1000 t + 999 of a feature array, the whole of a
    weight or bias. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point: where the block index moved it was
    fetched, and where it did not the buffer still holds the same block. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-! ## What the body reads and writes: whole buffers -/

abbrev rVis : Rect S1000x2048 := Rect.unit (s := S1000x2048) ![0, 0] S1000x2048.size inb_S1000x2048_S1000x2048_0_0
abbrev rTxt : Rect S1000x300 := Rect.unit (s := S1000x300) ![0, 0] S1000x300.size inb_S1000x300_S1000x300_0_0
abbrev rWv1 : Rect S2048x512 := Rect.unit (s := S2048x512) ![0, 0] S2048x512.size inb_S2048x512_S2048x512_0_0
abbrev rB512 : Rect S1x512 := Rect.unit (s := S1x512) ![0, 0] S1x512.size inb_S1x512_S1x512_0_0
abbrev rWv2 : Rect S512x64 := Rect.unit (s := S512x64) ![0, 0] S512x64.size inb_S512x64_S512x64_0_0
abbrev rB64 : Rect S1x64 := Rect.unit (s := S1x64) ![0, 0] S1x64.size inb_S1x64_S1x64_0_0
abbrev rWt1 : Rect S300x256 := Rect.unit (s := S300x256) ![0, 0] S300x256.size inb_S300x256_S300x256_0_0
abbrev rB256 : Rect S1x256 := Rect.unit (s := S1x256) ![0, 0] S1x256.size inb_S1x256_S1x256_0_0
abbrev rWt2 : Rect S256x64 := Rect.unit (s := S256x64) ![0, 0] S256x64.size inb_S256x64_S256x64_0_0
abbrev rWd : Rect S64x64 := Rect.unit (s := S64x64) ![0, 0] S64x64.size inb_S64x64_S64x64_0_0
abbrev rOut : Rect S1000x64 := Rect.unit (s := S1000x64) ![0, 0] S1000x64.size inb_S1000x64_S1000x64_0_0

/-- The output block after the body: the one store, of the encoder's value of the twelve input blocks, over the
    whole buffer. The visual tower is k0_pay3, the text tower's first layer k0_pay4, and k0_pay1 finishes the
    text tower, adds the two and halves. -/
def out0_12 (v : Vec F S1000x2048 .f32) (s : Vec F S1000x300 .f32) (Wv1 : Vec F S2048x512 .f32) (bv1 : Vec F S1x512 .f32)
    (Wv2 : Vec F S512x64 .f32) (bv2 : Vec F S1x64 .f32) (Wt1 : Vec F S300x256 .f32) (bt1 : Vec F S1x256 .f32)
    (Wt2 : Vec F S256x64 .f32) (bt2 : Vec F S1x64 .f32) (Wd : Vec F S64x64 .f32) (bd : Vec F S1x64 .f32) : Vec F S1000x64 .f32 :=
  View.canon [⟨rOut, k0_pay1 (k0_pay2 (View.ld Wd rWd))
    (k0_pay3 (View.ld v rVis) (View.ld Wv1 rWv1) (View.ld bv1 rB512) (View.ld Wv2 rWv2) (View.ld bv2 rB64) (View.ld Wd rWd) (View.ld bd rB64))
    (k0_pay4 (View.ld s rTxt) (View.ld Wt1 rWt1) (View.ld bt1 rB256)) (k0_pay5 (F := F))
    (View.ld Wt2 rWt2) (View.ld bt2 rB64) (View.ld bd rB64)⟩]

/-- The store covers every entry of the output buffer. -/
theorem cover0_12 (p0 : Vec F S1000x64 .f32) (y : S1000x64.Idx) :
    ∃ pc ∈ ([⟨rOut, p0⟩] : List (View.Piece (Elt F) S1000x64 .f32)), y ∈ pc.1.set :=
  View.cover_of_tiled [⟨rOut, p0⟩] S1000x64.size (by rfl) y

/-! ## The body's triple -/

set_option maxHeartbeats 1000000 in
/-- Started with the twelve input buffers at the given blocks and the output buffer at anything, the body ends with
    the inputs unchanged and the output at out0_12 of them. -/
theorem sound_kernel0 (c : Dev nD) (E : Set ℕ) (i : grid0.Coords)
    (arg1 : Memref sig .tc .vmem S1000x2048 .f32) (harg1 : arg1.IsWhole) (arg2 : Memref sig .tc .vmem S1000x300 .f32) (harg2 : arg2.IsWhole)
    (arg3 : Memref sig .tc .vmem S2048x512 .f32) (harg3 : arg3.IsWhole) (arg4 : Memref sig .tc .vmem S1x512 .f32) (harg4 : arg4.IsWhole)
    (arg5 : Memref sig .tc .vmem S512x64 .f32) (harg5 : arg5.IsWhole) (arg6 : Memref sig .tc .vmem S1x64 .f32) (harg6 : arg6.IsWhole)
    (arg7 : Memref sig .tc .vmem S300x256 .f32) (harg7 : arg7.IsWhole) (arg8 : Memref sig .tc .vmem S1x256 .f32) (harg8 : arg8.IsWhole)
    (arg9 : Memref sig .tc .vmem S256x64 .f32) (harg9 : arg9.IsWhole) (arg10 : Memref sig .tc .vmem S1x64 .f32) (harg10 : arg10.IsWhole)
    (arg11 : Memref sig .tc .vmem S64x64 .f32) (harg11 : arg11.IsWhole) (arg12 : Memref sig .tc .vmem S1x64 .f32) (harg12 : arg12.IsWhole)
    (arg13 : Memref sig .tc .vmem S1000x64 .f32) (harg13 : arg13.IsWhole)
    (v : Vec F S1000x2048 .f32) (s : Vec F S1000x300 .f32) (Wv1 : Vec F S2048x512 .f32) (bv1 : Vec F S1x512 .f32)
    (Wv2 : Vec F S512x64 .f32) (bv2 : Vec F S1x64 .f32) (Wt1 : Vec F S300x256 .f32) (bt1 : Vec F S1x256 .f32)
    (Wt2 : Vec F S256x64 .f32) (bt2 : Vec F S1x64 .f32) (Wd : Vec F S64x64 .f32) (bd : Vec F S1x64 .f32) (K : PUnit → sProp 𝕄) :
    iprop(owns (c : Thread nD τ) arg1 fullShare v ∗ owns (c : Thread nD τ) arg2 fullShare s ∗ owns (c : Thread nD τ) arg3 fullShare Wv1
        ∗ owns (c : Thread nD τ) arg4 fullShare bv1 ∗ owns (c : Thread nD τ) arg5 fullShare Wv2 ∗ owns (c : Thread nD τ) arg6 fullShare bv2
        ∗ owns (c : Thread nD τ) arg7 fullShare Wt1 ∗ owns (c : Thread nD τ) arg8 fullShare bt1 ∗ owns (c : Thread nD τ) arg9 fullShare Wt2
        ∗ owns (c : Thread nD τ) arg10 fullShare bt2 ∗ owns (c : Thread nD τ) arg11 fullShare Wd ∗ owns (c : Thread nD τ) arg12 fullShare bd
        ∗ (∃ d, owns (c : Thread nD τ) arg13 fullShare d)
        ∗ (iprop(owns (c : Thread nD τ) arg1 fullShare v ∗ owns (c : Thread nD τ) arg2 fullShare s ∗ owns (c : Thread nD τ) arg3 fullShare Wv1
            ∗ owns (c : Thread nD τ) arg4 fullShare bv1 ∗ owns (c : Thread nD τ) arg5 fullShare Wv2 ∗ owns (c : Thread nD τ) arg6 fullShare bv2
            ∗ owns (c : Thread nD τ) arg7 fullShare Wt1 ∗ owns (c : Thread nD τ) arg8 fullShare bt1 ∗ owns (c : Thread nD τ) arg9 fullShare Wt2
            ∗ owns (c : Thread nD τ) arg10 fullShare bt2 ∗ owns (c : Thread nD τ) arg11 fullShare Wd ∗ owns (c : Thread nD τ) arg12 fullShare bd
            ∗ owns (c : Thread nD τ) arg13 fullShare (out0_12 v s Wv1 bv1 Wv2 bv2 Wt1 bt1 Wt2 bt2 Wd bd)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8 arg9 harg9 arg10 harg10 arg11 harg11 arg12 harg12 arg13 harg13) K := by
  simp only [cc0__mlp_kernel_eq_skeleton]; unfold cc0__mlp_kernel_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf1; subst hf2; subst hf3; subst hf4; subst hf5; subst hf6; subst hf7; subst hf8; subst hf9; subst hf10; subst hf11; subst hf12
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover0_12 _)

/-! ## The pipeline's proof data -/

/-- After the body at point t each input buffer holds its block and the output buffer the encoder's value of the
    input blocks; the region keeps nothing else and owes nothing. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => out0_12 (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t) (iblk0 V c 11 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t
    = out0_12 (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t) (iblk0 V c 11 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d

/-! ## The obligation at a grid point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ _ _ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) (iblk0 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Reg1.lean ====
/-
  Graph layer 1 of the kernel program, one block of 10000 rows at a time.

  At a grid point the body is handed five input blocks — a block `x` of the current node features, the matching
  block `n` of the aggregated neighbour features, the two 64×64 halves `A`, `B` of the layer's weight (already
  transposed) and the bias row `b` — and stores into the output block the value
  `leaky (x·A + n·B + b)`, where `leaky y = y` when `y > 0` and `0.01·y` otherwise.
  This module fixes that value as a function of the input blocks, for ANY contents `V` of the buffers when the
  region is entered; proves that the body, started with its staging buffers at those blocks, ends with the output
  buffer at that value and every input buffer as it was; and puts the statement in the form the pipeline's launch
  rule asks for at each grid point.
-/
import proofs.«128426_j13245679141184_1_alg».proof.Proof.Gen.KernelIdeal.Launch
import proofs.«128426_j13245679141184_1_alg».proof.Proof.Gen.KernelIdeal.Skeleton
import proofs.«128426_j13245679141184_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The blocks -/

/-- Window `w`'s block at grid point `t`: the rows `10000·t … 10000·t + 9999` of a row-blocked array, the whole of
    a weight or bias. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point: where the block index moved it was
    fetched, and where it did not the buffer still holds the same block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What the body reads and writes: whole buffers -/

abbrev rows1 : Rect S10000x64 := Rect.unit (s := S10000x64) ![0, 0] S10000x64.size inb_S10000x64_S10000x64_0_0
abbrev wgt1 : Rect S64x64 := Rect.unit (s := S64x64) ![0, 0] S64x64.size inb_S64x64_S64x64_0_0
abbrev bias1 : Rect S1x64 := Rect.unit (s := S1x64) ![0, 0] S1x64.size inb_S1x64_S1x64_0_0

/-- The output block after the body: the one store, of `leaky (x·A + n·B + b)`, over the whole buffer. -/
def out1_5 (x n : Vec F S10000x64 .f32) (A B : Vec F S64x64 .f32) (b : Vec F S1x64 .f32) : Vec F S10000x64 .f32 :=
  View.canon [⟨rows1, k1_pay1 (View.ld x rows1) (View.ld A wgt1) (View.ld n rows1) (View.ld B wgt1) (View.ld b bias1)⟩]

/-- The store covers every entry of the output buffer. -/
theorem cover1_5 (p0 : Vec F S10000x64 .f32) (y : S10000x64.Idx) :
    ∃ pc ∈ ([⟨rows1, p0⟩] : List (View.Piece (Elt F) S10000x64 .f32)), y ∈ pc.1.set :=
  View.cover_of_tiled [⟨rows1, p0⟩] S10000x64.size (by rfl) y

/-! ## The body's triple -/

set_option maxHeartbeats 1000000 in
/-- Started with the five input buffers at `x, n, A, B, b` and the output buffer at anything, the body ends with the
    inputs unchanged and the output at `out1_5 x n A B b`. -/
theorem sound_kernel1 (c : Dev nD) (E : Set ℕ) (i : grid1.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S10000x64 .f32) (harg6 : arg6.IsWhole)
    (x n : Vec F S10000x64 .f32) (A B : Vec F S64x64 .f32) (b : Vec F S1x64 .f32) (K : PUnit → sProp 𝕄) :
    iprop(owns (c : Thread nD τ) arg1 fullShare x ∗ owns (c : Thread nD τ) arg2 fullShare n ∗ owns (c : Thread nD τ) arg3 fullShare A
        ∗ owns (c : Thread nD τ) arg4 fullShare B ∗ owns (c : Thread nD τ) arg5 fullShare b ∗ (∃ d, owns (c : Thread nD τ) arg6 fullShare d)
        ∗ (iprop(owns (c : Thread nD τ) arg1 fullShare x ∗ owns (c : Thread nD τ) arg2 fullShare n ∗ owns (c : Thread nD τ) arg3 fullShare A
            ∗ owns (c : Thread nD τ) arg4 fullShare B ∗ owns (c : Thread nD τ) arg5 fullShare b
            ∗ owns (c : Thread nD τ) arg6 fullShare (out1_5 x n A B b)) -∗ K ⟨⟩))
      ⊢ wp frame (wpE (defs₀ (F := F)) Variants.none c none) E (cc1__gnn_layer_kernel i arg1 harg1 arg2 harg2 arg3 harg3 arg4 harg4 arg5 harg5 arg6 harg6) K := by
  simp only [cc1__gnn_layer_kernel_eq_skeleton]; unfold cc1__gnn_layer_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_5 _)

/-! ## The pipeline's proof data -/

/-- After the body at point `t` each input buffer holds its block and the output buffer the layer's value of the
    input blocks; the region keeps nothing else and owes nothing. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The obligation at a grid point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Reg2.lean ====
/-
  Graph layer 2 of the kernel program, one block of 10000 rows at a time.

  At a grid point the body is handed five input blocks — a block `x` of the current node features, the matching
  block `n` of the aggregated neighbour features, the two 64×64 halves `A`, `B` of the layer's weight (already
  transposed) and the bias row `b` — and stores into the output block the value
  `leaky (x·A + n·B + b)`, where `leaky y = y` when `y > 0` and `0.01·y` otherwise.
  This module fixes that value as a function of the input blocks, for ANY contents `V` of the buffers when the
  region is entered; proves that the body, started with its staging buffers at those blocks, ends with the output
  buffer at that value and every input buffer as it was; and puts the statement in the form the pipeline's launch
  rule asks for at each grid point.
-/
import proofs.«128426_j13245679141184_1_alg».proof.Proof.Gen.KernelIdeal.Launch
import proofs.«128426_j13245679141184_1_alg».proof.Proof.Gen.KernelIdeal.Skeleton
import proofs.«128426_j13245679141184_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The blocks -/

/-- Window `w`'s block at grid point `t`: the rows `10000·t … 10000·t + 9999` of a row-blocked array, the whole of
    a weight or bias. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point: where the block index moved it was
    fetched, and where it did not the buffer still holds the same block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## What the body reads and writes: whole buffers -/

abbrev rows2 : Rect S10000x64 := Rect.unit (s := S10000x64) ![0, 0] S10000x64.size inb_S10000x64_S10000x64_0_0
abbrev wgt2 : Rect S64x64 := Rect.unit (s := S64x64) ![0, 0] S64x64.size inb_S64x64_S64x64_0_0
abbrev bias2 : Rect S1x64 := Rect.unit (s := S1x64) ![0, 0] S1x64.size inb_S1x64_S1x64_0_0

/-- The output block after the body: the one store, of `leaky (x·A + n·B + b)`, over the whole buffer. -/
def out2_5 (x n : Vec F S10000x64 .f32) (A B : Vec F S64x64 .f32) (b : Vec F S1x64 .f32) : Vec F S10000x64 .f32 :=
  View.canon [⟨rows2, k2_pay1 (View.ld x rows2) (View.ld A wgt2) (View.ld n rows2) (View.ld B wgt2) (View.ld b bias2)⟩]

/-- The store covers every entry of the output buffer. -/
theorem cover2_5 (p0 : Vec F S10000x64 .f32) (y : S10000x64.Idx) :
    ∃ pc ∈ ([⟨rows2, p0⟩] : List (View.Piece (Elt F) S10000x64 .f32)), y ∈ pc.1.set :=
  View.cover_of_tiled [⟨rows2, p0⟩] S10000x64.size (by rfl) y

/-! ## The body's triple -/

set_option maxHeartbeats 1000000 in
/-- Started with the five input buffers at `x, n, A, B, b` and the output buffer at anything, the body ends with the
    inputs unchanged and the output at `out2_5 x n A B b`. -/
theorem sound_kernel2 (c : Dev nD) (E : Set ℕ) (i : grid2.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S10000x64 .f32) (harg6 : arg6.IsWhole)
    (x n : Vec F S10000x64 .f32) (A B : Vec F S64x64 .f32) (b : Vec F S1x64 .f32) (K : PUnit → sProp 𝕄) :
    iprop(owns (c : Thread nD τ) arg1 fullShare x ∗ owns (c : Thread nD τ) arg2 fullShare n ∗ owns (c : Thread nD τ) arg3 fullShare A
        ∗ owns (c : Thread nD τ) arg4 fullShare B ∗ owns (c : Thread nD τ) arg5 fullShare b ∗ (∃ d, owns (c : Thread nD τ) arg6 fullShare d)
        ∗ (iprop(owns (c : Thread nD τ) arg1 fullShare x ∗ owns (c : Thread nD τ) arg2 fullShare n ∗ owns (c : Thread nD τ) arg3 fullShare A
            ∗ owns (c : Thread nD τ) arg4 fullShare B ∗ owns (c : Thread nD τ) arg5 fullShare b
            ∗ owns (c : Thread nD τ) arg6 fullShare (out2_5 x n A B b)) -∗ K ⟨⟩))
      ⊢ wp frame (wpE (defs₀ (F := F)) Variants.none c none) E (cc2__gnn_layer_kernel i arg1 harg1 arg2 harg2 arg3 harg3 arg4 harg4 arg5 harg5 arg6 harg6) K := by
  simp only [cc2__gnn_layer_kernel_eq_skeleton]; unfold cc2__gnn_layer_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_5 _)

/-! ## The pipeline's proof data -/

/-- After the body at point `t` each input buffer holds its block and the output buffer the layer's value of the
    input blocks; the region keeps nothing else and owes nothing. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The obligation at a grid point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdeal.Run.lean ====
/-
  The run of the whole program, from the launch to the return.

  The program is seven stretches in order: a stretch of host operations, the first kernel region (it writes
  main_v10), a second host stretch, the second kernel region (it writes main_v31), a third host stretch, the third
  kernel region (it writes main_v50), and a last host stretch, one concatenation of the three results into main_v51.

  The contents of a core's buffers are followed from boundary to boundary. A host stretch takes contents W to
  StableHlo.after ops W: each operation rewrites the buffer it writes and leaves the rest. A kernel region entered
  at contents W leaves every buffer that is not one of its arrays as it was, each input array as it was, and each
  output array at the fold of the blocks its grid points wrote back. W0 is the launch memory and W7 the contents at
  the return. The theorem run_all says: every weakly fair execution terminates, and in every final
  state every buffer that outlives the program holds what W7 says. Since no stretch writes an argument array,
  W7 at an argument is the launch memory there: the frame claim.
-/
import proofs.«128426_j13245679141184_1_alg».proof.Proof.Gen.KernelIdeal.Launch
import proofs.«128426_j13245679141184_1_alg».proof.Proof.Gen.KernelIdeal.Skeleton
import proofs.«128426_j13245679141184_1_alg».proof.Proof.Gen.KernelIdeal.Points
import proofs.«128426_j13245679141184_1_alg».proof.Proof.KernelIdeal.Reg0
import proofs.«128426_j13245679141184_1_alg».proof.Proof.KernelIdeal.Reg1
import proofs.«128426_j13245679141184_1_alg».proof.Proof.KernelIdeal.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at the launch. -/
abbrev W0 : Dev nD → Valuation τ sig (Elt F) := fun c b => (s₀ m ρ).mem ((c : Dev nD), b)
/-- After the first host stretch: what region 0 is entered at. -/
abbrev W1 : Dev nD → Valuation τ sig (Elt F) := fun c => StableHlo.after hostOps0 (W0 m ρ c)
/-- The same, read at the TensorCore's references. -/
abbrev E1 : (c : Dev nD) → (b : Ref sig .tc) → Buf (Elt F) ((c : Thread nD τ).loc b) := fun c b => W1 m ρ c b
/-- At region 0's exit: its arrays at what the grid's write-backs leave, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
/-- At region 0's exit each of its arrays holds what the grid leaves, and every other buffer what it held at entry. -/
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After the second host stretch: what region 1 is entered at. -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev E4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = E4 m ρ c (Pipeline.arrRef spec1 w) :=
  (W4_arr m ρ c w).symm
theorem hrest1 (c : Dev nD) : ∀ b, b ∉ Finset.univ.image (Pipeline.arrRef spec1) → E4 m ρ c b = E3 m ρ c b :=
  fun b hb => W4_of_ne m ρ c b fun w e => hb (Finset.mem_image.mpr ⟨w, Finset.mem_univ _, e⟩)

/-- After the third host stretch: what region 2 is entered at. -/
abbrev W5 : Dev nD → Valuation τ sig (Elt F) := fun c => StableHlo.after hostOps2 (W4 m ρ c)
abbrev E5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (E5 m ρ) c).arrAt w cfg2.N
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev E6 : (c : Dev nD) → (b : Ref sig .tc) → Buf (Elt F) ((c : Thread nD τ).loc b) := fun c b => W6 m ρ c b
theorem hF2 (c : Dev nD) (w : Fin cfg2.W) : (dat2 (E5 m ρ) c).arrAt w cfg2.N = E6 m ρ c (Pipeline.arrRef spec2 w) :=
  (W6_arr m ρ c w).symm
theorem hrest2 (c : Dev nD) : ∀ b, b ∉ Finset.univ.image (Pipeline.arrRef spec2) → E6 m ρ c b = E5 m ρ c b :=
  fun b hb => W6_of_ne m ρ c b fun w e => hb (Finset.mem_image.mpr ⟨w, Finset.mem_univ _, e⟩)

/-- After the last host stretch: the contents at the return. -/
abbrev W7 : Dev nD → Valuation τ sig (Elt F) := fun c => StableHlo.after hostOps3 (W6 m ρ c)

/-! ## What the host stretches write -/

/-- No operation of a host stretch allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-- The references each host stretch writes: the results of its operations, in order. -/
abbrev wr0 : List (Ref sig .tc) := [main_v0, main_v1, main_v2, main_v3, main_v4, main_v5, main_v6, main_v7, main_v8, main_v9]
abbrev wr1 : List (Ref sig .tc) := [main_c, main_v11, main_v12, main_v13, main_c_0, main_v14, main_v15, main_c_1, main_v16, main_v17,
  main_v18, main_v19, main_v20, main_v21, main_v22, main_cst, main_v23, main_v24, main_v25, main_v26, main_v27, main_v28, main_v29, main_v30]
abbrev wr2 : List (Ref sig .tc) := [main_v32, main_c_2, main_v33, main_v34, main_c_3, main_v35, main_v36, main_v37, main_v38, main_v39,
  main_v40, main_v41, main_cst_4, main_v42, main_v43, main_v44, main_v45, main_v46, main_v47, main_v48, main_v49]
abbrev wr3 : List (Ref sig .tc) := [main_v51]

theorem hostOps0_wr : (hostOps0 : List (HloOp τ sig (Elt F))).Forall fun op => op.writes ⊆ (wr0.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes,
      StableHlo.nary_writes, Finset.singleton_subset_iff, List.mem_toFinset]
    exact List.mem_map_of_mem (by decide)
theorem hostOps1_wr : (hostOps1 : List (HloOp τ sig (Elt F))).Forall fun op => op.writes ⊆ (wr1.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes,
      StableHlo.nary_writes, Finset.singleton_subset_iff, List.mem_toFinset]
    exact List.mem_map_of_mem (by decide)
theorem hostOps2_wr : (hostOps2 : List (HloOp τ sig (Elt F))).Forall fun op => op.writes ⊆ (wr2.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes,
      StableHlo.nary_writes, Finset.singleton_subset_iff, List.mem_toFinset]
    exact List.mem_map_of_mem (by decide)
theorem hostOps3_wr : (hostOps3 : List (HloOp τ sig (Elt F))).Forall fun op => op.writes ⊆ (wr3.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes,
      StableHlo.nary_writes, Finset.singleton_subset_iff, List.mem_toFinset]
    exact List.mem_map_of_mem (by decide)

/-- A reference a host stretch does not write holds after it what it held before. -/
theorem W1_of (c : Dev nD) (r : Ref sig .tc) (h : r ∉ wr0) : W1 m ρ c (Proc.devRef .tc r) = W0 m ρ c (Proc.devRef .tc r) :=
  StableHlo.after_of_writes_sub hostOps0 _ hostOps0_wr h
theorem W3_of (c : Dev nD) (r : Ref sig .tc) (h : r ∉ wr1) : W3 m ρ c (Proc.devRef .tc r) = W2 m ρ c (Proc.devRef .tc r) :=
  StableHlo.after_of_writes_sub hostOps1 _ hostOps1_wr h
theorem W5_of (c : Dev nD) (r : Ref sig .tc) (h : r ∉ wr2) : W5 m ρ c (Proc.devRef .tc r) = W4 m ρ c (Proc.devRef .tc r) :=
  StableHlo.after_of_writes_sub hostOps2 _ hostOps2_wr h
theorem W7_of (c : Dev nD) (r : Ref sig .tc) (h : r ∉ wr3) : W7 m ρ c (Proc.devRef .tc r) = W6 m ρ c (Proc.devRef .tc r) :=
  StableHlo.after_of_writes_sub hostOps3 _ hostOps3_wr h

/-! ## The proof data family and the thread state -/

/-- No kernel region has a prefetched table. -/
abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every stretch: the core's generator register at some state, and its
    debts, none. -/
abbrev R (c : Dev nD) : sProp 𝕄 := iprop((∃ r, prngReg c r) ∗ ∃ W, owes (c : Thread nD τ) (0 : CellTallies nD τ sig Unit) W)
/-- A host stretch over the buffers that outlive the program, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A TensorCore reference that outlives the program is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every such buffer at the return's contents, the generator register
    at some state. -/
abbrev Tₙ (c : Dev nD) : sProp 𝕄 := iprop(StableHlo.held (c : Thread nD τ) (Pipeline.ucRefs τ sig) (W7 m ρ c) ∗ ∃ r, prngReg c r)

/-! ## The regions as stretches over the thread state -/

set_option backward.isDefEq.respectTransparency.types false in
/-- REGION 0 over the thread state: entered from every buffer that outlives the program at W1, left at W2. Its
    arrays are split out of those buffers at entry and put back at the exit contents; the generator register goes into
    the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every buffer that outlives the program at W3, left at W4. Its
    arrays are split out of those buffers at entry and put back at the exit contents; the generator register goes into
    the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every buffer that outlives the program at W5, left at W6. Its
    arrays are split out of those buffers at entry and put back at the exit contents; the generator register goes into
    the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its seven stretches, and the launch -/

/-- The seven stretches in order: a host stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- The program is the run of these stretches. -/
theorem main_run (c : Dev nD) : main (F := F) c = Pipeline.Seg.run (segs m ρ) := (main_chain c).trans (by chain_rfl)

set_option backward.isDefEq.respectTransparency.types false in
/-- THE RUN: from any launch memory with every semaphore counter at zero, every weakly fair execution of the program on
    the TensorCores terminates, and in every final state every buffer that outlives the program holds the contents
    W7 names: the stretches chain from the launch contents W0, each entered from what the one before it left, and the last
    thread state is read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c =>
      show iprop(StableHlo.held (c : Thread nD τ) (Pipeline.ucRefs τ sig) (W7 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-! ## The arguments end as launched

No host stretch writes an argument array, and no region has one among its output arrays: a region reads an argument
through an input window, which leaves the array as it was, or does not touch it at all. So the contents at the return,
read at an argument, walk back boundary by boundary to the launch memory. -/

/-- A buffer that no host stretch writes and that is not an array of any region holds at the return what it held at
    the launch. -/
theorem W7_of_untouched (c : Dev nD) (r : Ref sig .tc) (h0 : r ∉ wr0) (h1 : r ∉ wr1) (h2 : r ∉ wr2) (h3 : r ∉ wr3)
    (a0 : ∀ w, Pipeline.arrRef spec0 w ≠ r) (a1 : ∀ w, Pipeline.arrRef spec1 w ≠ r) (a2 : ∀ w, Pipeline.arrRef spec2 w ≠ r) :
    W7 m ρ c (Proc.devRef .tc r) = m ((c : Thread nD τ).loc r) :=
  calc W7 m ρ c (Proc.devRef .tc r)
    _ = W6 m ρ c (Proc.devRef .tc r) := W7_of m ρ c r h3
    _ = W5 m ρ c (Proc.devRef .tc r) := W6_of_ne m ρ c r a2
    _ = W4 m ρ c (Proc.devRef .tc r) := W5_of m ρ c r h2
    _ = W3 m ρ c (Proc.devRef .tc r) := W4_of_ne m ρ c r a1
    _ = W2 m ρ c (Proc.devRef .tc r) := W3_of m ρ c r h1
    _ = W1 m ρ c (Proc.devRef .tc r) := W2_of_ne m ρ c r a0
    _ = W0 m ρ c (Proc.devRef .tc r) := W1_of m ρ c r h0
    _ = m ((c : Thread nD τ).loc r) := rfl

/-- The same for an input array of region 0 that nothing else touches: the region's grid leaves an input array as
    it found it. -/
theorem W7_of_input0 (c : Dev nD) (w : Fin cfg0.W) (hin : (cfg0.win w).isOut = false)
    (h0 : Pipeline.arrRef spec0 w ∉ wr0) (h1 : Pipeline.arrRef spec0 w ∉ wr1) (h2 : Pipeline.arrRef spec0 w ∉ wr2)
    (h3 : Pipeline.arrRef spec0 w ∉ wr3)
    (a1 : ∀ w', Pipeline.arrRef spec1 w' ≠ Pipeline.arrRef spec0 w) (a2 : ∀ w', Pipeline.arrRef spec2 w' ≠ Pipeline.arrRef spec0 w) :
    W7 m ρ c (Proc.devRef .tc (Pipeline.arrRef spec0 w)) = m ((c : Thread nD τ).loc (Pipeline.arrRef spec0 w)) :=
  calc W7 m ρ c (Proc.devRef .tc (Pipeline.arrRef spec0 w))
    _ = W6 m ρ c (Proc.devRef .tc (Pipeline.arrRef spec0 w)) := W7_of m ρ c _ h3
    _ = W5 m ρ c (Proc.devRef .tc (Pipeline.arrRef spec0 w)) := W6_of_ne m ρ c _ a2
    _ = W4 m ρ c (Proc.devRef .tc (Pipeline.arrRef spec0 w)) := W5_of m ρ c _ h2
    _ = W3 m ρ c (Proc.devRef .tc (Pipeline.arrRef spec0 w)) := W4_of_ne m ρ c _ a1
    _ = W2 m ρ c (Proc.devRef .tc (Pipeline.arrRef spec0 w)) := W3_of m ρ c _ h1
    _ = W1 m ρ c (Proc.devRef .tc (Pipeline.arrRef spec0 w)) :=
        (W2_arr m ρ c w).trans (((dat0 (E1 m ρ) c).arrAt_in w hin _).trans (A_eq0 (E1 m ρ) c w))
    _ = W0 m ρ c (Proc.devRef .tc (Pipeline.arrRef spec0 w)) := W1_of m ρ c _ h0
    _ = m ((c : Thread nD τ).loc (Pipeline.arrRef spec0 w)) := rfl

theorem W7_main_arg0 (c : Dev nD) : W7 m ρ c (Proc.devRef .tc main_arg0) = m ((c : Thread nD τ).loc main_arg0) :=
  W7_of_untouched m ρ c main_arg0 (by decide) (by decide) (by decide) (by decide) (by decide) (by decide) (by decide)
theorem W7_main_arg1 (c : Dev nD) : W7 m ρ c (Proc.devRef .tc main_arg1) = m ((c : Thread nD τ).loc main_arg1) :=
  W7_of_untouched m ρ c main_arg1 (by decide) (by decide) (by decide) (by decide) (by decide) (by decide) (by decide)
theorem W7_main_arg2 (c : Dev nD) : W7 m ρ c (Proc.devRef .tc main_arg2) = m ((c : Thread nD τ).loc main_arg2) :=
  W7_of_untouched m ρ c main_arg2 (by decide) (by decide) (by decide) (by decide) (by decide) (by decide) (by decide)
theorem W7_main_arg3 (c : Dev nD) : W7 m ρ c (Proc.devRef .tc main_arg3) = m ((c : Thread nD τ).loc main_arg3) :=
  W7_of_untouched m ρ c main_arg3 (by decide) (by decide) (by decide) (by decide) (by decide) (by decide) (by decide)
theorem W7_main_arg4 (c : Dev nD) : W7 m ρ c (Proc.devRef .tc main_arg4) = m ((c : Thread nD τ).loc main_arg4) :=
  W7_of_input0 m ρ c 0 rfl (by decide) (by decide) (by decide) (by decide) (by decide) (by decide)
theorem W7_main_arg5 (c : Dev nD) : W7 m ρ c (Proc.devRef .tc main_arg5) = m ((c : Thread nD τ).loc main_arg5) :=
  W7_of_input0 m ρ c 1 rfl (by decide) (by decide) (by decide) (by decide) (by decide) (by decide)
theorem W7_main_arg6 (c : Dev nD) : W7 m ρ c (Proc.devRef .tc main_arg6) = m ((c : Thread nD τ).loc main_arg6) :=
  W7_of_untouched m ρ c main_arg6 (by decide) (by decide) (by decide) (by decide) (by decide) (by decide) (by decide)
theorem W7_main_arg7 (c : Dev nD) : W7 m ρ c (Proc.devRef .tc main_arg7) = m ((c : Thread nD τ).loc main_arg7) :=
  W7_of_untouched m ρ c main_arg7 (by decide) (by decide) (by decide) (by decide) (by decide) (by decide) (by decide)
theorem W7_main_arg8 (c : Dev nD) : W7 m ρ c (Proc.devRef .tc main_arg8) = m ((c : Thread nD τ).loc main_arg8) :=
  W7_of_untouched m ρ c main_arg8 (by decide) (by decide) (by decide) (by decide) (by decide) (by decide) (by decide)
theorem W7_main_arg9 (c : Dev nD) : W7 m ρ c (Proc.devRef .tc main_arg9) = m ((c : Thread nD τ).loc main_arg9) :=
  W7_of_untouched m ρ c main_arg9 (by decide) (by decide) (by decide) (by decide) (by decide) (by decide) (by decide)
theorem W7_main_arg10 (c : Dev nD) : W7 m ρ c (Proc.devRef .tc main_arg10) = m ((c : Thread nD τ).loc main_arg10) :=
  W7_of_untouched m ρ c main_arg10 (by decide) (by decide) (by decide) (by decide) (by decide) (by decide) (by decide)
theorem W7_main_arg11 (c : Dev nD) : W7 m ρ c (Proc.devRef .tc main_arg11) = m ((c : Thread nD τ).loc main_arg11) :=
  W7_of_untouched m ρ c main_arg11 (by decide) (by decide) (by decide) (by decide) (by decide) (by decide) (by decide)
theorem W7_main_arg12 (c : Dev nD) : W7 m ρ c (Proc.devRef .tc main_arg12) = m ((c : Thread nD τ).loc main_arg12) :=
  W7_of_untouched m ρ c main_arg12 (by decide) (by decide) (by decide) (by decide) (by decide) (by decide) (by decide)
theorem W7_main_arg13 (c : Dev nD) : W7 m ρ c (Proc.devRef .tc main_arg13) = m ((c : Thread nD τ).loc main_arg13) :=
  W7_of_untouched m ρ c main_arg13 (by decide) (by decide) (by decide) (by decide) (by decide) (by decide) (by decide)
theorem W7_main_arg14 (c : Dev nD) : W7 m ρ c (Proc.devRef .tc main_arg14) = m ((c : Thread nD τ).loc main_arg14) :=
  W7_of_untouched m ρ c main_arg14 (by decide) (by decide) (by decide) (by decide) (by decide) (by decide) (by decide)
theorem W7_main_arg15 (c : Dev nD) : W7 m ρ c (Proc.devRef .tc main_arg15) = m ((c : Thread nD τ).loc main_arg15) :=
  W7_of_untouched m ρ c main_arg15 (by decide) (by decide) (by decide) (by decide) (by decide) (by decide) (by decide)
theorem W7_main_arg16 (c : Dev nD) : W7 m ρ c (Proc.devRef .tc main_arg16) = m ((c : Thread nD τ).loc main_arg16) :=
  W7_of_untouched m ρ c main_arg16 (by decide) (by decide) (by decide) (by decide) (by decide) (by decide) (by decide)
theorem W7_main_arg17 (c : Dev nD) : W7 m ρ c (Proc.devRef .tc main_arg17) = m ((c : Thread nD τ).loc main_arg17) :=
  W7_of_untouched m ρ c main_arg17 (by decide) (by decide) (by decide) (by decide) (by decide) (by decide) (by decide)
theorem W7_main_arg18 (c : Dev nD) : W7 m ρ c (Proc.devRef .tc main_arg18) = m ((c : Thread nD τ).loc main_arg18) :=
  W7_of_untouched m ρ c main_arg18 (by decide) (by decide) (by decide) (by decide) (by decide) (by decide) (by decide)
theorem W7_main_arg19 (c : Dev nD) : W7 m ρ c (Proc.devRef .tc main_arg19) = m ((c : Thread nD τ).loc main_arg19) :=
  W7_of_untouched m ρ c main_arg19 (by decide) (by decide) (by decide) (by decide) (by decide) (by decide) (by decide)

/-- THE FRAME: every weakly fair execution of the program terminates, and every final state has each of the twenty
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c),
     (h c _ (mem_uc main_arg13 (by decide))).trans (W7_main_arg13 m ρ c),
     (h c _ (mem_uc main_arg14 (by decide))).trans (W7_main_arg14 m ρ c),
     (h c _ (mem_uc main_arg15 (by decide))).trans (W7_main_arg15 m ρ c),
     (h c _ (mem_uc main_arg16 (by decide))).trans (W7_main_arg16 m ρ c),
     (h c _ (mem_uc main_arg17 (by decide))).trans (W7_main_arg17 m ρ c),
     (h c _ (mem_uc main_arg18 (by decide))).trans (W7_main_arg18 m ρ c),
     (h c _ (mem_uc main_arg19 (by decide))).trans (W7_main_arg19 m ρ c)⟩) (run_all m ρ)

end Cert.KernelIdeal.Hand

end
-- ==== Proof.RefRun.lean ====
/-
  The reference program's run, read back.

  The reference is a two-layer graph network over 100000 nodes with 64 features, written as a straight line of
  host tensor operations. Its value is the composition of five functions, each the operations' own composed term:

  * refFused : two towers, each relu(x · W1ᵀ + b1) · W2ᵀ + b2 followed by the shared projection · Wfᵀ + bf, are
    added and halved; this gives the 10000 new rows.
  * refEgo : those rows are written over rows 50000 … 59999 of the node table.
  * refHop : one round of message passing. The source index of each of the 1600000 edges is wrapped into
    0 … 99999 (a negative index has 100000 added), the source rows are gathered, each is scaled by its edge's
    weight, and the scaled rows are summed into the row of the edge's destination, starting from zero.
  * refLayer : the node table and the aggregated neighbours are put side by side (128 columns), multiplied by
    Wcᵀ, the bias is added, and the leaky rectifier x ↦ (x ≥ 0 ? x : 0.01 · x) is applied, the slope being the
    printed single-precision word.
  * refOut : ego = refEgo, c1 = refLayer ego (refHop ego), c2 = refLayer c1 (refHop c1), and the result is the
    three tables side by side (192 columns).

  The five functions, the program's operations in order (the outlined functions' operations written at their call
  sites over the calls' own buffers), and the list's seven consecutive stretches, one per function above (the hop
  and the layer occur twice), are the definitions of the module imported first, which also lists the buffers each stretch writes and states,
  operation by operation, that every operation touches TensorCore buffers only and writes only into its stretch's list;
  what else is proved about them is here. For each stretch one lemma reads the stretch's result buffer as the
  function of the buffers the stretch reads, and one says that a buffer the stretch does not write keeps its
  contents. Chaining the seven gives the result buffer as refOut of the twenty arguments, and the arguments
  themselves, written by no operation, keep their launch contents.
-/
import proofs.«128426_j13245679141184_1_alg».proof.Proof.RefOps
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The program is its list of operations -/

/-- The list is its seven stretches in order. -/
theorem ops_split : (ops : List (HloOp τ sig (Elt F))) = ops0 ++ (ops1 ++ (ops2 ++ (ops3 ++ (ops4 ++ (ops5 ++ ops6))))) := rfl

set_option maxRecDepth 16384 in
set_option maxHeartbeats 4000000 in
/-- The reference is that straight line: its two halves, and the outlined functions at their calls, unfolded,
    both sides are one chain of steps once sequencing is reassociated. -/
theorem main_eq (c : Dev nD) : main (F := F) c = seq ops := by
  simp only [main, main_part0, main_part1, fn_relu.body, fn_relu_0.body, fn_leaky_relu.body, fn_where.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-! ## Reading the stretches -/

/-- The contents after two lists run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- A buffer stretch 0 does not write keeps its contents through it. -/
theorem keep0 (V : Valuation τ sig (Elt F)) {r : Ref sig .tc} (h : r ∉ ops0_W) :
    after ops0 V (Proc.devRef .tc r) = V (Proc.devRef .tc r) :=
  after_of_writes_sub ops0 V ops0_writes h
theorem keep0' (V : Valuation τ sig (Elt F)) {r : Ref sig .tc} (h : r ∉ ops0_W) :
    after ops0 V (no_index (Proc.devRef .tc r)) = V (Proc.devRef .tc r) := keep0 V h

set_option maxRecDepth 8192 in
set_option maxHeartbeats 1000000 in
/-- Stretch 0's result, as the function of the buffers the stretch reads. -/
theorem out0 (V : Valuation τ sig (Elt F)) :
    after ops0 V (no_index (Proc.devRef .tc main_v34))
      = refFused (V (Proc.devRef .tc main_arg4)) (V (Proc.devRef .tc main_arg5)) (V (Proc.devRef .tc main_arg6)) (V (Proc.devRef .tc main_arg7))
          (V (Proc.devRef .tc main_arg8)) (V (Proc.devRef .tc main_arg9)) (V (Proc.devRef .tc main_arg10)) (V (Proc.devRef .tc main_arg11))
          (V (Proc.devRef .tc main_arg12)) (V (Proc.devRef .tc main_arg13)) (V (Proc.devRef .tc main_arg14)) (V (Proc.devRef .tc main_arg15)) := by
  unfold ops0
  after_results_simp <;> rfl

/-- A buffer stretch 1 does not write keeps its contents through it. -/
theorem keep1 (V : Valuation τ sig (Elt F)) {r : Ref sig .tc} (h : r ∉ ops1_W) :
    after ops1 V (Proc.devRef .tc r) = V (Proc.devRef .tc r) :=
  after_of_writes_sub ops1 V ops1_writes h
theorem keep1' (V : Valuation τ sig (Elt F)) {r : Ref sig .tc} (h : r ∉ ops1_W) :
    after ops1 V (no_index (Proc.devRef .tc r)) = V (Proc.devRef .tc r) := keep1 V h

set_option maxRecDepth 8192 in
set_option maxHeartbeats 1000000 in
/-- Stretch 1's result, as the function of the buffers the stretch reads. -/
theorem out1 (V : Valuation τ sig (Elt F)) :
    after ops1 V (no_index (Proc.devRef .tc main_v36))
      = refEgo (V (Proc.devRef .tc main_arg3)) (V (Proc.devRef .tc main_v34)) := by
  unfold ops1
  after_results_simp <;> rfl

/-- A buffer stretch 2 does not write keeps its contents through it. -/
theorem keep2 (V : Valuation τ sig (Elt F)) {r : Ref sig .tc} (h : r ∉ ops2_W) :
    after ops2 V (Proc.devRef .tc r) = V (Proc.devRef .tc r) :=
  after_of_writes_sub ops2 V ops2_writes h
theorem keep2' (V : Valuation τ sig (Elt F)) {r : Ref sig .tc} (h : r ∉ ops2_W) :
    after ops2 V (no_index (Proc.devRef .tc r)) = V (Proc.devRef .tc r) := keep2 V h

set_option maxRecDepth 8192 in
set_option maxHeartbeats 1000000 in
/-- Stretch 2's result, as the function of the buffers the stretch reads. -/
theorem out2 (V : Valuation τ sig (Elt F)) :
    after ops2 V (no_index (Proc.devRef .tc main_v49))
      = refHop (V (Proc.devRef .tc main_arg0)) (V (Proc.devRef .tc main_arg1)) (V (Proc.devRef .tc main_arg2)) (V (Proc.devRef .tc main_v36)) := by
  unfold ops2
  after_results_simp <;> rfl

/-- A buffer stretch 3 does not write keeps its contents through it. -/
theorem keep3 (V : Valuation τ sig (Elt F)) {r : Ref sig .tc} (h : r ∉ ops3_W) :
    after ops3 V (Proc.devRef .tc r) = V (Proc.devRef .tc r) :=
  after_of_writes_sub ops3 V ops3_writes h
theorem keep3' (V : Valuation τ sig (Elt F)) {r : Ref sig .tc} (h : r ∉ ops3_W) :
    after ops3 V (no_index (Proc.devRef .tc r)) = V (Proc.devRef .tc r) := keep3 V h

set_option maxRecDepth 8192 in
set_option maxHeartbeats 1000000 in
/-- Stretch 3's result, as the function of the buffers the stretch reads. -/
theorem out3 (V : Valuation τ sig (Elt F)) :
    after ops3 V (no_index (Proc.devRef .tc main_v56))
      = refLayer (V (Proc.devRef .tc main_v36)) (V (Proc.devRef .tc main_v49)) (V (Proc.devRef .tc main_arg16)) (V (Proc.devRef .tc main_arg17)) := by
  unfold ops3
  after_results_simp <;> rfl

/-- A buffer stretch 4 does not write keeps its contents through it. -/
theorem keep4 (V : Valuation τ sig (Elt F)) {r : Ref sig .tc} (h : r ∉ ops4_W) :
    after ops4 V (Proc.devRef .tc r) = V (Proc.devRef .tc r) :=
  after_of_writes_sub ops4 V ops4_writes h
theorem keep4' (V : Valuation τ sig (Elt F)) {r : Ref sig .tc} (h : r ∉ ops4_W) :
    after ops4 V (no_index (Proc.devRef .tc r)) = V (Proc.devRef .tc r) := keep4 V h

set_option maxRecDepth 8192 in
set_option maxHeartbeats 1000000 in
/-- Stretch 4's result, as the function of the buffers the stretch reads. -/
theorem out4 (V : Valuation τ sig (Elt F)) :
    after ops4 V (no_index (Proc.devRef .tc main_v69))
      = refHop (V (Proc.devRef .tc main_arg0)) (V (Proc.devRef .tc main_arg1)) (V (Proc.devRef .tc main_arg2)) (V (Proc.devRef .tc main_v56)) := by
  unfold ops4
  after_results_simp <;> rfl

/-- A buffer stretch 5 does not write keeps its contents through it. -/
theorem keep5 (V : Valuation τ sig (Elt F)) {r : Ref sig .tc} (h : r ∉ ops5_W) :
    after ops5 V (Proc.devRef .tc r) = V (Proc.devRef .tc r) :=
  after_of_writes_sub ops5 V ops5_writes h
theorem keep5' (V : Valuation τ sig (Elt F)) {r : Ref sig .tc} (h : r ∉ ops5_W) :
    after ops5 V (no_index (Proc.devRef .tc r)) = V (Proc.devRef .tc r) := keep5 V h

set_option maxRecDepth 8192 in
set_option maxHeartbeats 1000000 in
/-- Stretch 5's result, as the function of the buffers the stretch reads. -/
theorem out5 (V : Valuation τ sig (Elt F)) :
    after ops5 V (no_index (Proc.devRef .tc main_v76))
      = refLayer (V (Proc.devRef .tc main_v56)) (V (Proc.devRef .tc main_v69)) (V (Proc.devRef .tc main_arg18)) (V (Proc.devRef .tc main_arg19)) := by
  unfold ops5
  after_results_simp <;> rfl

/-- A buffer stretch 6 does not write keeps its contents through it. -/
theorem keep6 (V : Valuation τ sig (Elt F)) {r : Ref sig .tc} (h : r ∉ ops6_W) :
    after ops6 V (Proc.devRef .tc r) = V (Proc.devRef .tc r) :=
  after_of_writes_sub ops6 V ops6_writes h
theorem keep6' (V : Valuation τ sig (Elt F)) {r : Ref sig .tc} (h : r ∉ ops6_W) :
    after ops6 V (no_index (Proc.devRef .tc r)) = V (Proc.devRef .tc r) := keep6 V h

set_option maxRecDepth 8192 in
set_option maxHeartbeats 1000000 in
/-- Stretch 6's result, as the function of the buffers the stretch reads. -/
theorem out6 (V : Valuation τ sig (Elt F)) :
    after ops6 V (no_index (Proc.devRef .tc main_v77))
      = concatenate S100000x192 1 [⟨S100000x64, V (Proc.devRef .tc main_v36)⟩,
          ⟨S100000x64, V (Proc.devRef .tc main_v56)⟩,
          ⟨S100000x64, V (Proc.devRef .tc main_v76)⟩]
          concatenates_S100000x64_S100000x64_S100000x64_S100000x192_d1 := by
  unfold ops6
  after_results_simp <;> rfl

/-! ## The whole line -/

set_option maxRecDepth 8192 in
set_option maxHeartbeats 1000000 in
/-- The result buffer after the whole line: the seven stretches chained, each read by its lemma, the buffers a
    later stretch reads carried through the stretches between by the keeping lemmas. -/
theorem out_eq (V : Valuation τ sig (Elt F)) :
    after ops V (Proc.devRef .tc main_v77)
      = refOut (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7))
          (V (Proc.devRef .tc main_arg8)) (V (Proc.devRef .tc main_arg9)) (V (Proc.devRef .tc main_arg10)) (V (Proc.devRef .tc main_arg11))
          (V (Proc.devRef .tc main_arg12)) (V (Proc.devRef .tc main_arg13)) (V (Proc.devRef .tc main_arg14)) (V (Proc.devRef .tc main_arg15))
          (V (Proc.devRef .tc main_arg16)) (V (Proc.devRef .tc main_arg17)) (V (Proc.devRef .tc main_arg18)) (V (Proc.devRef .tc main_arg19)) := by
  rw [ops_split]
  simp only [after_app]
  rw [out6]
  rw [out5,
    keep5 (r := main_v36) _ (by decide),
    keep5 (r := main_v56) _ (by decide)]
  rw [out4,
    keep4 (r := main_v36) _ (by decide),
    keep4 (r := main_v56) _ (by decide),
    keep4 (r := main_arg18) _ (by decide),
    keep4 (r := main_arg19) _ (by decide)]
  rw [out3,
    keep3 (r := main_v36) _ (by decide),
    keep3 (r := main_arg0) _ (by decide),
    keep3 (r := main_arg1) _ (by decide),
    keep3 (r := main_arg2) _ (by decide),
    keep3 (r := main_arg18) _ (by decide),
    keep3 (r := main_arg19) _ (by decide)]
  rw [out2,
    keep2 (r := main_v36) _ (by decide),
    keep2 (r := main_arg16) _ (by decide),
    keep2 (r := main_arg17) _ (by decide),
    keep2 (r := main_arg0) _ (by decide),
    keep2 (r := main_arg1) _ (by decide),
    keep2 (r := main_arg2) _ (by decide),
    keep2 (r := main_arg18) _ (by decide),
    keep2 (r := main_arg19) _ (by decide)]
  rw [out1,
    keep1 (r := main_arg0) _ (by decide),
    keep1 (r := main_arg1) _ (by decide),
    keep1 (r := main_arg2) _ (by decide),
    keep1 (r := main_arg16) _ (by decide),
    keep1 (r := main_arg17) _ (by decide),
    keep1 (r := main_arg18) _ (by decide),
    keep1 (r := main_arg19) _ (by decide)]
  rw [out0,
    keep0 (r := main_arg3) _ (by decide),
    keep0 (r := main_arg0) _ (by decide),
    keep0 (r := main_arg1) _ (by decide),
    keep0 (r := main_arg2) _ (by decide),
    keep0 (r := main_arg16) _ (by decide),
    keep0 (r := main_arg17) _ (by decide),
    keep0 (r := main_arg18) _ (by decide),
    keep0 (r := main_arg19) _ (by decide)]
  rfl

/-- A buffer no stretch writes keeps its contents through the whole line. -/
theorem arg_keep (V : Valuation τ sig (Elt F)) {r : Ref sig .tc} (h0 : r ∉ ops0_W) (h1 : r ∉ ops1_W) (h2 : r ∉ ops2_W)
    (h3 : r ∉ ops3_W) (h4 : r ∉ ops4_W) (h5 : r ∉ ops5_W) (h6 : r ∉ ops6_W) :
    after ops V (Proc.devRef .tc r) = V (Proc.devRef .tc r) := by
  rw [ops_split]
  simp only [after_app]
  rw [keep6 _ h6, keep5 _ h5, keep4 _ h4, keep3 _ h3, keep2 _ h2, keep1 _ h1, keep0 _ h0]

set_option maxRecDepth 16384 in
set_option maxHeartbeats 4000000 in
/-- On every device, for any float values, from any memory with zero counters: every weakly fair execution of the
    reference terminates with its result at refOut of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77)
        = refOut (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
            (m ((c.tc : Thread nD τ).loc main_arg17))
            (m ((c.tc : Thread nD τ).loc main_arg18))
            (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v77).trans (out_eq _),
      (h c main_arg0).trans (arg_keep _ (by decide) (by decide) (by decide) (by decide) (by decide) (by decide) (by decide)),
      (h c main_arg1).trans (arg_keep _ (by decide) (by decide) (by decide) (by decide) (by decide) (by decide) (by decide)),
      (h c main_arg2).trans (arg_keep _ (by decide) (by decide) (by decide) (by decide) (by decide) (by decide) (by decide)),
      (h c main_arg3).trans (arg_keep _ (by decide) (by decide) (by decide) (by decide) (by decide) (by decide) (by decide)),
      (h c main_arg4).trans (arg_keep _ (by decide) (by decide) (by decide) (by decide) (by decide) (by decide) (by decide)),
      (h c main_arg5).trans (arg_keep _ (by decide) (by decide) (by decide) (by decide) (by decide) (by decide) (by decide)),
      (h c main_arg6).trans (arg_keep _ (by decide) (by decide) (by decide) (by decide) (by decide) (by decide) (by decide)),
      (h c main_arg7).trans (arg_keep _ (by decide) (by decide) (by decide) (by decide) (by decide) (by decide) (by decide)),
      (h c main_arg8).trans (arg_keep _ (by decide) (by decide) (by decide) (by decide) (by decide) (by decide) (by decide)),
      (h c main_arg9).trans (arg_keep _ (by decide) (by decide) (by decide) (by decide) (by decide) (by decide) (by decide)),
      (h c main_arg10).trans (arg_keep _ (by decide) (by decide) (by decide) (by decide) (by decide) (by decide) (by decide)),
      (h c main_arg11).trans (arg_keep _ (by decide) (by decide) (by decide) (by decide) (by decide) (by decide) (by decide)),
      (h c main_arg12).trans (arg_keep _ (by decide) (by decide) (by decide) (by decide) (by decide) (by decide) (by decide)),
      (h c main_arg13).trans (arg_keep _ (by decide) (by decide) (by decide) (by decide) (by decide) (by decide) (by decide)),
      (h c main_arg14).trans (arg_keep _ (by decide) (by decide) (by decide) (by decide) (by decide) (by decide) (by decide)),
      (h c main_arg15).trans (arg_keep _ (by decide) (by decide) (by decide) (by decide) (by decide) (by decide) (by decide)),
      (h c main_arg16).trans (arg_keep _ (by decide) (by decide) (by decide) (by decide) (by decide) (by decide) (by decide)),
      (h c main_arg17).trans (arg_keep _ (by decide) (by decide) (by decide) (by decide) (by decide) (by decide) (by decide)),
      (h c main_arg18).trans (arg_keep _ (by decide) (by decide) (by decide) (by decide) (by decide) (by decide) (by decide)),
      (h c main_arg19).trans (arg_keep _ (by decide) (by decide) (by decide) (by decide) (by decide) (by decide) (by decide))⟩)
    (run_seq scopedRefs_eq scopedSems_eq defs main (fun _ => ops) main_eq (fun _ => ops_sub) m ρ)

end Cert.ReferenceIdeal.Hand

end
-- ==== Proof.KernelIdeal.Chain.lean ====
/-
  What the four host stretches leave in the buffers the kernel regions read and the program returns.

  Each stretch is a straight line of array operations, so the contents of a buffer after it are the operations'
  functions composed, applied to what the stretch found in the buffers it reads. Five compositions recur and are
  named here as functions of their inputs:

    kEgo a3 fused       the scatter of fused into a3: one update window, the whole of fused, at the start index
                        (50000, 0), a covered entry replaced by the update's;
    kHop a0 a1 a2 x     an all-zero 100000×64 array into which, for each of the 1600000 positions e, a row is added at
                        the row index a0 e: the row of x gathered at the index a1 e (with 100000 added to it when it is
                        negative), every entry multiplied by a2 e;
    kWa W, kWb W        the transposes of the slices of the 64×128 array W at the column offsets 0 and 64, each 64×64;
    kRow b              the vector b of length 64 recast to the shape 1×64.

  The stage lemmas read these off the boundary contents W1, W3, W5, W7 of the run, with every argument array at its
  launch contents.
-/
import proofs.«128426_j13245679141184_1_alg».proof.Proof.KernelIdeal.Run
import Idealize.ShloMosaic.Lib.StableHlo.Run

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F]

/-! ## The recurring compositions -/

/-- The scatter of fused into a3 at the constant start index 50000 along the rows: the update window is the whole of
    fused, and an entry it covers takes the update's value. -/
def kEgo (a3 : (⟨S100000x64, .f32⟩ : BufTy).Contents (Elt F)) (fused : (⟨S10000x64, .f32⟩ : BufTy).Contents (Elt F)) :
    (⟨S100000x64, .f32⟩ : BufTy).Contents (Elt F) :=
  Host.scatter scatter_S100000x64_S1_S10000x64_01_n_0_0 (fun _ b => b) a3
    (broadcastInDim S1 ![] bcast_S_S1 (constantI S_ 32 50000#32)) fused

/-- The index a1 with 100000 added where it is negative; the rows of x gathered at that index; each gathered row
    multiplied entrywise by its position's entry of a2; and the products scatter-added into an all-zero array at the row
    indices a0. -/
def kHop (a0 a1 : (⟨S1600000, .i32⟩ : BufTy).Contents (Elt F)) (a2 : (⟨S1600000, .f32⟩ : BufTy).Contents (Elt F))
    (x : (⟨S100000x64, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant (F := F) S_ .f32 0x00000000#32))
    (broadcastInDim S1600000x1 ![0] bcast_S1600000_S1600000x1_0 a0)
    (mulf (broadcastInDim S1600000x64 ![0, 1] bcast_S1600000x1_S1600000x64_0_1
        (broadcastInDim S1600000x1 ![0] bcast_S1600000_S1600000x1_0 a2))
      (Host.gather gather_S100000x64_S1600000x1_S1600000x64_1_0_n_n_0_1_164 x
        (broadcastInDim S1600000x1 ![0] bcast_S1600000_S1600000x1_0
          (select (cmpi .slt a1 (broadcastInDim S1600000 ![] bcast_S_S1600000 (constantI S_ 32 0#32)))
            (addi a1 (broadcastInDim S1600000 ![] bcast_S_S1600000 (constantI S_ 32 100000#32))) a1))))

/-- The transpose of the 64×64 slice of a 64×128 array at the offset (0, 0). -/
def kWa (Wc : (⟨S64x128, .f32⟩ : BufTy).Contents (Elt F)) : (⟨S64x64, .f32⟩ : BufTy).Contents (Elt F) :=
  transpose S64x64 [1, 0] (extractStridedSlice S64x64 ![0, 0] Wc slices_S64x128_S64x64_0_0) transposes_S64x64_S64x64_1_0

/-- The transpose of the 64×64 slice of a 64×128 array at the offset (0, 64). -/
def kWb (Wc : (⟨S64x128, .f32⟩ : BufTy).Contents (Elt F)) : (⟨S64x64, .f32⟩ : BufTy).Contents (Elt F) :=
  transpose S64x64 [1, 0] (extractStridedSlice S64x64 ![0, 64] Wc slices_S64x128_S64x64_0_64) transposes_S64x64_S64x64_1_0

/-- A vector of length 64 recast to the shape 1×64 (the same entries in row-major order). -/
def kRow (b : (⟨S64, .f32⟩ : BufTy).Contents (Elt F)) : (⟨S1x64, .f32⟩ : BufTy).Contents (Elt F) :=
  fun i => shapeCast S1x64 b shapeCasts_S64_S1x64 i

/-! ## Each stretch from any contents V

The contents a stretch leaves in one of its result buffers, as the operations' functions applied to the contents V it
starts from, read at the buffers the stretch itself does not write. -/

section Generic
variable (V : Valuation τ sig (Elt F))

set_option maxHeartbeats 400000 in
theorem host0_v0 : StableHlo.after hostOps0 V (Proc.devRef .tc main_v0) = transpose S2048x512 [1, 0] (V (Proc.devRef .tc main_arg6)) transposes_S512x2048_S2048x512_1_0 := by
  dsimp only [hostOps0]; after_results <;> rfl
set_option maxHeartbeats 400000 in
theorem host0_v1 : StableHlo.after hostOps0 V (Proc.devRef .tc main_v1) = transpose S512x64 [1, 0] (V (Proc.devRef .tc main_arg8)) transposes_S64x512_S512x64_1_0 := by
  dsimp only [hostOps0]; after_results <;> rfl
set_option maxHeartbeats 400000 in
theorem host0_v2 : StableHlo.after hostOps0 V (Proc.devRef .tc main_v2) = transpose S300x256 [1, 0] (V (Proc.devRef .tc main_arg10)) transposes_S256x300_S300x256_1_0 := by
  dsimp only [hostOps0]; after_results <;> rfl
set_option maxHeartbeats 400000 in
theorem host0_v3 : StableHlo.after hostOps0 V (Proc.devRef .tc main_v3) = transpose S256x64 [1, 0] (V (Proc.devRef .tc main_arg12)) transposes_S64x256_S256x64_1_0 := by
  dsimp only [hostOps0]; after_results <;> rfl
set_option maxHeartbeats 400000 in
theorem host0_v4 : StableHlo.after hostOps0 V (Proc.devRef .tc main_v4) = transpose S64x64 [1, 0] (V (Proc.devRef .tc main_arg14)) transposes_S64x64_S64x64_1_0 := by
  dsimp only [hostOps0]; after_results <;> rfl
set_option maxHeartbeats 400000 in
theorem host0_v5 : StableHlo.after hostOps0 V (Proc.devRef .tc main_v5) = fun i => shapeCast S1x512 (V (Proc.devRef .tc main_arg7)) shapeCasts_S512_S1x512 i := by
  dsimp only [hostOps0]; after_results <;> rfl
set_option maxHeartbeats 400000 in
theorem host0_v6 : StableHlo.after hostOps0 V (Proc.devRef .tc main_v6) = kRow (V (Proc.devRef .tc main_arg9)) := by
  dsimp only [hostOps0]; after_results <;> rfl
set_option maxHeartbeats 400000 in
theorem host0_v7 : StableHlo.after hostOps0 V (Proc.devRef .tc main_v7) = fun i => shapeCast S1x256 (V (Proc.devRef .tc main_arg11)) shapeCasts_S256_S1x256 i := by
  dsimp only [hostOps0]; after_results <;> rfl
set_option maxHeartbeats 400000 in
theorem host0_v8 : StableHlo.after hostOps0 V (Proc.devRef .tc main_v8) = kRow (V (Proc.devRef .tc main_arg13)) := by
  dsimp only [hostOps0]; after_results <;> rfl
set_option maxHeartbeats 400000 in
theorem host0_v9 : StableHlo.after hostOps0 V (Proc.devRef .tc main_v9) = kRow (V (Proc.devRef .tc main_arg15)) := by
  dsimp only [hostOps0]; after_results <;> rfl

set_option maxHeartbeats 1000000 in
theorem host1_v12 : StableHlo.after hostOps1 V (Proc.devRef .tc main_v12)
    = kEgo (V (Proc.devRef .tc main_arg3)) (V (Proc.devRef .tc main_v10)) := by
  dsimp only [hostOps1]; after_results_simp <;> rfl
set_option maxHeartbeats 1000000 in
theorem host1_v25 : StableHlo.after hostOps1 V (Proc.devRef .tc main_v25)
    = kHop (V (Proc.devRef .tc main_arg0)) (V (Proc.devRef .tc main_arg1)) (V (Proc.devRef .tc main_arg2))
        (StableHlo.after hostOps1 V (Proc.devRef .tc main_v12)) := by
  dsimp only [hostOps1]; after_results_simp <;> rfl
set_option maxHeartbeats 1000000 in
theorem host1_v27 : StableHlo.after hostOps1 V (Proc.devRef .tc main_v27) = kWa (V (Proc.devRef .tc main_arg16)) := by
  dsimp only [hostOps1]; after_results_simp <;> rfl
set_option maxHeartbeats 1000000 in
theorem host1_v29 : StableHlo.after hostOps1 V (Proc.devRef .tc main_v29) = kWb (V (Proc.devRef .tc main_arg16)) := by
  dsimp only [hostOps1]; after_results_simp <;> rfl
set_option maxHeartbeats 1000000 in
theorem host1_v30 : StableHlo.after hostOps1 V (Proc.devRef .tc main_v30) = kRow (V (Proc.devRef .tc main_arg17)) := by
  dsimp only [hostOps1]; after_results_simp <;> rfl

set_option maxHeartbeats 1000000 in
theorem host2_v44 : StableHlo.after hostOps2 V (Proc.devRef .tc main_v44)
    = kHop (V (Proc.devRef .tc main_arg0)) (V (Proc.devRef .tc main_arg1)) (V (Proc.devRef .tc main_arg2))
        (V (Proc.devRef .tc main_v31)) := by
  dsimp only [hostOps2]; after_results_simp <;> rfl
set_option maxHeartbeats 1000000 in
theorem host2_v46 : StableHlo.after hostOps2 V (Proc.devRef .tc main_v46) = kWa (V (Proc.devRef .tc main_arg18)) := by
  dsimp only [hostOps2]; after_results_simp <;> rfl
set_option maxHeartbeats 1000000 in
theorem host2_v48 : StableHlo.after hostOps2 V (Proc.devRef .tc main_v48) = kWb (V (Proc.devRef .tc main_arg18)) := by
  dsimp only [hostOps2]; after_results_simp <;> rfl
set_option maxHeartbeats 1000000 in
theorem host2_v49 : StableHlo.after hostOps2 V (Proc.devRef .tc main_v49) = kRow (V (Proc.devRef .tc main_arg19)) := by
  dsimp only [hostOps2]; after_results_simp <;> rfl

set_option maxHeartbeats 400000 in
theorem host3_v51 : StableHlo.after hostOps3 V (Proc.devRef .tc main_v51)
    = concatenate S100000x192 1 [⟨S100000x64, V (Proc.devRef .tc main_v12)⟩, ⟨S100000x64, V (Proc.devRef .tc main_v31)⟩,
        ⟨S100000x64, V (Proc.devRef .tc main_v50)⟩] concatenates_S100000x64_S100000x64_S100000x64_S100000x192_d1 := by
  dsimp only [hostOps3]; after_results <;> rfl

end Generic

/-! ## The stretches of the run -/

variable (m : (ℓ : Loc nD τ sig) → Buf (Elt F) ℓ) (ρ : Dev nD → PrngReg)

/-- A buffer the first host stretch does not write and region 0 does not have among its arrays holds at region 0's exit
    what it held at the launch; and so on through the second stretch and region 1. -/
theorem W2_of_untouched (c : Dev nD) (r : Ref sig .tc) (h0 : r ∉ wr0) (a0 : ∀ w, Pipeline.arrRef spec0 w ≠ r) :
    W2 m ρ c (Proc.devRef .tc r) = m ((c : Thread nD τ).loc r) :=
  (W2_of_ne m ρ c r a0).trans ((W1_of m ρ c r h0).trans rfl)
theorem W4_of_untouched (c : Dev nD) (r : Ref sig .tc) (h0 : r ∉ wr0) (h1 : r ∉ wr1)
    (a0 : ∀ w, Pipeline.arrRef spec0 w ≠ r) (a1 : ∀ w, Pipeline.arrRef spec1 w ≠ r) :
    W4 m ρ c (Proc.devRef .tc r) = m ((c : Thread nD τ).loc r) :=
  (W4_of_ne m ρ c r a1).trans ((W3_of m ρ c r h1).trans (W2_of_untouched m ρ c r h0 a0))

theorem kHop_congr {a0 a0' a1 a1' : (⟨S1600000, .i32⟩ : BufTy).Contents (Elt F)} {a2 a2' : (⟨S1600000, .f32⟩ : BufTy).Contents (Elt F)}
    (x : (⟨S100000x64, .f32⟩ : BufTy).Contents (Elt F)) (h0 : a0 = a0') (h1 : a1 = a1') (h2 : a2 = a2') :
    kHop a0 a1 a2 x = kHop a0' a1' a2' x := by subst h0 h1 h2; rfl

/-! ### The first stretch: what region 0 is entered at -/

theorem W1_v0 (c : Dev nD) : W1 m ρ c (Proc.devRef .tc main_v0) = transpose S2048x512 [1, 0] (m ((c : Thread nD τ).loc main_arg6)) transposes_S512x2048_S2048x512_1_0 :=
  host0_v0 (W0 m ρ c)
theorem W1_v1 (c : Dev nD) : W1 m ρ c (Proc.devRef .tc main_v1) = transpose S512x64 [1, 0] (m ((c : Thread nD τ).loc main_arg8)) transposes_S64x512_S512x64_1_0 :=
  host0_v1 (W0 m ρ c)
theorem W1_v2 (c : Dev nD) : W1 m ρ c (Proc.devRef .tc main_v2) = transpose S300x256 [1, 0] (m ((c : Thread nD τ).loc main_arg10)) transposes_S256x300_S300x256_1_0 :=
  host0_v2 (W0 m ρ c)
theorem W1_v3 (c : Dev nD) : W1 m ρ c (Proc.devRef .tc main_v3) = transpose S256x64 [1, 0] (m ((c : Thread nD τ).loc main_arg12)) transposes_S64x256_S256x64_1_0 :=
  host0_v3 (W0 m ρ c)
theorem W1_v4 (c : Dev nD) : W1 m ρ c (Proc.devRef .tc main_v4) = transpose S64x64 [1, 0] (m ((c : Thread nD τ).loc main_arg14)) transposes_S64x64_S64x64_1_0 :=
  host0_v4 (W0 m ρ c)
theorem W1_v5 (c : Dev nD) : W1 m ρ c (Proc.devRef .tc main_v5) = fun i => shapeCast S1x512 (m ((c : Thread nD τ).loc main_arg7)) shapeCasts_S512_S1x512 i :=
  host0_v5 (W0 m ρ c)
theorem W1_v6 (c : Dev nD) : W1 m ρ c (Proc.devRef .tc main_v6) = kRow (m ((c : Thread nD τ).loc main_arg9)) :=
  host0_v6 (W0 m ρ c)
theorem W1_v7 (c : Dev nD) : W1 m ρ c (Proc.devRef .tc main_v7) = fun i => shapeCast S1x256 (m ((c : Thread nD τ).loc main_arg11)) shapeCasts_S256_S1x256 i :=
  host0_v7 (W0 m ρ c)
theorem W1_v8 (c : Dev nD) : W1 m ρ c (Proc.devRef .tc main_v8) = kRow (m ((c : Thread nD τ).loc main_arg13)) :=
  host0_v8 (W0 m ρ c)
theorem W1_v9 (c : Dev nD) : W1 m ρ c (Proc.devRef .tc main_v9) = kRow (m ((c : Thread nD τ).loc main_arg15)) :=
  host0_v9 (W0 m ρ c)

theorem W1_arg4 (c : Dev nD) : W1 m ρ c (Proc.devRef .tc main_arg4) = m ((c : Thread nD τ).loc main_arg4) :=
  (W1_of m ρ c main_arg4 (by decide)).trans rfl
theorem W1_arg5 (c : Dev nD) : W1 m ρ c (Proc.devRef .tc main_arg5) = m ((c : Thread nD τ).loc main_arg5) :=
  (W1_of m ρ c main_arg5 (by decide)).trans rfl

/-! ### The second stretch: what region 1 is entered at -/

theorem W3_v12 (c : Dev nD) : W3 m ρ c (Proc.devRef .tc main_v12)
    = kEgo (m ((c : Thread nD τ).loc main_arg3)) (W2 m ρ c (Proc.devRef .tc main_v10)) :=
  (host1_v12 (W2 m ρ c)).trans
    (congrArg (fun a => kEgo a (W2 m ρ c (Proc.devRef .tc main_v10))) (W2_of_untouched m ρ c main_arg3 (by decide) (by decide)))
theorem W3_v25 (c : Dev nD) : W3 m ρ c (Proc.devRef .tc main_v25)
    = kHop (m ((c : Thread nD τ).loc main_arg0)) (m ((c : Thread nD τ).loc main_arg1)) (m ((c : Thread nD τ).loc main_arg2))
        (W3 m ρ c (Proc.devRef .tc main_v12)) :=
  (host1_v25 (W2 m ρ c)).trans (kHop_congr _ (W2_of_untouched m ρ c main_arg0 (by decide) (by decide))
    (W2_of_untouched m ρ c main_arg1 (by decide) (by decide)) (W2_of_untouched m ρ c main_arg2 (by decide) (by decide)))
theorem W3_v27 (c : Dev nD) : W3 m ρ c (Proc.devRef .tc main_v27) = kWa (m ((c : Thread nD τ).loc main_arg16)) :=
  (host1_v27 (W2 m ρ c)).trans (congrArg kWa (W2_of_untouched m ρ c main_arg16 (by decide) (by decide)))
theorem W3_v29 (c : Dev nD) : W3 m ρ c (Proc.devRef .tc main_v29) = kWb (m ((c : Thread nD τ).loc main_arg16)) :=
  (host1_v29 (W2 m ρ c)).trans (congrArg kWb (W2_of_untouched m ρ c main_arg16 (by decide) (by decide)))
theorem W3_v30 (c : Dev nD) : W3 m ρ c (Proc.devRef .tc main_v30) = kRow (m ((c : Thread nD τ).loc main_arg17)) :=
  (host1_v30 (W2 m ρ c)).trans (congrArg kRow (W2_of_untouched m ρ c main_arg17 (by decide) (by decide)))

/-! ### The third stretch: what region 2 is entered at -/

theorem W5_v31 (c : Dev nD) : W5 m ρ c (Proc.devRef .tc main_v31) = W4 m ρ c (Proc.devRef .tc main_v31) :=
  W5_of m ρ c main_v31 (by decide)
theorem W5_v44 (c : Dev nD) : W5 m ρ c (Proc.devRef .tc main_v44)
    = kHop (m ((c : Thread nD τ).loc main_arg0)) (m ((c : Thread nD τ).loc main_arg1)) (m ((c : Thread nD τ).loc main_arg2))
        (W4 m ρ c (Proc.devRef .tc main_v31)) :=
  (host2_v44 (W4 m ρ c)).trans (kHop_congr _ (W4_of_untouched m ρ c main_arg0 (by decide) (by decide) (by decide) (by decide))
    (W4_of_untouched m ρ c main_arg1 (by decide) (by decide) (by decide) (by decide))
    (W4_of_untouched m ρ c main_arg2 (by decide) (by decide) (by decide) (by decide)))
theorem W5_v46 (c : Dev nD) : W5 m ρ c (Proc.devRef .tc main_v46) = kWa (m ((c : Thread nD τ).loc main_arg18)) :=
  (host2_v46 (W4 m ρ c)).trans (congrArg kWa (W4_of_untouched m ρ c main_arg18 (by decide) (by decide) (by decide) (by decide)))
theorem W5_v48 (c : Dev nD) : W5 m ρ c (Proc.devRef .tc main_v48) = kWb (m ((c : Thread nD τ).loc main_arg18)) :=
  (host2_v48 (W4 m ρ c)).trans (congrArg kWb (W4_of_untouched m ρ c main_arg18 (by decide) (by decide) (by decide) (by decide)))
theorem W5_v49 (c : Dev nD) : W5 m ρ c (Proc.devRef .tc main_v49) = kRow (m ((c : Thread nD τ).loc main_arg19)) :=
  (host2_v49 (W4 m ρ c)).trans (congrArg kRow (W4_of_untouched m ρ c main_arg19 (by decide) (by decide) (by decide) (by decide)))

/-! ### The last stretch: the returned array

The concatenation reads the three results at region 2's exit. The first, main_v12, was left by the second stretch and has
since only been read (region 1 has it as an input array; the third stretch and region 2 do not touch it); the second,
main_v31, was left by region 1 and has since only been read (region 2 has it as an input array). -/

theorem W6_v12 (c : Dev nD) : W6 m ρ c (Proc.devRef .tc main_v12) = W3 m ρ c (Proc.devRef .tc main_v12) :=
  (W6_of_ne m ρ c main_v12 (by decide)).trans ((W5_of m ρ c main_v12 (by decide)).trans
    ((W4_arr m ρ c 0).trans (((dat1 (E3 m ρ) c).arrAt_in 0 rfl _).trans (A_eq1 (E3 m ρ) c 0))))
theorem W6_v31 (c : Dev nD) : W6 m ρ c (Proc.devRef .tc main_v31) = W4 m ρ c (Proc.devRef .tc main_v31) :=
  (W6_arr m ρ c 0).trans (((dat2 (E5 m ρ) c).arrAt_in 0 rfl _).trans ((A_eq2 (E5 m ρ) c 0).trans (W5_v31 m ρ c)))
theorem W7_v51 (c : Dev nD) : W7 m ρ c (Proc.devRef .tc main_v51)
    = concatenate S100000x192 1 [⟨S100000x64, W3 m ρ c (Proc.devRef .tc main_v12)⟩, ⟨S100000x64, W4 m ρ c (Proc.devRef .tc main_v31)⟩,
        ⟨S100000x64, W6 m ρ c (Proc.devRef .tc main_v50)⟩] concatenates_S100000x64_S100000x64_S100000x64_S100000x192_d1 :=
  (host3_v51 (W6 m ρ c)).trans (by rw [W6_v12 m ρ c, W6_v31 m ρ c])

end Cert.KernelIdeal.Hand

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.SpecEnc.lean ====
/-
  The item encoder as an explicit formula. No program is mentioned here.

  An affine map takes a row x of K features to the row  j |-> sum_k x(k) * W(k,j) + b(0,j)  of N features, W a K x N
  matrix and b a bias row. The rectifier is the maximum with the zero word, entry by entry. A tower is three affine
  maps with one rectifier after the first:
        T(x) = ((relu (x W1 + b1)) W2 + b2) Wd + bd,
  ending in 64 features. The encoder's value at item r and feature j is the sum of the visual tower of row r of the
  visual features and the text tower of row r of the text features, the two towers sharing the last map (Wd, bd),
  times the float word of one half. The word is carried, never evaluated.
-/
import Idealize.ShloMosaic.PureOps.Ideal.Laws
import Idealize.ShloMosaic.Lib.ValueIdx

open scoped BigOperators
noncomputable section
namespace Cert.Spec
open Idealize.ShloMosaic Idealize.ShloMosaic.ValueIdx

/-- The affine map x |-> x W + b on a row of K features. -/
def affine {K N : Nat} (x : Fin K → EReal) (W : (⟨2, ![K, N]⟩ : Shape).Idx → EReal) (b : (⟨2, ![1, N]⟩ : Shape).Idx → EReal) :
    Fin N → EReal :=
  fun j => ∑ k : Fin K, x k * W (ix2 k j) + b (ix2 (0 : Fin 1) j)

/-- The rectifier: the maximum with the zero word, entry by entry. -/
def relu0 {N : Nat} (x : Fin N → EReal) : Fin N → EReal :=
  fun j => max (x j) (Ideal.ofBits .f32 0x00000000#32)

/-- A tower: affine, rectifier, affine, affine, from K features through H hidden ones to 64. -/
def tower {K H : Nat} (x : Fin K → EReal) (W1 : (⟨2, ![K, H]⟩ : Shape).Idx → EReal) (b1 : (⟨2, ![1, H]⟩ : Shape).Idx → EReal)
    (W2 : (⟨2, ![H, 64]⟩ : Shape).Idx → EReal) (b2 : (⟨2, ![1, 64]⟩ : Shape).Idx → EReal)
    (Wd : (⟨2, ![64, 64]⟩ : Shape).Idx → EReal) (bd : (⟨2, ![1, 64]⟩ : Shape).Idx → EReal) : Fin 64 → EReal :=
  affine (affine (relu0 (affine x W1 b1)) W2 b2) Wd bd

/-- The encoder's value at every item and feature: the visual tower of the item's visual row plus the text tower of
    its text row, times the word of one half. -/
def encG {R : Nat} (Vi : (⟨2, ![R, 2048]⟩ : Shape).Idx → EReal) (Tx : (⟨2, ![R, 300]⟩ : Shape).Idx → EReal)
    (Wv1 : (⟨2, ![2048, 512]⟩ : Shape).Idx → EReal) (bv1 : (⟨2, ![1, 512]⟩ : Shape).Idx → EReal)
    (Wv2 : (⟨2, ![512, 64]⟩ : Shape).Idx → EReal) (bv2 : (⟨2, ![1, 64]⟩ : Shape).Idx → EReal)
    (Wt1 : (⟨2, ![300, 256]⟩ : Shape).Idx → EReal) (bt1 : (⟨2, ![1, 256]⟩ : Shape).Idx → EReal)
    (Wt2 : (⟨2, ![256, 64]⟩ : Shape).Idx → EReal) (bt2 : (⟨2, ![1, 64]⟩ : Shape).Idx → EReal)
    (Wd : (⟨2, ![64, 64]⟩ : Shape).Idx → EReal) (bd : (⟨2, ![1, 64]⟩ : Shape).Idx → EReal) :
    (⟨2, ![R, 64]⟩ : Shape).Idx → EReal :=
  fun i => (tower (fun k => Vi (ix2 (i 0) k)) Wv1 bv1 Wv2 bv2 Wd bd (i 1)
      + tower (fun k => Tx (ix2 (i 0) k)) Wt1 bt1 Wt2 bt2 Wd bd (i 1)) * Ideal.ofBits .f32 0x3F000000#32

end Cert.Spec
end
-- ==== Proof.KernelIdeal.Value0.lean ====
/-
  The item encoder of the kernel program: what the whole output array holds when the region is left.

  Point t of the grid is handed rows 1000 t ... 1000 t + 999 of the visual features Vi and of the text features Tx, and
  the whole of every (transposed) weight and of every bias row. Entry (p, j) of what it stores is

        ( T(v_p; Wv1, bv1, Wv2, bv2, Wd, bd)(j) + T(s_p; Wt1, bt1, Wt2, bt2, Wd, bd)(j) ) * (the word of one half),
        T(x; W1, b1, W2, b2, Wd, bd) = ((relu (x W1 + b1)) W2 + b2) Wd + bd,

  with v_p, s_p row p of the two feature blocks: each of the five matrix products, read at an entry, is a sum over the
  contracted axis that only meets row p of its left operand, each bias row is broadcast down the rows, and the
  rectifier, the additions and the halving act entry by entry. Row p of a feature block is row 1000 t + p of its array.
  So the block point t writes back is block t of one function of the arrays as the region finds them, the encoder
  formula of SpecEnc; the ten blocks tile the 10000 rows (row r lies in block r / 1000), hence the array ends holding
  that function everywhere.
-/
import proofs.«128426_j13245679141184_1_alg».proof.Proof.KernelIdeal.Reg0
import proofs.«128426_j13245679141184_1_alg».proof.Proof.LibMatmul
import proofs.«128426_j13245679141184_1_alg».proof.Proof.SpecEnc
import Idealize.ShloMosaic.Lib.ValueLayout
import Idealize.ShloMosaic.Lib.Pipeline.Value
import Idealize.ShloMosaic.Lib.ValueIdx
import Idealize.ShloMosaic.PureOps.Ideal.Laws

open scoped BigOperators
noncomputable section
namespace Cert.KernelIdeal.Hand
open Idealize.ShloMosaic Idealize.ShloMosaic.TcCoe Idealize.SL.Sem Idealize.ShloMosaic.ValueIdx Cert.KernelIdeal.Gen Cert.MatOps Cert.Spec
open Idealize.ShloMosaic.Pipeline (Dat)

/-! ## The five products are plain matrix products -/

set_option maxHeartbeats 400000 in
theorem dot0_v1 : dot_S1000x2048_S2048x512_S1000x512_1_0_0_1_n_n = DotDims.plain 1000 2048 512 := rfl
set_option maxHeartbeats 400000 in
theorem dot0_v2 : dot_S1000x512_S512x64_S1000x64_1_0_0_1_n_n = DotDims.plain 1000 512 64 := rfl
set_option maxHeartbeats 400000 in
theorem dot0_d : dot_S1000x64_S64x64_S1000x64_1_0_0_1_n_n = DotDims.plain 1000 64 64 := rfl
set_option maxHeartbeats 400000 in
theorem dot0_t1 : dot_S1000x300_S300x256_S1000x256_1_0_0_1_n_n = DotDims.plain 1000 300 256 := rfl
set_option maxHeartbeats 400000 in
theorem dot0_t2 : dot_S1000x256_S256x64_S1000x64_1_0_0_1_n_n = DotDims.plain 1000 256 64 := rfl

/-! ## The body's arithmetic at an entry -/

set_option maxHeartbeats 400000 in
/-- The text tower's first affine map at item p of the block and hidden feature k: the product read as a sum over
    the 300 text features, the bias row broadcast down the rows. -/
theorem pay0_4_apply (s : Vec Ideal S1000x300 .f32) (Wt1 : Vec Ideal S300x256 .f32) (bt1 : Vec Ideal S1x256 .f32)
    (p : Fin 1000) (k : Fin 256) :
    k0_pay4 (F := Ideal) s Wt1 bt1 (ix2 p k) = affine (fun i : Fin 300 => s (ix2 p i)) Wt1 bt1 k := by
  unfold k0_pay4
  simp only [addf_apply, shapeCast_self]
  rw [dot0_t1, matmul_plain_zero_apply, broadcastTo_1b_ab_apply]
  rfl

set_option maxHeartbeats 400000 in
/-- The visual tower at item p of the block and feature j. -/
theorem pay0_3_apply (v : Vec Ideal S1000x2048 .f32) (Wv1 : Vec Ideal S2048x512 .f32) (bv1 : Vec Ideal S1x512 .f32)
    (Wv2 : Vec Ideal S512x64 .f32) (bv2 : Vec Ideal S1x64 .f32) (Wd : Vec Ideal S64x64 .f32) (bd : Vec Ideal S1x64 .f32)
    (p : Fin 1000) (j : Fin 64) :
    k0_pay3 (F := Ideal) v Wv1 bv1 Wv2 bv2 Wd bd (ix2 p j) = tower (fun i : Fin 2048 => v (ix2 p i)) Wv1 bv1 Wv2 bv2 Wd bd j := by
  unfold k0_pay3 k0_pay2
  simp only [addf_apply, maximumf_apply, broadcast_apply, shapeCast_self, dot0_v1, dot0_v2, dot0_d, matmul_plain_zero_apply,
    broadcastTo_1b_ab_apply]
  rfl

set_option maxHeartbeats 400000 in
/-- Entry (p, j) of the stored value: the visual tower plus the text tower, times the word of one half. -/
theorem pay0_apply (v : Vec Ideal S1000x2048 .f32) (s : Vec Ideal S1000x300 .f32) (Wv1 : Vec Ideal S2048x512 .f32) (bv1 : Vec Ideal S1x512 .f32)
    (Wv2 : Vec Ideal S512x64 .f32) (bv2 : Vec Ideal S1x64 .f32) (Wt1 : Vec Ideal S300x256 .f32) (bt1 : Vec Ideal S1x256 .f32)
    (Wt2 : Vec Ideal S256x64 .f32) (bt2 : Vec Ideal S1x64 .f32) (Wd : Vec Ideal S64x64 .f32) (bd : Vec Ideal S1x64 .f32)
    (p : Fin 1000) (j : Fin 64) :
    k0_pay1 (F := Ideal) (k0_pay2 Wd) (k0_pay3 v Wv1 bv1 Wv2 bv2 Wd bd) (k0_pay4 s Wt1 bt1) (k0_pay5 (F := Ideal)) Wt2 bt2 bd (ix2 p j)
      = (tower (fun i : Fin 2048 => v (ix2 p i)) Wv1 bv1 Wv2 bv2 Wd bd j + tower (fun i : Fin 300 => s (ix2 p i)) Wt1 bt1 Wt2 bt2 Wd bd j)
          * Ideal.ofBits .f32 0x3F000000#32 := by
  unfold k0_pay1 k0_pay2 k0_pay5
  simp only [addf_apply, mulf_apply, maximumf_apply, broadcast_apply, shapeCast_self, dot0_t2, dot0_d, matmul_plain_zero_apply,
    broadcastTo_1b_ab_apply, pay0_3_apply, pay0_4_apply]
  rfl

/-- The same entry against whole arrays Vi, Tx of which the blocks v, s hold row r at their row p. -/
theorem pay0_rows (v : Vec Ideal S1000x2048 .f32) (s : Vec Ideal S1000x300 .f32) (Wv1 : Vec Ideal S2048x512 .f32) (bv1 : Vec Ideal S1x512 .f32)
    (Wv2 : Vec Ideal S512x64 .f32) (bv2 : Vec Ideal S1x64 .f32) (Wt1 : Vec Ideal S300x256 .f32) (bt1 : Vec Ideal S1x256 .f32)
    (Wt2 : Vec Ideal S256x64 .f32) (bt2 : Vec Ideal S1x64 .f32) (Wd : Vec Ideal S64x64 .f32) (bd : Vec Ideal S1x64 .f32)
    (Vi : S10000x2048.Idx → EReal) (Tx : S10000x300.Idx → EReal) (p : Fin 1000) (j : Fin 64) (r : Fin 10000)
    (hv : ∀ k : Fin 2048, v (ix2 p k) = Vi (ix2 r k)) (hs : ∀ k : Fin 300, s (ix2 p k) = Tx (ix2 r k)) :
    k0_pay1 (F := Ideal) (k0_pay2 Wd) (k0_pay3 v Wv1 bv1 Wv2 bv2 Wd bd) (k0_pay4 s Wt1 bt1) (k0_pay5 (F := Ideal)) Wt2 bt2 bd (ix2 p j)
      = encG Vi Tx Wv1 bv1 Wv2 bv2 Wt1 bt1 Wt2 bt2 Wd bd (ix2 r j) := by
  rw [pay0_apply]
  unfold encG
  simp only [hv, hs]

/-- The same, at any index y of the block and q of the array with equal column, rows matched by hv, hs. -/
theorem pay0_at (v : Vec Ideal S1000x2048 .f32) (s : Vec Ideal S1000x300 .f32) (Wv1 : Vec Ideal S2048x512 .f32) (bv1 : Vec Ideal S1x512 .f32)
    (Wv2 : Vec Ideal S512x64 .f32) (bv2 : Vec Ideal S1x64 .f32) (Wt1 : Vec Ideal S300x256 .f32) (bt1 : Vec Ideal S1x256 .f32)
    (Wt2 : Vec Ideal S256x64 .f32) (bt2 : Vec Ideal S1x64 .f32) (Wd : Vec Ideal S64x64 .f32) (bd : Vec Ideal S1x64 .f32)
    (Vi : S10000x2048.Idx → EReal) (Tx : S10000x300.Idx → EReal) (y : S1000x64.Idx) (q : S10000x64.Idx) (hq : (q 1).val = (y 1).val)
    (hv : ∀ (k : Fin 2048) (y' : S1000x2048.Idx) (q' : S10000x2048.Idx), (y' 0).val = (y 0).val → (q' 0).val = (q 0).val → (y' 1).val = k.val → (q' 1).val = k.val → v y' = Vi q')
    (hs : ∀ (k : Fin 300) (y' : S1000x300.Idx) (q' : S10000x300.Idx), (y' 0).val = (y 0).val → (q' 0).val = (q 0).val → (y' 1).val = k.val → (q' 1).val = k.val → s y' = Tx q') :
    k0_pay1 (F := Ideal) (k0_pay2 Wd) (k0_pay3 v Wv1 bv1 Wv2 bv2 Wd bd) (k0_pay4 s Wt1 bt1) (k0_pay5 (F := Ideal)) Wt2 bt2 bd y
      = encG Vi Tx Wv1 bv1 Wv2 bv2 Wt1 bt1 Wt2 bt2 Wd bd q := by
  obtain ⟨p, j, rfl⟩ : ∃ (p : Fin 1000) (j : Fin 64), y = ix2 p j := ⟨y 0, y 1, eq_ix2 y⟩
  obtain ⟨r, j', rfl⟩ : ∃ (r : Fin 10000) (j' : Fin 64), q = ix2 r j' := ⟨q 0, q 1, eq_ix2 q⟩
  obtain rfl : j' = j := Fin.ext hq
  exact pay0_rows v s Wv1 bv1 Wv2 bv2 Wt1 bt1 Wt2 bt2 Wd bd Vi Tx p j' r
    (fun k => hv k (ix2 p k) (ix2 r k) rfl rfl rfl rfl) (fun k => hs k (ix2 p k) (ix2 r k) rfl rfl rfl rfl)

/-! ## The blocks as parts of the arrays -/

variable (V : (c : Dev nD) → (b : Ref sig .tc) → Buf (Elt Ideal) ((c : Thread nD τ).loc b))

theorem hz0 : (![0, 0] : Fin 2 → Nat) = fun _ => 0 := funext fun a => by fin_cases a <;> rfl

/-- The index maps over the ten grid points, one statement per window: the two feature windows and the output window
    are at block (t, 0), every weight and bias row at block (0, 0). -/
theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 2) = 0 ∧ win0_10.index t (1 : Fin 2) = 0 :=
  (by decide +kernel : ∀ t : Fin grid0.N, _)
theorem idx0_11 : ∀ t : Fin cfg0.N, win0_11.index t (0 : Fin 2) = 0 ∧ win0_11.index t (1 : Fin 2) = 0 :=
  (by decide +kernel : ∀ t : Fin grid0.N, _)
theorem idx0_12 : ∀ t : Fin cfg0.N, win0_12.index t (0 : Fin 2) = t.val ∧ win0_12.index t (1 : Fin 2) = 0 :=
  (by decide +kernel : ∀ t : Fin grid0.N, _)

/-- Window 0's block at point t is rows 1000 t ... of the visual features. -/
theorem iblk0_0_apply (c : Dev nD) (t : Fin cfg0.N) (y : S1000x2048.Idx) (q : S10000x2048.Idx)
    (h0 : (q 0).val = 1000 * t.val + (y 0).val) (h1 : (q 1).val = (y 1).val) :
    (iblk0 V c 0 t : Vec Ideal S1000x2048 .f32) y = (V c main_arg4 : S10000x2048.Idx → Elt Ideal .f32) q := by
  unfold iblk0
  rw [View.read_apply]
  show V c main_arg4 _ = V c main_arg4 _
  congr 1
  funext a
  apply Fin.ext
  match a with
  | ⟨0, _⟩ => show win0_0.index t 0 * 1000 + 1 * (y 0).val = (q 0).val; rw [(idx0_0 t).1, h0]; omega
  | ⟨1, _⟩ => show win0_0.index t 1 * 2048 + 1 * (y 1).val = (q 1).val; rw [(idx0_0 t).2, h1]; omega

/-- Window 1's block at point t is rows 1000 t ... of the text features. -/
theorem iblk0_1_apply (c : Dev nD) (t : Fin cfg0.N) (y : S1000x300.Idx) (q : S10000x300.Idx)
    (h0 : (q 0).val = 1000 * t.val + (y 0).val) (h1 : (q 1).val = (y 1).val) :
    (iblk0 V c 1 t : Vec Ideal S1000x300 .f32) y = (V c main_arg5 : S10000x300.Idx → Elt Ideal .f32) q := by
  unfold iblk0
  rw [View.read_apply]
  show V c main_arg5 _ = V c main_arg5 _
  congr 1
  funext a
  apply Fin.ext
  match a with
  | ⟨0, _⟩ => show win0_1.index t 0 * 1000 + 1 * (y 0).val = (q 0).val; rw [(idx0_1 t).1, h0]; omega
  | ⟨1, _⟩ => show win0_1.index t 1 * 300 + 1 * (y 1).val = (q 1).val; rw [(idx0_1 t).2, h1]; omega

/-- Every weight and every bias row is handed over whole. -/
theorem iblk0_2_eq (c : Dev nD) (t : Fin cfg0.N) : (iblk0 V c 2 t : Vec Ideal S2048x512 .f32) = (V c main_v0 : S2048x512.Idx → Elt Ideal .f32) := by
  funext y
  unfold iblk0
  rw [View.read_apply]
  show V c main_v0 _ = V c main_v0 y
  congr 1
  funext a
  apply Fin.ext
  match a with
  | ⟨0, _⟩ => show win0_2.index t 0 * 2048 + 1 * (y 0).val = (y 0).val; rw [(idx0_2 t).1]; omega
  | ⟨1, _⟩ => show win0_2.index t 1 * 512 + 1 * (y 1).val = (y 1).val; rw [(idx0_2 t).2]; omega
theorem iblk0_3_eq (c : Dev nD) (t : Fin cfg0.N) : (iblk0 V c 3 t : Vec Ideal S1x512 .f32) = (V c main_v5 : S1x512.Idx → Elt Ideal .f32) := by
  funext y
  unfold iblk0
  rw [View.read_apply]
  show V c main_v5 _ = V c main_v5 y
  congr 1
  funext a
  apply Fin.ext
  match a with
  | ⟨0, _⟩ => show win0_3.index t 0 * 1 + 1 * (y 0).val = (y 0).val; rw [(idx0_3 t).1]; omega
  | ⟨1, _⟩ => show win0_3.index t 1 * 512 + 1 * (y 1).val = (y 1).val; rw [(idx0_3 t).2]; omega
theorem iblk0_4_eq (c : Dev nD) (t : Fin cfg0.N) : (iblk0 V c 4 t : Vec Ideal S512x64 .f32) = (V c main_v1 : S512x64.Idx → Elt Ideal .f32) := by
  funext y
  unfold iblk0
  rw [View.read_apply]
  show V c main_v1 _ = V c main_v1 y
  congr 1
  funext a
  apply Fin.ext
  match a with
  | ⟨0, _⟩ => show win0_4.index t 0 * 512 + 1 * (y 0).val = (y 0).val; rw [(idx0_4 t).1]; omega
  | ⟨1, _⟩ => show win0_4.index t 1 * 64 + 1 * (y 1).val = (y 1).val; rw [(idx0_4 t).2]; omega
theorem iblk0_5_eq (c : Dev nD) (t : Fin cfg0.N) : (iblk0 V c 5 t : Vec Ideal S1x64 .f32) = (V c main_v6 : S1x64.Idx → Elt Ideal .f32) := by
  funext y
  unfold iblk0
  rw [View.read_apply]
  show V c main_v6 _ = V c main_v6 y
  congr 1
  funext a
  apply Fin.ext
  match a with
  | ⟨0, _⟩ => show win0_5.index t 0 * 1 + 1 * (y 0).val = (y 0).val; rw [(idx0_5 t).1]; omega
  | ⟨1, _⟩ => show win0_5.index t 1 * 64 + 1 * (y 1).val = (y 1).val; rw [(idx0_5 t).2]; omega
theorem iblk0_6_eq (c : Dev nD) (t : Fin cfg0.N) : (iblk0 V c 6 t : Vec Ideal S300x256 .f32) = (V c main_v2 : S300x256.Idx → Elt Ideal .f32) := by
  funext y
  unfold iblk0
  rw [View.read_apply]
  show V c main_v2 _ = V c main_v2 y
  congr 1
  funext a
  apply Fin.ext
  match a with
  | ⟨0, _⟩ => show win0_6.index t 0 * 300 + 1 * (y 0).val = (y 0).val; rw [(idx0_6 t).1]; omega
  | ⟨1, _⟩ => show win0_6.index t 1 * 256 + 1 * (y 1).val = (y 1).val; rw [(idx0_6 t).2]; omega
theorem iblk0_7_eq (c : Dev nD) (t : Fin cfg0.N) : (iblk0 V c 7 t : Vec Ideal S1x256 .f32) = (V c main_v7 : S1x256.Idx → Elt Ideal .f32) := by
  funext y
  unfold iblk0
  rw [View.read_apply]
  show V c main_v7 _ = V c main_v7 y
  congr 1
  funext a
  apply Fin.ext
  match a with
  | ⟨0, _⟩ => show win0_7.index t 0 * 1 + 1 * (y 0).val = (y 0).val; rw [(idx0_7 t).1]; omega
  | ⟨1, _⟩ => show win0_7.index t 1 * 256 + 1 * (y 1).val = (y 1).val; rw [(idx0_7 t).2]; omega
theorem iblk0_8_eq (c : Dev nD) (t : Fin cfg0.N) : (iblk0 V c 8 t : Vec Ideal S256x64 .f32) = (V c main_v3 : S256x64.Idx → Elt Ideal .f32) := by
  funext y
  unfold iblk0
  rw [View.read_apply]
  show V c main_v3 _ = V c main_v3 y
  congr 1
  funext a
  apply Fin.ext
  match a with
  | ⟨0, _⟩ => show win0_8.index t 0 * 256 + 1 * (y 0).val = (y 0).val; rw [(idx0_8 t).1]; omega
  | ⟨1, _⟩ => show win0_8.index t 1 * 64 + 1 * (y 1).val = (y 1).val; rw [(idx0_8 t).2]; omega
theorem iblk0_9_eq (c : Dev nD) (t : Fin cfg0.N) : (iblk0 V c 9 t : Vec Ideal S1x64 .f32) = (V c main_v8 : S1x64.Idx → Elt Ideal .f32) := by
  funext y
  unfold iblk0
  rw [View.read_apply]
  show V c main_v8 _ = V c main_v8 y
  congr 1
  funext a
  apply Fin.ext
  match a with
  | ⟨0, _⟩ => show win0_9.index t 0 * 1 + 1 * (y 0).val = (y 0).val; rw [(idx0_9 t).1]; omega
  | ⟨1, _⟩ => show win0_9.index t 1 * 64 + 1 * (y 1).val = (y 1).val; rw [(idx0_9 t).2]; omega
theorem iblk0_10_eq (c : Dev nD) (t : Fin cfg0.N) : (iblk0 V c 10 t : Vec Ideal S64x64 .f32) = (V c main_v4 : S64x64.Idx → Elt Ideal .f32) := by
  funext y
  unfold iblk0
  rw [View.read_apply]
  show V c main_v4 _ = V c main_v4 y
  congr 1
  funext a
  apply Fin.ext
  match a with
  | ⟨0, _⟩ => show win0_10.index t 0 * 64 + 1 * (y 0).val = (y 0).val; rw [(idx0_10 t).1]; omega
  | ⟨1, _⟩ => show win0_10.index t 1 * 64 + 1 * (y 1).val = (y 1).val; rw [(idx0_10 t).2]; omega
theorem iblk0_11_eq (c : Dev nD) (t : Fin cfg0.N) : (iblk0 V c 11 t : Vec Ideal S1x64 .f32) = (V c main_v9 : S1x64.Idx → Elt Ideal .f32) := by
  funext y
  unfold iblk0
  rw [View.read_apply]
  show V c main_v9 _ = V c main_v9 y
  congr 1
  funext a
  apply Fin.ext
  match a with
  | ⟨0, _⟩ => show win0_11.index t 0 * 1 + 1 * (y 0).val = (y 0).val; rw [(idx0_11 t).1]; omega
  | ⟨1, _⟩ => show win0_11.index t 1 * 64 + 1 * (y 1).val = (y 1).val; rw [(idx0_11 t).2]; omega

/-! ## From blocks to the array -/

/-- The encoder's value of the arrays as the region finds them. -/
abbrev enc0 (c : Dev nD) : S10000x64.Idx → Elt Ideal .f32 :=
  encG (V c main_arg4) (V c main_arg5) (V c main_v0) (V c main_v5) (V c main_v1) (V c main_v6) (V c main_v2) (V c main_v7)
    (V c main_v3) (V c main_v8) (V c main_v4) (V c main_v9)

set_option maxHeartbeats 400000 in
/-- What point t writes back is block t of the encoder's value. -/
theorem flushed0_eq (c : Dev nD) (t : Fin cfg0.N) :
    (dat0 V c).flushed 12 t = ((cfg0.win 12).blk t).view.read (Elt Ideal) (enc0 V c) := by
  show (cfg0.win 12).cut (grid0.coords t) ((dat0 V c).after 12 t) = _
  rw [after0_12]
  unfold out0_12
  rw [View.canon_unit_zero hz0]
  simp only [View.ld_unit_zero (S := S1000x2048) hz0, View.ld_unit_zero (S := S1000x300) hz0, View.ld_unit_zero (S := S2048x512) hz0,
    View.ld_unit_zero (S := S1x512) hz0, View.ld_unit_zero (S := S512x64) hz0, View.ld_unit_zero (S := S1x64) hz0,
    View.ld_unit_zero (S := S300x256) hz0, View.ld_unit_zero (S := S1x256) hz0, View.ld_unit_zero (S := S256x64) hz0,
    View.ld_unit_zero (S := S64x64) hz0]
  rw [iblk0_2_eq, iblk0_3_eq, iblk0_4_eq, iblk0_5_eq, iblk0_6_eq, iblk0_7_eq, iblk0_8_eq, iblk0_9_eq, iblk0_10_eq, iblk0_11_eq]
  obtain ⟨e0, e1⟩ := idx0_12 t
  funext y
  show k0_pay1 (F := Ideal) (k0_pay2 (V c main_v4))
      (k0_pay3 (iblk0 V c 0 t) (V c main_v0) (V c main_v5) (V c main_v1) (V c main_v6) (V c main_v4) (V c main_v9))
      (k0_pay4 (iblk0 V c 1 t) (V c main_v2) (V c main_v7)) (k0_pay5 (F := Ideal)) (V c main_v3) (V c main_v8) (V c main_v9) y
    = enc0 V c (((cfg0.win 12).blk t).view.emb y)
  have hq0 : ((((cfg0.win 12).blk t).view.emb y) 0).val = 1000 * t.val + (y 0).val := by
    show win0_12.index t 0 * 1000 + 1 * (y 0).val = _; rw [e0]; omega
  have hq1 : ((((cfg0.win 12).blk t).view.emb y) 1).val = (y 1).val := by
    show win0_12.index t 1 * 64 + 1 * (y 1).val = _; rw [e1]; omega
  refine pay0_at _ _ _ _ _ _ _ _ _ _ _ _ _ _ y _ hq1 ?_ ?_
  · intro k y' q' hy0 hq0' hy1 hq1'
    exact iblk0_0_apply V c t y' q' (by rw [hq0', hq0, hy0]) (by rw [hq1', hy1])
  · intro k y' q' hy0 hq0' hy1 hq1'
    exact iblk0_1_apply V c t y' q' (by rw [hq0', hq0, hy0]) (by rw [hq1', hy1])

/-- An index of the array is in point t's block iff each coordinate is in the block's range. -/
theorem mem_blk0 (t : Fin cfg0.N) (i : S10000x64.Idx) :
    i ∈ ((cfg0.win 12).blk t).view.set ↔ ∀ a : Fin 2, win0_12.index t a * S1000x64.size a ≤ (i a).val ∧ (i a).val < win0_12.index t a * S1000x64.size a + S1000x64.size a := by
  show i ∈ ((View.whole main_v10).slice (win0_12.rect t)).set ↔ _
  rw [View.set_slice_whole, Rect.mem_set_unit]
  exact Iff.rfl

/-- Every row lies in some point's block: row r in block r / 1000. -/
theorem cover0 (i : S10000x64.Idx) : ∃ t : Fin cfg0.N, (cfg0.win 12).flush t = true ∧ i ∈ ((cfg0.win 12).blk t).view.set := by
  have hi0 : (i 0).val < 10000 := (i 0).isLt
  have hi1 : (i 1).val < 64 := (i 1).isLt
  have hN : cfg0.N = 10 := N_0
  refine ⟨⟨(i 0).val / 1000, by rw [hN]; omega⟩, flush0_12 _, ?_⟩
  rw [mem_blk0]
  obtain ⟨e0, e1⟩ := idx0_12 ⟨(i 0).val / 1000, by rw [hN]; omega⟩
  intro a
  match a with
  | ⟨0, _⟩ =>
    show win0_12.index _ (0 : Fin 2) * 1000 ≤ (i 0).val ∧ (i 0).val < win0_12.index _ (0 : Fin 2) * 1000 + 1000
    rw [e0]; show (i 0).val / 1000 * 1000 ≤ (i 0).val ∧ (i 0).val < (i 0).val / 1000 * 1000 + 1000; omega
  | ⟨1, _⟩ =>
    show win0_12.index _ (1 : Fin 2) * 64 ≤ (i 1).val ∧ (i 1).val < win0_12.index _ (1 : Fin 2) * 64 + 64
    rw [e1]; omega

/-- The output array when the region is left: the encoder's value of the arrays as the region found them. -/
theorem final0 (c : Dev nD) : (dat0 V c).arrAt 12 cfg0.N = enc0 V c :=
  (dat0 V c).arrAt_eq_of_cover 12 (enc0 V c) (fun t _ => flushed0_eq V c t) (cover0)

end Cert.KernelIdeal.Hand
end
-- ==== Proof.Spec.lean ====
/-
  The two scalar laws and the explicit formulas both programs are compared through. No program is mentioned here.

  * The leaky rectifier with slope c. One program tests y > 0, the other y >= 0; both return y when the test holds
    and c * y otherwise. They differ only at y = 0, where both values are 0 (c * 0 = 0 on the extended reals), so they
    are one function.
  * A graph layer at node q and feature j:
        leaky ( sum_k X(q,k) * A(k,j)  +  sum_k Nb(q,k) * B(k,j)  +  b(0,j) ),
    with A, B the two 64 x 64 halves of the layer's weight and b its bias as a row.
  * A sum over 128 terms is the sum over its first 64 plus the sum over its last 64 (addition on the extended reals is
    commutative and associative; no finiteness is used).
-/
import Idealize.ShloMosaic.PureOps.Ideal.Laws
import Idealize.ShloMosaic.Lib.ValueIdx

open scoped BigOperators
noncomputable section
namespace Cert.Spec
open Idealize.ShloMosaic Idealize.ShloMosaic.ValueIdx

/-- The rectifier's slope, as the float word both programs carry. It is never evaluated. -/
abbrev slope : EReal := Ideal.ofBits .f32 0x3C23D70A#32

/-- The leaky rectifier testing y > 0. -/
def leakyGt (y : EReal) : EReal :=
  Scalar.select (Ideal.cmp .ogt y (Ideal.ofBits .f32 0x00000000#32)) y (slope * y)

/-- The leaky rectifier testing y >= 0. -/
def leakyGe (y : EReal) : EReal :=
  Scalar.select (Ideal.cmp .oge y (Ideal.ofBits .f32 0x00000000#32)) y (slope * y)

/-- The two tests give one function: they disagree only at 0, where y = 0 = c * 0. -/
theorem leaky_eq (y : EReal) : leakyGe y = leakyGt y := by
  unfold leakyGe leakyGt Ideal.cmp
  rw [Ideal.ofBits_zero_f32]
  dsimp only
  by_cases h : (0 : EReal) < y
  · rw [decide_eq_true h, decide_eq_true h.le]
  · by_cases h0 : y = 0
    · subst h0
      simp [Scalar.select]
    · have hle : ¬ (0 : EReal) ≤ y := fun hle => h (lt_of_le_of_ne hle (Ne.symm h0))
      rw [decide_eq_false h, decide_eq_false hle]

/-- A graph layer's value at every node and feature, from the node features X, the aggregated neighbour features
    Nb, the two halves A, B of the weight and the bias row b. -/
def layerG {R : Nat} (X Nb : (⟨2, ![R, 64]⟩ : Shape).Idx → EReal) (A B : (⟨2, ![64, 64]⟩ : Shape).Idx → EReal)
    (b : (⟨2, ![1, 64]⟩ : Shape).Idx → EReal) : (⟨2, ![R, 64]⟩ : Shape).Idx → EReal :=
  fun i => leakyGt (∑ k : Fin 64, X (ix2 (i 0) k) * A (ix2 k (i 1)) + ∑ k : Fin 64, Nb (ix2 (i 0) k) * B (ix2 k (i 1))
    + b (ix2 (0 : Fin 1) (i 1)))

/-- A sum over 128 indices splits at 64. -/
theorem sum_split_128 {M : Type} [AddCommMonoid M] (f : Fin 128 → M) :
    ∑ k : Fin 128, f k = ∑ k : Fin 64, f (Fin.castAdd 64 k) + ∑ k : Fin 64, f (Fin.natAdd 64 k) :=
  Fin.sum_univ_add (a := 64) (b := 64) (f : Fin (64 + 64) → M)

end Cert.Spec
end
-- ==== Proof.KernelIdeal.Value1.lean ====
/-
  Graph layer 1 of the kernel program: what the whole output array holds when the region is left.

  Point t of the grid is handed rows 10000 t ... 10000 t + 9999 of the node features X and of the aggregated neighbour
  features Nb, and the whole of the two weight halves A, B and of the bias row b; entry (p, j) of what it stores is
        leaky ( sum_k x(p,k) * A(k,j) + sum_k n(p,k) * B(k,j) + b(0,j) ),
  which only reads row p of the two blocks, that is row 10000 t + p of X and Nb. So the block point t writes back is
  block t of one function of the arrays as the region finds them, the layer formula of Spec; the ten blocks tile the
  100000 rows (row r lies in block r / 10000), hence the array ends holding that function everywhere.
-/
import proofs.«128426_j13245679141184_1_alg».proof.Proof.KernelIdeal.Reg1
import proofs.«128426_j13245679141184_1_alg».proof.Proof.LibMatmul
import proofs.«128426_j13245679141184_1_alg».proof.Proof.Spec
import Idealize.ShloMosaic.Lib.ValueLayout
import Idealize.ShloMosaic.Lib.Pipeline.Value
import Idealize.ShloMosaic.Lib.ValueIdx
import Idealize.ShloMosaic.PureOps.Ideal.Laws

open scoped BigOperators
noncomputable section
namespace Cert.KernelIdeal.Hand
open Idealize.ShloMosaic Idealize.ShloMosaic.TcCoe Idealize.SL.Sem Idealize.ShloMosaic.ValueIdx Cert.KernelIdeal.Gen Cert.MatOps Cert.Spec
open Idealize.ShloMosaic.Pipeline (Dat)

/-! ## The body's arithmetic at an entry -/

/-- Entry (p, j) of the stored value: the two products read as sums over the 64 features, the bias row broadcast
    down the rows, the rectifier applied entry by entry. -/
theorem pay1_apply (x n : Vec Ideal S10000x64 .f32) (A B : Vec Ideal S64x64 .f32) (b : Vec Ideal S1x64 .f32) (p : Fin 10000) (j : Fin 64) :
    k1_pay1 (F := Ideal) x A n B b (ix2 p j)
      = leakyGt (∑ k : Fin 64, x (ix2 p k) * A (ix2 k j) + ∑ k : Fin 64, n (ix2 p k) * B (ix2 k j) + b (ix2 (0 : Fin 1) j)) := by
  unfold k1_pay1
  simp only [select_apply, cmpf_apply, mulf_apply, addf_apply, broadcast_apply, shapeCast_self]
  rw [show dot_S10000x64_S64x64_S10000x64_1_0_0_1_n_n = DotDims.plain 10000 64 64 from rfl]
  rw [matmul_plain_zero_apply, matmul_plain_zero_apply, broadcastTo_1b_ab_apply]
  rfl

/-- The same entry against whole arrays X, Nb of which the blocks x, n hold row r at their row p. -/
theorem pay1_rows (x n : Vec Ideal S10000x64 .f32) (A B : Vec Ideal S64x64 .f32) (b : Vec Ideal S1x64 .f32)
    (X Nb : S100000x64.Idx → EReal) (p : Fin 10000) (j : Fin 64) (r : Fin 100000)
    (hx : ∀ k : Fin 64, x (ix2 p k) = X (ix2 r k)) (hn : ∀ k : Fin 64, n (ix2 p k) = Nb (ix2 r k)) :
    k1_pay1 (F := Ideal) x A n B b (ix2 p j) = layerG X Nb A B b (ix2 r j) := by
  rw [pay1_apply]
  unfold layerG
  simp only [hx, hn]

/-- The same, at any index y of the block and q of the array with equal column, rows matched by hx, hn. -/
theorem pay1_at (x n : Vec Ideal S10000x64 .f32) (A B : Vec Ideal S64x64 .f32) (b : Vec Ideal S1x64 .f32)
    (X Nb : S100000x64.Idx → EReal) (y : S10000x64.Idx) (q : S100000x64.Idx) (hq : (q 1).val = (y 1).val)
    (hx : ∀ (k : Fin 64) (y' : S10000x64.Idx) (q' : S100000x64.Idx), (y' 0).val = (y 0).val → (q' 0).val = (q 0).val → (y' 1).val = k.val → (q' 1).val = k.val → x y' = X q')
    (hn : ∀ (k : Fin 64) (y' : S10000x64.Idx) (q' : S100000x64.Idx), (y' 0).val = (y 0).val → (q' 0).val = (q 0).val → (y' 1).val = k.val → (q' 1).val = k.val → n y' = Nb q') :
    k1_pay1 (F := Ideal) x A n B b y = layerG X Nb A B b q := by
  obtain ⟨p, j, rfl⟩ : ∃ (p : Fin 10000) (j : Fin 64), y = ix2 p j := ⟨y 0, y 1, eq_ix2 y⟩
  obtain ⟨r, j', rfl⟩ : ∃ (r : Fin 100000) (j' : Fin 64), q = ix2 r j' := ⟨q 0, q 1, eq_ix2 q⟩
  obtain rfl : j' = j := Fin.ext hq
  exact pay1_rows x n A B b X Nb p j' r (fun k => hx k (ix2 p k) (ix2 r k) rfl rfl rfl rfl) (fun k => hn k (ix2 p k) (ix2 r k) rfl rfl rfl rfl)

/-! ## The blocks as parts of the arrays -/

variable (V : (c : Dev nD) → (b : Ref sig .tc) → Buf (Elt Ideal) ((c : Thread nD τ).loc b))

theorem hz2 : (![0, 0] : Fin 2 → Nat) = fun _ => 0 := funext fun a => by fin_cases a <;> rfl

/-- The index maps over the ten grid points: the two feature windows and the output window are at block (t, 0), the
    weights and the bias at block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point t is rows 10000 t ... of the node features. -/
theorem iblk1_0_apply (c : Dev nD) (t : Fin cfg1.N) (y : S10000x64.Idx) (q : S100000x64.Idx)
    (h0 : (q 0).val = 10000 * t.val + (y 0).val) (h1 : (q 1).val = (y 1).val) :
    (iblk1 V c 0 t : Vec Ideal S10000x64 .f32) y = (V c main_v12 : S100000x64.Idx → Elt Ideal .f32) q := by
  unfold iblk1
  rw [View.read_apply]
  show V c main_v12 _ = V c main_v12 _
  congr 1
  funext a
  apply Fin.ext
  match a with
  | ⟨0, _⟩ => show win1_0.index t 0 * 10000 + 1 * (y 0).val = (q 0).val; rw [(idx1 t).1, h0]; omega
  | ⟨1, _⟩ => show win1_0.index t 1 * 64 + 1 * (y 1).val = (q 1).val; rw [(idx1 t).2.1, h1]; omega

/-- Window 1's block at point t is rows 10000 t ... of the aggregated neighbour features. -/
theorem iblk1_1_apply (c : Dev nD) (t : Fin cfg1.N) (y : S10000x64.Idx) (q : S100000x64.Idx)
    (h0 : (q 0).val = 10000 * t.val + (y 0).val) (h1 : (q 1).val = (y 1).val) :
    (iblk1 V c 1 t : Vec Ideal S10000x64 .f32) y = (V c main_v25 : S100000x64.Idx → Elt Ideal .f32) q := by
  unfold iblk1
  rw [View.read_apply]
  show V c main_v25 _ = V c main_v25 _
  congr 1
  funext a
  apply Fin.ext
  match a with
  | ⟨0, _⟩ => show win1_1.index t 0 * 10000 + 1 * (y 0).val = (q 0).val; rw [(idx1 t).2.2.1, h0]; omega
  | ⟨1, _⟩ => show win1_1.index t 1 * 64 + 1 * (y 1).val = (q 1).val; rw [(idx1 t).2.2.2.1, h1]; omega

/-- The weight halves and the bias row are handed over whole. -/
theorem iblk1_2_eq (c : Dev nD) (t : Fin cfg1.N) : (iblk1 V c 2 t : Vec Ideal S64x64 .f32) = (V c main_v27 : S64x64.Idx → Elt Ideal .f32) := by
  funext y
  unfold iblk1
  rw [View.read_apply]
  show V c main_v27 _ = V c main_v27 y
  congr 1
  funext a
  apply Fin.ext
  match a with
  | ⟨0, _⟩ => show win1_2.index t 0 * 64 + 1 * (y 0).val = (y 0).val; rw [(idx1 t).2.2.2.2.1]; omega
  | ⟨1, _⟩ => show win1_2.index t 1 * 64 + 1 * (y 1).val = (y 1).val; rw [(idx1 t).2.2.2.2.2.1]; omega
theorem iblk1_3_eq (c : Dev nD) (t : Fin cfg1.N) : (iblk1 V c 3 t : Vec Ideal S64x64 .f32) = (V c main_v29 : S64x64.Idx → Elt Ideal .f32) := by
  funext y
  unfold iblk1
  rw [View.read_apply]
  show V c main_v29 _ = V c main_v29 y
  congr 1
  funext a
  apply Fin.ext
  match a with
  | ⟨0, _⟩ => show win1_3.index t 0 * 64 + 1 * (y 0).val = (y 0).val; rw [(idx1 t).2.2.2.2.2.2.1]; omega
  | ⟨1, _⟩ => show win1_3.index t 1 * 64 + 1 * (y 1).val = (y 1).val; rw [(idx1 t).2.2.2.2.2.2.2.1]; omega
theorem iblk1_4_eq (c : Dev nD) (t : Fin cfg1.N) : (iblk1 V c 4 t : Vec Ideal S1x64 .f32) = (V c main_v30 : S1x64.Idx → Elt Ideal .f32) := by
  funext y
  unfold iblk1
  rw [View.read_apply]
  show V c main_v30 _ = V c main_v30 y
  congr 1
  funext a
  apply Fin.ext
  match a with
  | ⟨0, _⟩ => show win1_4.index t 0 * 1 + 1 * (y 0).val = (y 0).val; rw [(idx1 t).2.2.2.2.2.2.2.2.1]; omega
  | ⟨1, _⟩ => show win1_4.index t 1 * 64 + 1 * (y 1).val = (y 1).val; rw [(idx1 t).2.2.2.2.2.2.2.2.2.1]; omega

/-! ## From blocks to the array -/

/-- The layer's value of the arrays as the region finds them. -/
abbrev layer1 (c : Dev nD) : S100000x64.Idx → Elt Ideal .f32 :=
  layerG (V c main_v12) (V c main_v25) (V c main_v27) (V c main_v29) (V c main_v30)

set_option maxHeartbeats 400000 in
/-- What point t writes back is block t of the layer's value. -/
theorem flushed1_eq (c : Dev nD) (t : Fin cfg1.N) :
    (dat1 V c).flushed 5 t = ((cfg1.win 5).blk t).view.read (Elt Ideal) (layer1 V c) := by
  show (cfg1.win 5).cut (grid1.coords t) ((dat1 V c).after 5 t) = _
  rw [after1_5]
  unfold out1_5
  rw [View.canon_unit_zero hz2]
  simp only [View.ld_unit_zero (S := S10000x64) hz2, View.ld_unit_zero (S := S64x64) hz2, View.ld_unit_zero (S := S1x64) hz2]
  rw [iblk1_2_eq, iblk1_3_eq, iblk1_4_eq]
  obtain ⟨e0, e1, e2, e3, e4, e5, e6, e7, e8, e9, e10, e11⟩ := idx1 t
  funext y
  show k1_pay1 (F := Ideal) (iblk1 V c 0 t) (V c main_v27) (iblk1 V c 1 t) (V c main_v29) (V c main_v30) y
    = layer1 V c (((cfg1.win 5).blk t).view.emb y)
  have hq0 : ((((cfg1.win 5).blk t).view.emb y) 0).val = 10000 * t.val + (y 0).val := by
    show win1_5.index t 0 * 10000 + 1 * (y 0).val = _; rw [e10]; omega
  have hq1 : ((((cfg1.win 5).blk t).view.emb y) 1).val = (y 1).val := by
    show win1_5.index t 1 * 64 + 1 * (y 1).val = _; rw [e11]; omega
  refine pay1_at _ _ _ _ _ _ _ y _ hq1 ?_ ?_
  · intro k y' q' hy0 hq0' hy1 hq1'
    exact iblk1_0_apply V c t y' q' (by rw [hq0', hq0, hy0]) (by rw [hq1', hy1])
  · intro k y' q' hy0 hq0' hy1 hq1'
    exact iblk1_1_apply V c t y' q' (by rw [hq0', hq0, hy0]) (by rw [hq1', hy1])

/-- An index of the array is in point t's block iff each coordinate is in the block's range. -/
theorem mem_blk1 (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v31).slice (win1_5.rect t)).set ↔ _
  rw [View.set_slice_whole, Rect.mem_set_unit]
  exact Iff.rfl

/-- Every row lies in some point's block: row r in block r / 10000. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 10 := N_1
  refine ⟨⟨(i 0).val / 10000, by rw [hN]; omega⟩, flush1_5 _, ?_⟩
  rw [mem_blk1]
  obtain ⟨e0, e1, e2, e3, e4, e5, e6, e7, e8, e9, e10, e11⟩ := idx1 ⟨(i 0).val / 10000, by rw [hN]; omega⟩
  intro a
  match a with
  | ⟨0, _⟩ =>
    show win1_5.index _ (0 : Fin 2) * 10000 ≤ (i 0).val ∧ (i 0).val < win1_5.index _ (0 : Fin 2) * 10000 + 10000
    rw [e10]; show (i 0).val / 10000 * 10000 ≤ (i 0).val ∧ (i 0).val < (i 0).val / 10000 * 10000 + 10000; omega
  | ⟨1, _⟩ =>
    show win1_5.index _ (1 : Fin 2) * 64 ≤ (i 1).val ∧ (i 1).val < win1_5.index _ (1 : Fin 2) * 64 + 64
    rw [e11]; omega

/-- The output array when the region is left: the layer's value of the arrays as the region found them. -/
theorem final1 (c : Dev nD) : (dat1 V c).arrAt 5 cfg1.N = layer1 V c :=
  (dat1 V c).arrAt_eq_of_cover 5 (layer1 V c) (fun t _ => flushed1_eq V c t) (cover1)

end Cert.KernelIdeal.Hand
end
-- ==== Proof.KernelIdeal.Value2.lean ====
/-
  Graph layer 2 of the kernel program: what the whole output array holds when the region is left.

  Point t of the grid is handed rows 10000 t ... 10000 t + 9999 of the node features X and of the aggregated neighbour
  features Nb, and the whole of the two weight halves A, B and of the bias row b; entry (p, j) of what it stores is
        leaky ( sum_k x(p,k) * A(k,j) + sum_k n(p,k) * B(k,j) + b(0,j) ),
  which only reads row p of the two blocks, that is row 10000 t + p of X and Nb. So the block point t writes back is
  block t of one function of the arrays as the region finds them, the layer formula of Spec; the ten blocks tile the
  100000 rows (row r lies in block r / 10000), hence the array ends holding that function everywhere.
-/
import proofs.«128426_j13245679141184_1_alg».proof.Proof.KernelIdeal.Reg2
import proofs.«128426_j13245679141184_1_alg».proof.Proof.LibMatmul
import proofs.«128426_j13245679141184_1_alg».proof.Proof.Spec
import Idealize.ShloMosaic.Lib.ValueLayout
import Idealize.ShloMosaic.Lib.Pipeline.Value
import Idealize.ShloMosaic.Lib.ValueIdx
import Idealize.ShloMosaic.PureOps.Ideal.Laws

open scoped BigOperators
noncomputable section
namespace Cert.KernelIdeal.Hand
open Idealize.ShloMosaic Idealize.ShloMosaic.TcCoe Idealize.SL.Sem Idealize.ShloMosaic.ValueIdx Cert.KernelIdeal.Gen Cert.MatOps Cert.Spec
open Idealize.ShloMosaic.Pipeline (Dat)

/-! ## The body's arithmetic at an entry -/

/-- Entry (p, j) of the stored value: the two products read as sums over the 64 features, the bias row broadcast
    down the rows, the rectifier applied entry by entry. -/
theorem pay2_apply (x n : Vec Ideal S10000x64 .f32) (A B : Vec Ideal S64x64 .f32) (b : Vec Ideal S1x64 .f32) (p : Fin 10000) (j : Fin 64) :
    k2_pay1 (F := Ideal) x A n B b (ix2 p j)
      = leakyGt (∑ k : Fin 64, x (ix2 p k) * A (ix2 k j) + ∑ k : Fin 64, n (ix2 p k) * B (ix2 k j) + b (ix2 (0 : Fin 1) j)) := by
  unfold k2_pay1
  simp only [select_apply, cmpf_apply, mulf_apply, addf_apply, broadcast_apply, shapeCast_self]
  rw [show dot_S10000x64_S64x64_S10000x64_1_0_0_1_n_n = DotDims.plain 10000 64 64 from rfl]
  rw [matmul_plain_zero_apply, matmul_plain_zero_apply, broadcastTo_1b_ab_apply]
  rfl

/-- The same entry against whole arrays X, Nb of which the blocks x, n hold row r at their row p. -/
theorem pay2_rows (x n : Vec Ideal S10000x64 .f32) (A B : Vec Ideal S64x64 .f32) (b : Vec Ideal S1x64 .f32)
    (X Nb : S100000x64.Idx → EReal) (p : Fin 10000) (j : Fin 64) (r : Fin 100000)
    (hx : ∀ k : Fin 64, x (ix2 p k) = X (ix2 r k)) (hn : ∀ k : Fin 64, n (ix2 p k) = Nb (ix2 r k)) :
    k2_pay1 (F := Ideal) x A n B b (ix2 p j) = layerG X Nb A B b (ix2 r j) := by
  rw [pay2_apply]
  unfold layerG
  simp only [hx, hn]

/-- The same, at any index y of the block and q of the array with equal column, rows matched by hx, hn. -/
theorem pay2_at (x n : Vec Ideal S10000x64 .f32) (A B : Vec Ideal S64x64 .f32) (b : Vec Ideal S1x64 .f32)
    (X Nb : S100000x64.Idx → EReal) (y : S10000x64.Idx) (q : S100000x64.Idx) (hq : (q 1).val = (y 1).val)
    (hx : ∀ (k : Fin 64) (y' : S10000x64.Idx) (q' : S100000x64.Idx), (y' 0).val = (y 0).val → (q' 0).val = (q 0).val → (y' 1).val = k.val → (q' 1).val = k.val → x y' = X q')
    (hn : ∀ (k : Fin 64) (y' : S10000x64.Idx) (q' : S100000x64.Idx), (y' 0).val = (y 0).val → (q' 0).val = (q 0).val → (y' 1).val = k.val → (q' 1).val = k.val → n y' = Nb q') :
    k2_pay1 (F := Ideal) x A n B b y = layerG X Nb A B b q := by
  obtain ⟨p, j, rfl⟩ : ∃ (p : Fin 10000) (j : Fin 64), y = ix2 p j := ⟨y 0, y 1, eq_ix2 y⟩
  obtain ⟨r, j', rfl⟩ : ∃ (r : Fin 100000) (j' : Fin 64), q = ix2 r j' := ⟨q 0, q 1, eq_ix2 q⟩
  obtain rfl : j' = j := Fin.ext hq
  exact pay2_rows x n A B b X Nb p j' r (fun k => hx k (ix2 p k) (ix2 r k) rfl rfl rfl rfl) (fun k => hn k (ix2 p k) (ix2 r k) rfl rfl rfl rfl)

/-! ## The blocks as parts of the arrays -/

variable (V : (c : Dev nD) → (b : Ref sig .tc) → Buf (Elt Ideal) ((c : Thread nD τ).loc b))

theorem hz2b : (![0, 0] : Fin 2 → Nat) = fun _ => 0 := funext fun a => by fin_cases a <;> rfl

/-- The index maps over the ten grid points: the two feature windows and the output window are at block (t, 0), the
    weights and the bias at block (0, 0). -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Window 0's block at point t is rows 10000 t ... of the node features. -/
theorem iblk2_0_apply (c : Dev nD) (t : Fin cfg2.N) (y : S10000x64.Idx) (q : S100000x64.Idx)
    (h0 : (q 0).val = 10000 * t.val + (y 0).val) (h1 : (q 1).val = (y 1).val) :
    (iblk2 V c 0 t : Vec Ideal S10000x64 .f32) y = (V c main_v31 : S100000x64.Idx → Elt Ideal .f32) q := by
  unfold iblk2
  rw [View.read_apply]
  show V c main_v31 _ = V c main_v31 _
  congr 1
  funext a
  apply Fin.ext
  match a with
  | ⟨0, _⟩ => show win2_0.index t 0 * 10000 + 1 * (y 0).val = (q 0).val; rw [(idx2 t).1, h0]; omega
  | ⟨1, _⟩ => show win2_0.index t 1 * 64 + 1 * (y 1).val = (q 1).val; rw [(idx2 t).2.1, h1]; omega

/-- Window 1's block at point t is rows 10000 t ... of the aggregated neighbour features. -/
theorem iblk2_1_apply (c : Dev nD) (t : Fin cfg2.N) (y : S10000x64.Idx) (q : S100000x64.Idx)
    (h0 : (q 0).val = 10000 * t.val + (y 0).val) (h1 : (q 1).val = (y 1).val) :
    (iblk2 V c 1 t : Vec Ideal S10000x64 .f32) y = (V c main_v44 : S100000x64.Idx → Elt Ideal .f32) q := by
  unfold iblk2
  rw [View.read_apply]
  show V c main_v44 _ = V c main_v44 _
  congr 1
  funext a
  apply Fin.ext
  match a with
  | ⟨0, _⟩ => show win2_1.index t 0 * 10000 + 1 * (y 0).val = (q 0).val; rw [(idx2 t).2.2.1, h0]; omega
  | ⟨1, _⟩ => show win2_1.index t 1 * 64 + 1 * (y 1).val = (q 1).val; rw [(idx2 t).2.2.2.1, h1]; omega

/-- The weight halves and the bias row are handed over whole. -/
theorem iblk2_2_eq (c : Dev nD) (t : Fin cfg2.N) : (iblk2 V c 2 t : Vec Ideal S64x64 .f32) = (V c main_v46 : S64x64.Idx → Elt Ideal .f32) := by
  funext y
  unfold iblk2
  rw [View.read_apply]
  show V c main_v46 _ = V c main_v46 y
  congr 1
  funext a
  apply Fin.ext
  match a with
  | ⟨0, _⟩ => show win2_2.index t 0 * 64 + 1 * (y 0).val = (y 0).val; rw [(idx2 t).2.2.2.2.1]; omega
  | ⟨1, _⟩ => show win2_2.index t 1 * 64 + 1 * (y 1).val = (y 1).val; rw [(idx2 t).2.2.2.2.2.1]; omega
theorem iblk2_3_eq (c : Dev nD) (t : Fin cfg2.N) : (iblk2 V c 3 t : Vec Ideal S64x64 .f32) = (V c main_v48 : S64x64.Idx → Elt Ideal .f32) := by
  funext y
  unfold iblk2
  rw [View.read_apply]
  show V c main_v48 _ = V c main_v48 y
  congr 1
  funext a
  apply Fin.ext
  match a with
  | ⟨0, _⟩ => show win2_3.index t 0 * 64 + 1 * (y 0).val = (y 0).val; rw [(idx2 t).2.2.2.2.2.2.1]; omega
  | ⟨1, _⟩ => show win2_3.index t 1 * 64 + 1 * (y 1).val = (y 1).val; rw [(idx2 t).2.2.2.2.2.2.2.1]; omega
theorem iblk2_4_eq (c : Dev nD) (t : Fin cfg2.N) : (iblk2 V c 4 t : Vec Ideal S1x64 .f32) = (V c main_v49 : S1x64.Idx → Elt Ideal .f32) := by
  funext y
  unfold iblk2
  rw [View.read_apply]
  show V c main_v49 _ = V c main_v49 y
  congr 1
  funext a
  apply Fin.ext
  match a with
  | ⟨0, _⟩ => show win2_4.index t 0 * 1 + 1 * (y 0).val = (y 0).val; rw [(idx2 t).2.2.2.2.2.2.2.2.1]; omega
  | ⟨1, _⟩ => show win2_4.index t 1 * 64 + 1 * (y 1).val = (y 1).val; rw [(idx2 t).2.2.2.2.2.2.2.2.2.1]; omega

/-! ## From blocks to the array -/

/-- The layer's value of the arrays as the region finds them. -/
abbrev layer2 (c : Dev nD) : S100000x64.Idx → Elt Ideal .f32 :=
  layerG (V c main_v31) (V c main_v44) (V c main_v46) (V c main_v48) (V c main_v49)

set_option maxHeartbeats 400000 in
/-- What point t writes back is block t of the layer's value. -/
theorem flushed2_eq (c : Dev nD) (t : Fin cfg2.N) :
    (dat2 V c).flushed 5 t = ((cfg2.win 5).blk t).view.read (Elt Ideal) (layer2 V c) := by
  show (cfg2.win 5).cut (grid2.coords t) ((dat2 V c).after 5 t) = _
  rw [after2_5]
  unfold out2_5
  rw [View.canon_unit_zero hz2b]
  simp only [View.ld_unit_zero (S := S10000x64) hz2b, View.ld_unit_zero (S := S64x64) hz2b, View.ld_unit_zero (S := S1x64) hz2b]
  rw [iblk2_2_eq, iblk2_3_eq, iblk2_4_eq]
  obtain ⟨e0, e1, e2, e3, e4, e5, e6, e7, e8, e9, e10, e11⟩ := idx2 t
  funext y
  show k2_pay1 (F := Ideal) (iblk2 V c 0 t) (V c main_v46) (iblk2 V c 1 t) (V c main_v48) (V c main_v49) y
    = layer2 V c (((cfg2.win 5).blk t).view.emb y)
  have hq0 : ((((cfg2.win 5).blk t).view.emb y) 0).val = 10000 * t.val + (y 0).val := by
    show win2_5.index t 0 * 10000 + 1 * (y 0).val = _; rw [e10]; omega
  have hq1 : ((((cfg2.win 5).blk t).view.emb y) 1).val = (y 1).val := by
    show win2_5.index t 1 * 64 + 1 * (y 1).val = _; rw [e11]; omega
  refine pay2_at _ _ _ _ _ _ _ y _ hq1 ?_ ?_
  · intro k y' q' hy0 hq0' hy1 hq1'
    exact iblk2_0_apply V c t y' q' (by rw [hq0', hq0, hy0]) (by rw [hq1', hy1])
  · intro k y' q' hy0 hq0' hy1 hq1'
    exact iblk2_1_apply V c t y' q' (by rw [hq0', hq0, hy0]) (by rw [hq1', hy1])

/-- An index of the array is in point t's block iff each coordinate is in the block's range. -/
theorem mem_blk2 (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v50).slice (win2_5.rect t)).set ↔ _
  rw [View.set_slice_whole, Rect.mem_set_unit]
  exact Iff.rfl

/-- Every row lies in some point's block: row r in block r / 10000. -/
theorem cover2 (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 10 := N_2
  refine ⟨⟨(i 0).val / 10000, by rw [hN]; omega⟩, flush2_5 _, ?_⟩
  rw [mem_blk2]
  obtain ⟨e0, e1, e2, e3, e4, e5, e6, e7, e8, e9, e10, e11⟩ := idx2 ⟨(i 0).val / 10000, by rw [hN]; omega⟩
  intro a
  match a with
  | ⟨0, _⟩ =>
    show win2_5.index _ (0 : Fin 2) * 10000 ≤ (i 0).val ∧ (i 0).val < win2_5.index _ (0 : Fin 2) * 10000 + 10000
    rw [e10]; show (i 0).val / 10000 * 10000 ≤ (i 0).val ∧ (i 0).val < (i 0).val / 10000 * 10000 + 10000; omega
  | ⟨1, _⟩ =>
    show win2_5.index _ (1 : Fin 2) * 64 ≤ (i 1).val ∧ (i 1).val < win2_5.index _ (1 : Fin 2) * 64 + 64
    rw [e11]; omega

/-- The output array when the region is left: the layer's value of the arrays as the region found them. -/
theorem final2 (c : Dev nD) : (dat2 V c).arrAt 5 cfg2.N = layer2 V c :=
  (dat2 V c).arrAt_eq_of_cover 5 (layer2 V c) (fun t _ => flushed2_eq V c t) (cover2)

end Cert.KernelIdeal.Hand
end
-- ==== Proof.LayerLaws.lean ====
/-
  A graph layer in the ORIGINAL arguments: the weight Wc : [64, 128] and the bias bc : [64].

  One formula, layerS, is the meeting point of the two programs:
        leaky ( sum_{k<64} X(q,k) * Wc(j,k)  +  sum_{k<64} Nb(q,k) * Wc(j,64+k)  +  bc(j) ).
  * One program multiplies X by the transpose of the left half of Wc and Nb by the transpose of the right half, adds
    the two products and the bias as a row: its weight halves read A(k,j) = Wc(j,k), B(k,j) = Wc(j,64+k), b(0,j) = bc(j).
  * The other concatenates X and Nb along the features, multiplies by the transpose of the whole of Wc and adds the
    bias broadcast down the rows: the sum over the 128 features splits at 64 into exactly the two sums above (the
    first 64 columns of the concatenation are X's, the last 64 are Nb's). Its rectifier tests >= 0 where the first
    program's tests > 0: one function (Spec.leaky_eq).
  No finiteness is used: only commutativity and associativity of addition on the extended reals.
-/
import proofs.«128426_j13245679141184_1_alg».proof.Proof.Spec
import proofs.«128426_j13245679141184_1_alg».proof.Proof.LibMatmul
import Idealize.ShloMosaic.Lib.ValueLayout
import Idealize.ShloMosaic.Lib.Pipeline.Value
import Idealize.ShloMosaic.Lib.ValueIdx
import Idealize.ShloMosaic.PureOps.Ideal.Laws

open scoped BigOperators
noncomputable section
namespace Cert.Spec
open Idealize.ShloMosaic Idealize.ShloMosaic.ValueIdx Cert.MatOps

/-- The layer in the original arguments. -/
def layerS {R : Nat} (X Nb : (⟨2, ![R, 64]⟩ : Shape).Idx → EReal) (Wc : (⟨2, ![64, 128]⟩ : Shape).Idx → EReal)
    (bc : (⟨1, ![64]⟩ : Shape).Idx → EReal) : (⟨2, ![R, 64]⟩ : Shape).Idx → EReal :=
  fun i => leakyGt (∑ k : Fin 64, X (ix2 (i 0) k) * Wc (ix2 (i 1) (Fin.castAdd 64 k))
    + ∑ k : Fin 64, Nb (ix2 (i 0) k) * Wc (ix2 (i 1) (Fin.natAdd 64 k)) + bc (ix1 (i 1)))

/-! ## The first program's operands -/

/-- The transpose of the left half of Wc at (k, j) is Wc(j, k). -/
theorem halfA_apply (Wc : (⟨2, ![64, 128]⟩ : Shape).Idx → EReal) (hs : (⟨2, ![64, 128]⟩ : Shape).Slices ![0, 0] ⟨2, ![64, 64]⟩)
    (ht : (⟨2, ![64, 64]⟩ : Shape).Transposes [1, 0] ⟨2, ![64, 64]⟩) (k j : Fin 64) :
    transpose ⟨2, ![64, 64]⟩ [1, 0] (extractStridedSlice ⟨2, ![64, 64]⟩ ![0, 0] Wc hs) ht (ix2 k j) = Wc (ix2 j (Fin.castAdd 64 k)) := by
  rw [transpose10_apply]
  refine extractStridedSlice_apply _ _ _ _ _ fun a => ?_
  match a with
  | ⟨0, _⟩ => simp
  | ⟨1, _⟩ => simp

/-- The transpose of the right half of Wc at (k, j) is Wc(j, 64 + k). -/
theorem halfB_apply (Wc : (⟨2, ![64, 128]⟩ : Shape).Idx → EReal) (hs : (⟨2, ![64, 128]⟩ : Shape).Slices ![0, 64] ⟨2, ![64, 64]⟩)
    (ht : (⟨2, ![64, 64]⟩ : Shape).Transposes [1, 0] ⟨2, ![64, 64]⟩) (k j : Fin 64) :
    transpose ⟨2, ![64, 64]⟩ [1, 0] (extractStridedSlice ⟨2, ![64, 64]⟩ ![0, 64] Wc hs) ht (ix2 k j) = Wc (ix2 j (Fin.natAdd 64 k)) := by
  rw [transpose10_apply]
  refine extractStridedSlice_apply _ _ _ _ _ fun a => ?_
  match a with
  | ⟨0, _⟩ => simp
  | ⟨1, _⟩ => show 64 + k.val = 64 + k.val; rfl

/-- With those operands the layer formula over the halves is the layer in the original arguments. -/
theorem layerG_halves {R : Nat} (X Nb : (⟨2, ![R, 64]⟩ : Shape).Idx → EReal) (Wc : (⟨2, ![64, 128]⟩ : Shape).Idx → EReal)
    (bc : (⟨1, ![64]⟩ : Shape).Idx → EReal)
    (A B : (⟨2, ![64, 64]⟩ : Shape).Idx → EReal) (b : (⟨2, ![1, 64]⟩ : Shape).Idx → EReal)
    (hA : ∀ k j : Fin 64, A (ix2 k j) = Wc (ix2 j (Fin.castAdd 64 k)))
    (hB : ∀ k j : Fin 64, B (ix2 k j) = Wc (ix2 j (Fin.natAdd 64 k)))
    (hb : ∀ j : Fin 64, b (ix2 (0 : Fin 1) j) = bc (ix1 j)) :
    layerG X Nb A B b = layerS X Nb Wc bc := by
  funext i
  obtain ⟨r, j, rfl⟩ : ∃ (r : Fin R) (j : Fin 64), i = ix2 r j := ⟨i 0, i 1, eq_ix2 i⟩
  show leakyGt (∑ k : Fin 64, X (ix2 r k) * A (ix2 k j) + ∑ k : Fin 64, Nb (ix2 r k) * B (ix2 k j) + b (ix2 (0 : Fin 1) j))
    = leakyGt (∑ k : Fin 64, X (ix2 r k) * Wc (ix2 j (Fin.castAdd 64 k)) + ∑ k : Fin 64, Nb (ix2 r k) * Wc (ix2 j (Fin.natAdd 64 k)) + bc (ix1 j))
  simp only [hA, hB, hb]

end Cert.Spec
end
-- ==== Proof.RefLaws.lean ====
/-
  The second program's layer, read at an entry.

  It concatenates the node features X and the aggregated neighbour features Nb along the feature axis (128 columns),
  multiplies by the transpose of the whole weight Wc : [64, 128], adds the bias bc : [64] broadcast down the rows, and
  applies the leaky rectifier testing >= 0. At (r, j) the product is a sum over the 128 columns; columns 0..63 of the
  concatenation are X's and columns 64..127 are Nb's, so the sum is the two 64-term sums of Spec.layerS.
-/
import proofs.«128426_j13245679141184_1_alg».proof.Proof.LayerLaws

open scoped BigOperators
noncomputable section
namespace Cert.Spec
open Idealize.ShloMosaic Idealize.ShloMosaic.ValueIdx Cert.MatOps

/-- The pre-activation at (r, j). -/
theorem refPre_apply {R : Nat} (X Nb : FVec Ideal ⟨2, ![R, 64]⟩ .f32) (Wc : FVec Ideal ⟨2, ![64, 128]⟩ .f32) (bc : FVec Ideal ⟨1, ![64]⟩ .f32)
    (hc : Shape.Concatenates [(⟨2, ![R, 64]⟩ : Shape), ⟨2, ![R, 64]⟩] ⟨2, ![R, 128]⟩ (1 : Fin 2))
    (ht : (⟨2, ![64, 128]⟩ : Shape).Transposes [1, 0] ⟨2, ![128, 64]⟩)
    (h1 : (⟨1, ![64]⟩ : Shape).BroadcastsInDim ⟨2, ![1, 64]⟩ ![1])
    (h2 : (⟨2, ![1, 64]⟩ : Shape).BroadcastsInDim ⟨2, ![R, 64]⟩ ![0, 1])
    (prec : Option ContractPrecision) (r : Fin R) (j : Fin 64) :
    addf (F := Ideal) (Host.dotGeneral (F := Ideal) (DotDims.plain R 128 64) prec
        (concatenate ⟨2, ![R, 128]⟩ 1 [⟨⟨2, ![R, 64]⟩, X⟩, ⟨⟨2, ![R, 64]⟩, Nb⟩] hc) (transpose ⟨2, ![128, 64]⟩ [1, 0] Wc ht))
      (broadcastInDim ⟨2, ![R, 64]⟩ ![0, 1] h2 (broadcastInDim ⟨2, ![1, 64]⟩ ![1] h1 bc)) (ix2 r j)
    = ∑ k : Fin 64, X (ix2 r k) * Wc (ix2 j (Fin.castAdd 64 k)) + ∑ k : Fin 64, Nb (ix2 r k) * Wc (ix2 j (Fin.natAdd 64 k)) + bc (ix1 j) := by
  rw [addf_apply, dotGeneral_plain_apply, sum_split_128]
  congr 1
  · congr 1
    · refine Finset.sum_congr rfl fun k _ => ?_
      rw [concatenate_pair_apply_left (1 : Fin 2) X Nb hc (ix2 r (Fin.castAdd 64 k)) rfl (ix2 r k)
        (fun b => match b with | ⟨0, _⟩ => rfl | ⟨1, _⟩ => rfl), transpose10_apply]
    · refine Finset.sum_congr rfl fun k _ => ?_
      rw [concatenate_pair_apply_right (1 : Fin 2) X Nb hc (ix2 r (Fin.natAdd 64 k)) rfl rfl (ix2 r k)
        (fun b hb => match b, hb with | ⟨0, _⟩, _ => rfl | ⟨1, _⟩, hb => absurd rfl hb)
        (by show k.val + 64 = 64 + k.val; omega), transpose10_apply]
  · rw [broadcastInDim_apply ![0, 1] h2 _ (ix2 r j) (ix2 (0 : Fin 1) j) (fun a => match a with | ⟨0, _⟩ => by simp | ⟨1, _⟩ => by simp; rfl),
      broadcastInDim_apply ![1] h1 bc (ix2 (0 : Fin 1) j) (ix1 j) (fun a => match a with | ⟨0, _⟩ => by simp)]

/-- The rectifier testing >= 0, entry by entry. -/
theorem leakyRef_apply {R : Nat} (y : FVec Ideal ⟨2, ![R, 64]⟩ .f32)
    (h0 : (⟨0, ![]⟩ : Shape).BroadcastsInDim ⟨2, ![R, 64]⟩ ![]) (r : Fin R) (j : Fin 64) :
    select (cmpf (F := Ideal) .oge y (broadcastInDim ⟨2, ![R, 64]⟩ ![] h0 (constant (F := Ideal) ⟨0, ![]⟩ .f32 0x00000000#32))) y
      (mulf (F := Ideal) (broadcastInDim ⟨2, ![R, 64]⟩ ![] h0 (constant (F := Ideal) ⟨0, ![]⟩ .f32 0x3C23D70A#32)) y) (ix2 r j)
    = leakyGe (y (ix2 r j)) := by
  rw [select_apply, cmpf_apply, mulf_apply,
    broadcastInDim_apply ![] h0 _ (ix2 r j) ix0 (fun a => a.elim0),
    broadcastInDim_apply ![] h0 _ (ix2 r j) ix0 (fun a => a.elim0)]
  rfl

end Cert.Spec
end
-- ==== Proof.EncLaws.lean ====
/-
  The item encoder in the ORIGINAL arguments: each weight W : [N, K] as given (not transposed) and each bias b : [N].

  affineT x W b (j) = sum_k x(k) * W(j,k) + b(j) is the row map x |-> x W^T + b. One program feeds its towers the
  transposed weights and the biases as rows: an affine map with W^T and the bias row is affineT with W and b. The other
  program computes, array-wide, the contraction of Y with the transpose of W plus the bias broadcast down the rows:
  at (r, j) that is affineT of row r of Y. The rectifier is the maximum with the zero word on both sides.
-/
import proofs.«128426_j13245679141184_1_alg».proof.Proof.SpecEnc
import proofs.«128426_j13245679141184_1_alg».proof.Proof.LibMatmul
import Idealize.ShloMosaic.Lib.ValueLayout
import Idealize.ShloMosaic.Lib.Pipeline.Value
import Idealize.ShloMosaic.Lib.ValueIdx
import Idealize.ShloMosaic.PureOps.Ideal.Laws

open scoped BigOperators
noncomputable section
namespace Cert.Spec
open Idealize.ShloMosaic Idealize.ShloMosaic.ValueIdx Cert.MatOps

/-- The row map x |-> x W^T + b for W : [N, K], b : [N]. -/
def affineT {K N : Nat} (x : Fin K → EReal) (W : (⟨2, ![N, K]⟩ : Shape).Idx → EReal) (b : (⟨1, ![N]⟩ : Shape).Idx → EReal) : Fin N → EReal :=
  fun j => ∑ k : Fin K, x k * W (ix2 j k) + b (ix1 j)

/-- A tower in the original arguments. -/
def towerT {K H : Nat} (x : Fin K → EReal) (W1 : (⟨2, ![H, K]⟩ : Shape).Idx → EReal) (b1 : (⟨1, ![H]⟩ : Shape).Idx → EReal)
    (W2 : (⟨2, ![64, H]⟩ : Shape).Idx → EReal) (b2 : (⟨1, ![64]⟩ : Shape).Idx → EReal)
    (Wd : (⟨2, ![64, 64]⟩ : Shape).Idx → EReal) (bd : (⟨1, ![64]⟩ : Shape).Idx → EReal) : Fin 64 → EReal :=
  affineT (affineT (relu0 (affineT x W1 b1)) W2 b2) Wd bd

/-- The encoder in the original arguments. -/
def encS {R : Nat} (Vi : (⟨2, ![R, 2048]⟩ : Shape).Idx → EReal) (Tx : (⟨2, ![R, 300]⟩ : Shape).Idx → EReal)
    (a6 : (⟨2, ![512, 2048]⟩ : Shape).Idx → EReal) (a7 : (⟨1, ![512]⟩ : Shape).Idx → EReal)
    (a8 : (⟨2, ![64, 512]⟩ : Shape).Idx → EReal) (a9 : (⟨1, ![64]⟩ : Shape).Idx → EReal)
    (a10 : (⟨2, ![256, 300]⟩ : Shape).Idx → EReal) (a11 : (⟨1, ![256]⟩ : Shape).Idx → EReal)
    (a12 : (⟨2, ![64, 256]⟩ : Shape).Idx → EReal) (a13 : (⟨1, ![64]⟩ : Shape).Idx → EReal)
    (a14 : (⟨2, ![64, 64]⟩ : Shape).Idx → EReal) (a15 : (⟨1, ![64]⟩ : Shape).Idx → EReal) :
    (⟨2, ![R, 64]⟩ : Shape).Idx → EReal :=
  fun i => (towerT (fun k => Vi (ix2 (i 0) k)) a6 a7 a8 a9 a14 a15 (i 1)
      + towerT (fun k => Tx (ix2 (i 0) k)) a10 a11 a12 a13 a14 a15 (i 1)) * Ideal.ofBits .f32 0x3F000000#32

/-- An affine map with the transposed weight and the bias as a row is affineT with the weight and the bias. -/
theorem affine_eq_affineT {K N : Nat} (Wt : (⟨2, ![K, N]⟩ : Shape).Idx → EReal) (br : (⟨2, ![1, N]⟩ : Shape).Idx → EReal)
    (W : (⟨2, ![N, K]⟩ : Shape).Idx → EReal) (b : (⟨1, ![N]⟩ : Shape).Idx → EReal)
    (hW : ∀ (k : Fin K) (j : Fin N), Wt (ix2 k j) = W (ix2 j k)) (hb : ∀ j : Fin N, br (ix2 (0 : Fin 1) j) = b (ix1 j))
    (x : Fin K → EReal) : affine x Wt br = affineT x W b := by
  funext j
  unfold affine affineT
  simp only [hW, hb]

/-- The encoder over transposed weights and bias rows is the encoder in the original arguments. -/
theorem encG_eq_encS {R : Nat} (Vi : (⟨2, ![R, 2048]⟩ : Shape).Idx → EReal) (Tx : (⟨2, ![R, 300]⟩ : Shape).Idx → EReal)
    (Wv1 : (⟨2, ![2048, 512]⟩ : Shape).Idx → EReal) (bv1 : (⟨2, ![1, 512]⟩ : Shape).Idx → EReal)
    (Wv2 : (⟨2, ![512, 64]⟩ : Shape).Idx → EReal) (bv2 : (⟨2, ![1, 64]⟩ : Shape).Idx → EReal)
    (Wt1 : (⟨2, ![300, 256]⟩ : Shape).Idx → EReal) (bt1 : (⟨2, ![1, 256]⟩ : Shape).Idx → EReal)
    (Wt2 : (⟨2, ![256, 64]⟩ : Shape).Idx → EReal) (bt2 : (⟨2, ![1, 64]⟩ : Shape).Idx → EReal)
    (Wd : (⟨2, ![64, 64]⟩ : Shape).Idx → EReal) (bd : (⟨2, ![1, 64]⟩ : Shape).Idx → EReal)
    (a6 : (⟨2, ![512, 2048]⟩ : Shape).Idx → EReal) (a7 : (⟨1, ![512]⟩ : Shape).Idx → EReal)
    (a8 : (⟨2, ![64, 512]⟩ : Shape).Idx → EReal) (a9 : (⟨1, ![64]⟩ : Shape).Idx → EReal)
    (a10 : (⟨2, ![256, 300]⟩ : Shape).Idx → EReal) (a11 : (⟨1, ![256]⟩ : Shape).Idx → EReal)
    (a12 : (⟨2, ![64, 256]⟩ : Shape).Idx → EReal) (a13 : (⟨1, ![64]⟩ : Shape).Idx → EReal)
    (a14 : (⟨2, ![64, 64]⟩ : Shape).Idx → EReal) (a15 : (⟨1, ![64]⟩ : Shape).Idx → EReal)
    (h6 : ∀ (k : Fin 2048) (j : Fin 512), Wv1 (ix2 k j) = a6 (ix2 j k)) (h7 : ∀ j : Fin 512, bv1 (ix2 (0 : Fin 1) j) = a7 (ix1 j))
    (h8 : ∀ (k : Fin 512) (j : Fin 64), Wv2 (ix2 k j) = a8 (ix2 j k)) (h9 : ∀ j : Fin 64, bv2 (ix2 (0 : Fin 1) j) = a9 (ix1 j))
    (h10 : ∀ (k : Fin 300) (j : Fin 256), Wt1 (ix2 k j) = a10 (ix2 j k)) (h11 : ∀ j : Fin 256, bt1 (ix2 (0 : Fin 1) j) = a11 (ix1 j))
    (h12 : ∀ (k : Fin 256) (j : Fin 64), Wt2 (ix2 k j) = a12 (ix2 j k)) (h13 : ∀ j : Fin 64, bt2 (ix2 (0 : Fin 1) j) = a13 (ix1 j))
    (h14 : ∀ (k : Fin 64) (j : Fin 64), Wd (ix2 k j) = a14 (ix2 j k)) (h15 : ∀ j : Fin 64, bd (ix2 (0 : Fin 1) j) = a15 (ix1 j)) :
    encG Vi Tx Wv1 bv1 Wv2 bv2 Wt1 bt1 Wt2 bt2 Wd bd = encS Vi Tx a6 a7 a8 a9 a10 a11 a12 a13 a14 a15 := by
  funext i
  unfold encG encS tower towerT
  simp only [affine_eq_affineT Wv1 bv1 a6 a7 h6 h7, affine_eq_affineT Wv2 bv2 a8 a9 h8 h9, affine_eq_affineT Wt1 bt1 a10 a11 h10 h11,
    affine_eq_affineT Wt2 bt2 a12 a13 h12 h13, affine_eq_affineT Wd bd a14 a15 h14 h15]

/-! ## The second program's stages at an entry -/

/-- The contraction of Y with the transpose of W plus the bias broadcast down the rows, at (r, j): affineT of row r. -/
theorem refAffine_apply {R K N : Nat} (hN : N ≠ 1) (Y : FVec Ideal ⟨2, ![R, K]⟩ .f32) (W : FVec Ideal ⟨2, ![N, K]⟩ .f32) (b : FVec Ideal ⟨1, ![N]⟩ .f32)
    (ht : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![R, N]⟩ ![0, 1])
    (prec : Option ContractPrecision) (r : Fin R) (j : Fin N) :
    addf (F := Ideal) (Host.dotGeneral (F := Ideal) (DotDims.plain R K N) prec Y (transpose ⟨2, ![K, N]⟩ [1, 0] W ht))
      (broadcastInDim ⟨2, ![R, N]⟩ ![0, 1] h2 (broadcastInDim ⟨2, ![1, N]⟩ ![1] h1 b)) (ix2 r j)
    = affineT (fun k => Y (ix2 r k)) W b j := by
  unfold affineT
  rw [addf_apply, dotGeneral_plain_apply]
  congr 1
  · refine Finset.sum_congr rfl fun k _ => ?_
    rw [transpose10_apply]
  · rw [broadcastInDim_apply ![0, 1] h2 _ (ix2 r j) (ix2 (0 : Fin 1) j) (fun a => match a with | ⟨0, _⟩ => by simp | ⟨1, _⟩ => by simp [hN]; rfl),
      broadcastInDim_apply ![1] h1 b (ix2 (0 : Fin 1) j) (ix1 j) (fun a => match a with | ⟨0, _⟩ => by simp [hN]; rfl)]

/-- The maximum with the zero word broadcast over the array, at (r, k). -/
theorem refRelu_apply {R N : Nat} (Y : FVec Ideal ⟨2, ![R, N]⟩ .f32) (h0 : (⟨0, ![]⟩ : Shape).BroadcastsInDim ⟨2, ![R, N]⟩ ![])
    (r : Fin R) (k : Fin N) :
    maximumf (F := Ideal) Y (broadcastInDim ⟨2, ![R, N]⟩ ![] h0 (constant (F := Ideal) ⟨0, ![]⟩ .f32 0x00000000#32)) (ix2 r k)
      = max (Y (ix2 r k)) (Ideal.ofBits .f32 0x00000000#32) := by
  rw [maximumf_apply, broadcastInDim_apply ![] h0 _ (ix2 r k) ix0 (fun a => a.elim0)]
  rfl

end Cert.Spec
end
-- ==== Proof.RefSide.lean ====
/-
  The reference program's two non-shared functions, as the explicit formulas of Spec.

  * A layer of the reference is layerS of its four operands: at (r, j) the pre-activation is the two 64-term sums plus
    the bias (RefLaws.refPre_apply), the rectifier is applied entry by entry and its >= 0 test is the > 0 test of the
    formula (Spec.leaky_eq).
  * The reference's encoder is encS of its twelve operands: each of its six affine stages is, at (r, j), affineT of
    row r of the stage's input (EncLaws.refAffine_apply), each rectifier the maximum with the zero word
    (EncLaws.refRelu_apply); the two towers are added and multiplied by the word of one half.
-/
import proofs.«128426_j13245679141184_1_alg».proof.Proof.RefRun
import proofs.«128426_j13245679141184_1_alg».proof.Proof.RefLaws
import proofs.«128426_j13245679141184_1_alg».proof.Proof.EncLaws

open scoped BigOperators
noncomputable section
namespace Cert.ReferenceIdeal.Hand
open Cert.ReferenceIdeal Cert.ReferenceIdeal.Gen Idealize.ShloMosaic Idealize.ShloMosaic.ValueIdx Cert.MatOps Cert.Spec

/-- The printed contraction records are the plain [M, K] x [K, N] contraction. -/
theorem dotL : dot_S100000x128_S128x64_S100000x64_1_0_0_1_n_n = DotDims.plain 100000 128 64 := rfl
theorem dotV1 : dot_S10000x2048_S2048x512_S10000x512_1_0_0_1_n_n = DotDims.plain 10000 2048 512 := rfl
theorem dotV2 : dot_S10000x512_S512x64_S10000x64_1_0_0_1_n_n = DotDims.plain 10000 512 64 := rfl
theorem dotD : dot_S10000x64_S64x64_S10000x64_1_0_0_1_n_n = DotDims.plain 10000 64 64 := rfl
theorem dotT1 : dot_S10000x300_S300x256_S10000x256_1_0_0_1_n_n = DotDims.plain 10000 300 256 := rfl
theorem dotT2 : dot_S10000x256_S256x64_S10000x64_1_0_0_1_n_n = DotDims.plain 10000 256 64 := rfl

set_option maxHeartbeats 800000 in
/-- A layer of the reference is the layer formula in the original arguments. -/
theorem refLayer_eq (x nb : FVec Ideal S100000x64 .f32) (Wc : FVec Ideal S64x128 .f32) (bc : FVec Ideal S64 .f32) :
    refLayer (F := Ideal) x nb Wc bc = layerS x nb Wc bc := by
  funext i
  obtain ⟨r, j, rfl⟩ : ∃ (r : Fin 100000) (j : Fin 64), i = ix2 r j := ⟨i 0, i 1, eq_ix2 i⟩
  unfold refLayer
  rw [dotL, leakyRef_apply, refPre_apply, leaky_eq]
  rfl

/-- A whole tower of the reference at (r, j): three affine stages with one rectifier after the first, each stage read
    at an entry as the row map of the stage before it. -/
theorem refTower_apply {R K H : Nat} (hH : H ≠ 1) (X : FVec Ideal ⟨2, ![R, K]⟩ .f32)
    (W1 : FVec Ideal ⟨2, ![H, K]⟩ .f32) (b1 : FVec Ideal ⟨1, ![H]⟩ .f32)
    (W2 : FVec Ideal ⟨2, ![64, H]⟩ .f32) (b2 : FVec Ideal ⟨1, ![64]⟩ .f32)
    (Wd : FVec Ideal ⟨2, ![64, 64]⟩ .f32) (bd : FVec Ideal ⟨1, ![64]⟩ .f32)
    (t1 : (⟨2, ![H, K]⟩ : Shape).Transposes [1, 0] ⟨2, ![K, H]⟩) (p1 : (⟨1, ![H]⟩ : Shape).BroadcastsInDim ⟨2, ![1, H]⟩ ![1])
    (q1 : (⟨2, ![1, H]⟩ : Shape).BroadcastsInDim ⟨2, ![R, H]⟩ ![0, 1])
    (z : (⟨0, ![]⟩ : Shape).BroadcastsInDim ⟨2, ![R, H]⟩ ![])
    (t2 : (⟨2, ![64, H]⟩ : Shape).Transposes [1, 0] ⟨2, ![H, 64]⟩) (p2 : (⟨1, ![64]⟩ : Shape).BroadcastsInDim ⟨2, ![1, 64]⟩ ![1])
    (q2 : (⟨2, ![1, 64]⟩ : Shape).BroadcastsInDim ⟨2, ![R, 64]⟩ ![0, 1])
    (t3 : (⟨2, ![64, 64]⟩ : Shape).Transposes [1, 0] ⟨2, ![64, 64]⟩)
    (pr1 pr2 pr3 : Option ContractPrecision) (r : Fin R) (j : Fin 64) :
    addf (F := Ideal) (Host.dotGeneral (F := Ideal) (DotDims.plain R 64 64) pr3
        (addf (F := Ideal) (Host.dotGeneral (F := Ideal) (DotDims.plain R H 64) pr2
            (maximumf (F := Ideal)
              (addf (F := Ideal) (Host.dotGeneral (F := Ideal) (DotDims.plain R K H) pr1 X (transpose ⟨2, ![K, H]⟩ [1, 0] W1 t1))
                (broadcastInDim ⟨2, ![R, H]⟩ ![0, 1] q1 (broadcastInDim ⟨2, ![1, H]⟩ ![1] p1 b1)))
              (broadcastInDim ⟨2, ![R, H]⟩ ![] z (constant (F := Ideal) ⟨0, ![]⟩ .f32 0x00000000#32)))
            (transpose ⟨2, ![H, 64]⟩ [1, 0] W2 t2))
          (broadcastInDim ⟨2, ![R, 64]⟩ ![0, 1] q2 (broadcastInDim ⟨2, ![1, 64]⟩ ![1] p2 b2)))
        (transpose ⟨2, ![64, 64]⟩ [1, 0] Wd t3))
      (broadcastInDim ⟨2, ![R, 64]⟩ ![0, 1] q2 (broadcastInDim ⟨2, ![1, 64]⟩ ![1] p2 bd)) (ix2 r j)
    = towerT (fun k => X (ix2 r k)) W1 b1 W2 b2 Wd bd j := by
  unfold towerT
  refine (refAffine_apply (by decide) _ Wd bd t3 p2 q2 pr3 r j).trans ?_
  refine congrArg (fun f => affineT f Wd bd j) (funext fun k => ?_)
  refine (refAffine_apply (by decide) _ W2 b2 t2 p2 q2 pr2 r k).trans ?_
  refine congrArg (fun f => affineT f W2 b2 k) (funext fun k' => ?_)
  refine (refRelu_apply _ z r k').trans ?_
  show max _ _ = max _ _
  rw [refAffine_apply hH X W1 b1 t1 p1 q1 pr1 r k']

set_option maxHeartbeats 1600000 in
/-- The reference's encoder is the encoder formula in the original arguments. -/
theorem refFused_eq (a4 : FVec Ideal S10000x2048 .f32) (a5 : FVec Ideal S10000x300 .f32)
    (a6 : FVec Ideal S512x2048 .f32) (a7 : FVec Ideal S512 .f32) (a8 : FVec Ideal S64x512 .f32) (a9 : FVec Ideal S64 .f32)
    (a10 : FVec Ideal S256x300 .f32) (a11 : FVec Ideal S256 .f32) (a12 : FVec Ideal S64x256 .f32) (a13 : FVec Ideal S64 .f32)
    (a14 : FVec Ideal S64x64 .f32) (a15 : FVec Ideal S64 .f32) :
    refFused (F := Ideal) a4 a5 a6 a7 a8 a9 a10 a11 a12 a13 a14 a15 = encS a4 a5 a6 a7 a8 a9 a10 a11 a12 a13 a14 a15 := by
  funext i
  obtain ⟨r, j, rfl⟩ : ∃ (r : Fin 10000) (j : Fin 64), i = ix2 r j := ⟨i 0, i 1, eq_ix2 i⟩
  unfold refFused
  rw [dotV1, dotV2, dotD, dotT1, dotT2]
  rw [mulf_apply, addf_apply, refTower_apply (by decide), refTower_apply (by decide),
    broadcastInDim_apply ![] bcast_S_S10000x64 _ (ix2 r j) ix0 (fun a => a.elim0), constant_apply]
  rfl

end Cert.ReferenceIdeal.Hand
end
-- ==== Proof.Bridge.lean ====
/-
  The kernel program's result is the reference's function of the twenty arguments.

  The run of the kernel program leaves its result buffer at the concatenation of three tables (Chain): the node table
  ego, the first layer's output c1 and the second layer's output c2. Reading backwards:
  * the encoder region's output is the encoder formula of the features and of the transposed weights and bias rows
    (Value0), hence the encoder in the original arguments (EncLaws.encG_eq_encS: a transpose read at (k, j) is the
    weight at (j, k), a recast bias row at (0, j) is the bias at j), hence the reference's encoder (RefSide.refFused_eq);
  * ego is that output scattered into the embedding table at row 50000: the same scatter in both programs;
  * each layer region's output is the layer formula of its five operands (Value1, Value2), the operands being ego (or c1),
    its neighbourhood sum, the transposed halves of the layer's weight and the bias as a row (Chain); so it is the layer in
    the original arguments (LayerLaws.layerG_halves), which is the reference's layer (RefSide.refLayer_eq); the
    neighbourhood sum is the same gather, product and accumulating scatter in both programs.
-/
import proofs.«128426_j13245679141184_1_alg».proof.Proof.KernelIdeal.Chain
import proofs.«128426_j13245679141184_1_alg».proof.Proof.KernelIdeal.Value0
import proofs.«128426_j13245679141184_1_alg».proof.Proof.KernelIdeal.Value1
import proofs.«128426_j13245679141184_1_alg».proof.Proof.KernelIdeal.Value2
import proofs.«128426_j13245679141184_1_alg».proof.Proof.RefSide
import proofs.«128426_j13245679141184_1_alg».proof.Proof.LayerLaws
import proofs.«128426_j13245679141184_1_alg».proof.Proof.EncLaws

open scoped BigOperators
noncomputable section
namespace Cert.KernelIdeal.Hand
open Idealize.ShloMosaic Idealize.ShloMosaic.TcCoe Idealize.SL.Sem Idealize.ShloMosaic.ValueIdx Cert.KernelIdeal.Gen Cert.MatOps Cert.Spec
open Cert.ReferenceIdeal.Hand (refFused refEgo refHop refLayer refOut refFused_eq refLayer_eq)

/-! ## The two shared functions are the same in both programs -/

/-- The scatter of the new rows into the embedding table: one function in both programs. -/
theorem kEgo_eq (a3 : FVec Ideal S100000x64 .f32) (f : FVec Ideal S10000x64 .f32) : kEgo (F := Ideal) a3 f = refEgo (F := Ideal) a3 f := rfl

/-- The neighbourhood sum: one function in both programs. -/
theorem kHop_eq (a0 a1 : IVec S1600000 32) (a2 : FVec Ideal S1600000 .f32) (x : FVec Ideal S100000x64 .f32) :
    kHop (F := Ideal) a0 a1 a2 x = refHop (F := Ideal) a0 a1 a2 x := rfl

/-- A bias recast to a row, at (0, j), is the bias at j. -/
theorem kRow_apply (b : FVec Ideal S64 .f32) (j : Fin 64) : kRow (F := Ideal) b (ix2 (0 : Fin 1) j) = b (ix1 j) := by
  unfold kRow
  exact shapeCast_a_1a_apply b _ 0 j

variable (m : (ℓ : Loc nD τ sig) → Buf (Elt Ideal) ℓ) (ρ : Dev nD → PrngReg)

/-! ## The three regions' outputs -/

/-- The encoder region leaves the encoder of the original arguments. -/
theorem enc_value (c : Dev nD) : W2 m ρ c (Proc.devRef .tc main_v10)
    = encS (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14)) (m ((c : Thread nD τ).loc main_arg15)) := by
  refine (W2_arr m ρ c 12).trans ((final0 (E1 m ρ) c).trans ?_)
  show encG (W1 m ρ c (Proc.devRef .tc main_arg4)) (W1 m ρ c (Proc.devRef .tc main_arg5)) (W1 m ρ c (Proc.devRef .tc main_v0)) (W1 m ρ c (Proc.devRef .tc main_v5))
      (W1 m ρ c (Proc.devRef .tc main_v1)) (W1 m ρ c (Proc.devRef .tc main_v6)) (W1 m ρ c (Proc.devRef .tc main_v2)) (W1 m ρ c (Proc.devRef .tc main_v7))
      (W1 m ρ c (Proc.devRef .tc main_v3)) (W1 m ρ c (Proc.devRef .tc main_v8)) (W1 m ρ c (Proc.devRef .tc main_v4)) (W1 m ρ c (Proc.devRef .tc main_v9)) = _
  rw [W1_arg4, W1_arg5, W1_v0, W1_v5, W1_v1, W1_v6, W1_v2, W1_v7, W1_v3, W1_v8, W1_v4, W1_v9]
  exact encG_eq_encS _ _ _ _ _ _ _ _ _ _ _ _ _ _ _ _ _ _ _ _ _ _
    (fun k j => transpose10_apply _ _ k j) (fun j => shapeCast_a_1a_apply _ _ 0 j)
    (fun k j => transpose10_apply _ _ k j) (fun j => kRow_apply _ j)
    (fun k j => transpose10_apply _ _ k j) (fun j => shapeCast_a_1a_apply _ _ 0 j)
    (fun k j => transpose10_apply _ _ k j) (fun j => kRow_apply _ j)
    (fun k j => transpose10_apply _ _ k j) (fun j => kRow_apply _ j)

/-- The first layer region leaves the layer, in the original arguments, of ego and its neighbourhood sum. -/
theorem layer1_value (c : Dev nD) : W4 m ρ c (Proc.devRef .tc main_v31)
    = layerS (W3 m ρ c (Proc.devRef .tc main_v12))
        (kHop (m ((c : Thread nD τ).loc main_arg0)) (m ((c : Thread nD τ).loc main_arg1)) (m ((c : Thread nD τ).loc main_arg2)) (W3 m ρ c (Proc.devRef .tc main_v12)))
        (m ((c : Thread nD τ).loc main_arg16)) (m ((c : Thread nD τ).loc main_arg17)) := by
  refine (W4_arr m ρ c 5).trans ((final1 (E3 m ρ) c).trans ?_)
  show layerG (W3 m ρ c (Proc.devRef .tc main_v12)) (W3 m ρ c (Proc.devRef .tc main_v25)) (W3 m ρ c (Proc.devRef .tc main_v27))
      (W3 m ρ c (Proc.devRef .tc main_v29)) (W3 m ρ c (Proc.devRef .tc main_v30)) = _
  rw [W3_v25, W3_v27, W3_v29, W3_v30]
  exact layerG_halves _ _ _ _ _ _ _ (fun k j => halfA_apply _ _ _ k j) (fun k j => halfB_apply _ _ _ k j) (fun j => kRow_apply _ j)

/-- The second layer region leaves the layer, in the original arguments, of c1 and its neighbourhood sum. -/
theorem layer2_value (c : Dev nD) : W6 m ρ c (Proc.devRef .tc main_v50)
    = layerS (W4 m ρ c (Proc.devRef .tc main_v31))
        (kHop (m ((c : Thread nD τ).loc main_arg0)) (m ((c : Thread nD τ).loc main_arg1)) (m ((c : Thread nD τ).loc main_arg2)) (W4 m ρ c (Proc.devRef .tc main_v31)))
        (m ((c : Thread nD τ).loc main_arg18)) (m ((c : Thread nD τ).loc main_arg19)) := by
  refine (W6_arr m ρ c 5).trans ((final2 (E5 m ρ) c).trans ?_)
  show layerG (W5 m ρ c (Proc.devRef .tc main_v31)) (W5 m ρ c (Proc.devRef .tc main_v44)) (W5 m ρ c (Proc.devRef .tc main_v46))
      (W5 m ρ c (Proc.devRef .tc main_v48)) (W5 m ρ c (Proc.devRef .tc main_v49)) = _
  rw [W5_v44, W5_v46, W5_v48, W5_v49, W5_v31]
  exact layerG_halves _ _ _ _ _ _ _ (fun k j => halfA_apply _ _ _ k j) (fun k j => halfB_apply _ _ _ k j) (fun j => kRow_apply _ j)

/-! ## The result -/

set_option maxHeartbeats 1000000 in
/-- The result buffer after the kernel program's run is the reference's function of the arguments' launch contents. -/
theorem out_value (c : Dev nD) : W7 m ρ c (Proc.devRef .tc main_v51)
    = refOut (F := Ideal) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14)) (m ((c : Thread nD τ).loc main_arg15))
        (m ((c : Thread nD τ).loc main_arg16)) (m ((c : Thread nD τ).loc main_arg17)) (m ((c : Thread nD τ).loc main_arg18)) (m ((c : Thread nD τ).loc main_arg19)) := by
  have hego : W3 m ρ c (Proc.devRef .tc main_v12)
      = refEgo (F := Ideal) (m ((c : Thread nD τ).loc main_arg3))
          (refFused (F := Ideal) (m ((c : Thread nD τ).loc main_arg4)) (m ((c : Thread nD τ).loc main_arg5)) (m ((c : Thread nD τ).loc main_arg6)) (m ((c : Thread nD τ).loc main_arg7))
            (m ((c : Thread nD τ).loc main_arg8)) (m ((c : Thread nD τ).loc main_arg9)) (m ((c : Thread nD τ).loc main_arg10)) (m ((c : Thread nD τ).loc main_arg11))
            (m ((c : Thread nD τ).loc main_arg12)) (m ((c : Thread nD τ).loc main_arg13)) (m ((c : Thread nD τ).loc main_arg14)) (m ((c : Thread nD τ).loc main_arg15))) := by
    rw [W3_v12, enc_value, refFused_eq]
    exact kEgo_eq _ _
  have hc1 : W4 m ρ c (Proc.devRef .tc main_v31)
      = refLayer (F := Ideal) (W3 m ρ c (Proc.devRef .tc main_v12))
          (refHop (F := Ideal) (m ((c : Thread nD τ).loc main_arg0)) (m ((c : Thread nD τ).loc main_arg1)) (m ((c : Thread nD τ).loc main_arg2)) (W3 m ρ c (Proc.devRef .tc main_v12)))
          (m ((c : Thread nD τ).loc main_arg16)) (m ((c : Thread nD τ).loc main_arg17)) := by
    rw [layer1_value, refLayer_eq, kHop_eq]
  have hc2 : W6 m ρ c (Proc.devRef .tc main_v50)
      = refLayer (F := Ideal) (W4 m ρ c (Proc.devRef .tc main_v31))
          (refHop (F := Ideal) (m ((c : Thread nD τ).loc main_arg0)) (m ((c : Thread nD τ).loc main_arg1)) (m ((c : Thread nD τ).loc main_arg2)) (W4 m ρ c (Proc.devRef .tc main_v31)))
          (m ((c : Thread nD τ).loc main_arg18)) (m ((c : Thread nD τ).loc main_arg19)) := by
    rw [layer2_value, refLayer_eq, kHop_eq]
  rw [W7_v51, hc2, hc1, hego]
  rfl

end Cert.KernelIdeal.Hand
end
-- ==== Proof.lean ====
/-
  The certificate of the graph-network kernel against its jnp reference.

  The kernel program runs three tiled regions on the device — the item encoder (two three-layer towers added and halved)
  and two graph layers (leaky (x A + n B + b) over blocks of rows) — between stretches of host operations: transposes of
  the weights, the scatter of the encoded items into the embedding table, and, before each layer, the neighbourhood sum
  (gather, product with the edge weights, accumulating scatter). The reference does everything with host operations.

  * The three frames. The kernel program, word-level and idealized, terminates without a fault and leaves its twenty
    arguments unchanged: each region's body is run on its staging buffers and the pipeline's launch rule carries the
    buffers' contents from boundary to boundary (Kernel/Run, KernelIdeal/Run). The reference's run is read back operation
    by operation (RefRun), and its frame is that run with the result dropped.
  * The idealization rewrote nothing, so its conjunct is trivial.
  * Equal results on the extended reals. The kernel's result buffer is the concatenation of the node table and the two
    layers' outputs; each region's output array is an explicit formula of the arrays it finds (Value0, Value1, Value2), and
    those formulas, rewritten in the original arguments, are the reference's own functions (Bridge): a product against a
    transposed weight is a sum over the shared index either way, a tile of rows computes exactly its rows, the two
    64-column products of a layer are the halves of the reference's 128-column product, and the two rectifiers differ
    only at 0 where both give 0. Only commutativity and associativity of addition are used, so the precondition is not
    needed for the values.
-/
import proofs.«128426_j13245679141184_1_alg».proof.Defs
import proofs.«128426_j13245679141184_1_alg».proof.Proof.Gen.Kernel
import proofs.«128426_j13245679141184_1_alg».proof.Proof.Gen.KernelIdeal
import proofs.«128426_j13245679141184_1_alg».proof.Proof.Gen.ReferenceIdeal
import proofs.«128426_j13245679141184_1_alg».proof.Proof.Gen.Pre_finite_inputs
import proofs.«128426_j13245679141184_1_alg».proof.Proof.Kernel.Run
import proofs.«128426_j13245679141184_1_alg».proof.Proof.KernelIdeal.Run
import proofs.«128426_j13245679141184_1_alg».proof.Proof.RefRun
import proofs.«128426_j13245679141184_1_alg».proof.Proof.Bridge
import Idealize.ShloMosaic.Adequacy
import Idealize.ShloMosaic.Init

noncomputable section

namespace Cert.Proof

open Idealize.ShloMosaic Idealize.SL.Sem

/-- The word-level kernel program runs to the end, faults nowhere and leaves its arguments unchanged. -/
theorem frame_k : Cert.frame_Kernel := fun m g _ => Cert.Kernel.Hand.frame (F := Bits) m g

/-- So does the idealized kernel program. -/
theorem frame_ki : Cert.frame_KernelIdeal := fun m g _ => Cert.KernelIdeal.Hand.frame (F := Ideal) m g

/-- The reference's frame is its run with the result dropped. -/
theorem frame_ri : Cert.frame_ReferenceIdeal := fun m g _ =>
  (θ_run Cert.ReferenceIdeal.defs _ _).mono (fun _ h c => (h c).2) (Cert.ReferenceIdeal.Hand.run (F := Ideal) m g)

/-- The idealization rewrote no operation. -/
theorem preserves : Cert.preserves_Kernel_KernelIdeal := trivial

open Cert.KernelIdeal Cert.KernelIdeal.Hand in
/-- The idealized kernel program's run with its result buffer named: the contents the last boundary holds there. -/
theorem run_ki (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev nD,
      r.2.mem ((c.tc : Thread nD τ).loc main_v51) = W7 m g c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run Cert.KernelIdeal.defs _ _).mono (fun r h c =>
    ⟨h c _ (mem_uc main_v51 (by decide)),
     (h c _ (mem_uc main_arg0 (by decide))).trans (W7_main_arg0 m g c),
     (h c _ (mem_uc main_arg1 (by decide))).trans (W7_main_arg1 m g c),
     (h c _ (mem_uc main_arg2 (by decide))).trans (W7_main_arg2 m g c),
     (h c _ (mem_uc main_arg3 (by decide))).trans (W7_main_arg3 m g c),
     (h c _ (mem_uc main_arg4 (by decide))).trans (W7_main_arg4 m g c),
     (h c _ (mem_uc main_arg5 (by decide))).trans (W7_main_arg5 m g c),
     (h c _ (mem_uc main_arg6 (by decide))).trans (W7_main_arg6 m g c),
     (h c _ (mem_uc main_arg7 (by decide))).trans (W7_main_arg7 m g c),
     (h c _ (mem_uc main_arg8 (by decide))).trans (W7_main_arg8 m g c),
     (h c _ (mem_uc main_arg9 (by decide))).trans (W7_main_arg9 m g c),
     (h c _ (mem_uc main_arg10 (by decide))).trans (W7_main_arg10 m g c),
     (h c _ (mem_uc main_arg11 (by decide))).trans (W7_main_arg11 m g c),
     (h c _ (mem_uc main_arg12 (by decide))).trans (W7_main_arg12 m g c),
     (h c _ (mem_uc main_arg13 (by decide))).trans (W7_main_arg13 m g c),
     (h c _ (mem_uc main_arg14 (by decide))).trans (W7_main_arg14 m g c),
     (h c _ (mem_uc main_arg15 (by decide))).trans (W7_main_arg15 m g c),
     (h c _ (mem_uc main_arg16 (by decide))).trans (W7_main_arg16 m g c),
     (h c _ (mem_uc main_arg17 (by decide))).trans (W7_main_arg17 m g c),
     (h c _ (mem_uc main_arg18 (by decide))).trans (W7_main_arg18 m g c),
     (h c _ (mem_uc main_arg19 (by decide))).trans (W7_main_arg19 m g c)⟩) (run_all m g)

/-- From memories agreeing on the arguments both programs end with equal results: the kernel's result buffer is the
    reference's function of the arguments (Bridge.out_value), and the reference's result buffer is that function of its
    own, equal, arguments (RefRun.run). -/
theorem algebraic : Cert.algebraic_KernelIdeal_ReferenceIdeal := by
  intro m g m' g' _ hagree
  refine ⟨fun c => Cert.KernelIdeal.Hand.W7 m g c (Proc.devRef .tc Cert.KernelIdeal.main_v51), run_ki m g, ?_⟩
  refine (θ_run Cert.ReferenceIdeal.defs _ _).mono (fun _ h c => ⟨(h c).1.trans ?_, (h c).2⟩)
    (Cert.ReferenceIdeal.Hand.run (F := Ideal) m' g')
  obtain ⟨e0, e1, e2, e3, e4, e5, e6, e7, e8, e9, e10, e11, e12, e13, e14, e15, e16, e17, e18, e19⟩ := hagree c
  rw [e0, e1, e2, e3, e4, e5, e6, e7, e8, e9, e10, e11, e12, e13, e14, e15, e16, e17, e18, e19]
  exact (Cert.KernelIdeal.Hand.out_value m g c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
